-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S1000x128 : Shape := ⟨2, ![1000, 128]⟩
abbrev S10000x128 : Shape := ⟨2, ![10000, 128]⟩
abbrev S10000 : Shape := ⟨1, ![10000]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S10000 : S_.BroadcastsInDim S10000 (![] : Fin 0 → Fin S10000.rank)
  reducesTo_S10000_S_d0 : S10000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg0 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .sle main_arg0 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : IVec S4096 32) (main_arg1 : FVec F S1000x128 .f32) (main_arg2 : FVec F S10000x128 .f32) (main_arg3 : FVec F S10000 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S10000x128 .f32 := Host.absf main_arg2
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000 .f32 := Host.absf main_arg3
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg0 main_v14
  let main_c_5 : IVec S_ 32 := constantI S_ 32 999#32
  fn_part1 (F := F) main_arg0 main_v13 main_v15 main_c_5
-- ==== Kernel.lean ====
abbrev S4096 : Shape := ⟨1, ![4096]⟩
abbrev S1000x128 : Shape := ⟨2, ![1000, 128]⟩
abbrev S10000x128 : Shape := ⟨2, ![10000, 128]⟩
abbrev S10000 : Shape := ⟨1, ![10000]⟩
abbrev S1x4096 : Shape := ⟨2, ![1, 4096]⟩
abbrev S4096x128 : Shape := ⟨2, ![4096, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S10x1000x128 : Shape := ⟨3, ![10, 1000, 128]⟩
abbrev S10x1000 : Shape := ⟨2, ![10, 1000]⟩
abbrev S1000x10 : Shape := ⟨2, ![1000, 10]⟩
abbrev S10x1000x4096 : Shape := ⟨3, ![10, 1000, 4096]⟩
abbrev S256x128 : Shape := ⟨2, ![256, 128]⟩
abbrev S10x1000x256 : Shape := ⟨3, ![10, 1000, 256]⟩
abbrev S1x1000x128 : Shape := ⟨3, ![1, 1000, 128]⟩
abbrev S1000x256 : Shape := ⟨2, ![1000, 256]⟩
abbrev S1000x1 : Shape := ⟨2, ![1000, 1]⟩
abbrev S256 : Shape := ⟨1, ![256]⟩
abbrev S1x256 : Shape := ⟨2, ![1, 256]⟩
abbrev S1x1000x256 : Shape := ⟨3, ![1, 1000, 256]⟩
abbrev S4096x10x1000 : Shape := ⟨3, ![4096, 10, 1000]⟩

abbrev nBuf : Table → Nat
  | .hbm => 12
  | .local .tc .vmem => 6
  | .local .scVector .vmem => 2
  | _ => 0

abbrev bufTy : (tb : Table) → Fin (nBuf tb) → BufTy
  | .hbm, ⟨0, _⟩ => ⟨S4096, .i32⟩
  | .hbm, ⟨1, _⟩ => ⟨S1000x128, .f32⟩
  | .hbm, ⟨2, _⟩ => ⟨S10000x128, .f32⟩
  | .hbm, ⟨3, _⟩ => ⟨S10000, .f32⟩
  | .hbm, ⟨4, _⟩ => ⟨S1x4096, .i32⟩
  | .hbm, ⟨5, _⟩ => ⟨S4096x128, .f32⟩
  | .hbm, ⟨6, _⟩ => ⟨S10x1000x128, .f32⟩
  | .hbm, ⟨7, _⟩ => ⟨S10x1000x128, .bf16⟩
  | .hbm, ⟨8, _⟩ => ⟨S10x1000, .f32⟩
  | .hbm, ⟨9, _⟩ => ⟨S1000x10, .f32⟩
  | .hbm, ⟨10, _⟩ => ⟨S10x1000x4096, .f32⟩
  | .hbm, ⟨11, _⟩ => ⟨S4096x10x1000, .f32⟩
  | .local .tc .vmem, ⟨0, _⟩ => ⟨S256x128, .f32⟩
  | .local .tc .vmem, ⟨1, _⟩ => ⟨S256x128, .f32⟩
  | .local .tc .vmem, ⟨2, _⟩ => ⟨S10x1000x128, .bf16⟩
  | .local .tc .vmem, ⟨3, _⟩ => ⟨S1000x10, .f32⟩
  | .local .tc .vmem, ⟨4, _⟩ => ⟨S10x1000x256, .f32⟩
  | .local .tc .vmem, ⟨5, _⟩ => ⟨S10x1000x256, .f32⟩
  | .local .scVector .vmem, ⟨0, _⟩ => ⟨S2x1x128, .i32⟩
  | .local .scVector .vmem, ⟨1, _⟩ => ⟨S2x128x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_19_r0 : BitVec 32 := 0#32
  let c2_i32_r0 : BitVec 32 := 2#32
  let v20_r0 : BitVec 32 := Scalar.remui c0_i32_19_r0 c2_i32_r0
  let c0_i32_20_r0 : BitVec 32 := 0#32
  let c0_i32_21_r0 : BitVec 32 := 0#32
  ![v20_r0.toNat, 0, 0]
def k0_off2 (i : grid0.Coords) : Fin 2 → Nat :=
  let c0_i32_22_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c128_i32_r0 v7_r0
  ![0, v21_r0.toNat]
def k0_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k0_cond1 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v46_r0 : BitVec 1 := Scalar.cmpi .ne v33_r0 v41_r0
  let c0_i32_32_r0 : BitVec 32 := 0#32
  let c0_i32_54_r0 : BitVec 32 := 0#32
  let v47_r0 : BitVec 1 := Scalar.cmpi .sge c0_i32_32_r0 c0_i32_54_r0
  let true_55_r0 : BitVec 1 := 1#1
  let v48_r0 : BitVec 1 := Scalar.xori v47_r0 true_55_r0
  let v49_r0 : BitVec 1 := Scalar.andi v46_r0 v48_r0
  let v50_r0 : BitVec 32 := Scalar.extui v49_r0
  let c0_i32_56_r0 : BitVec 32 := 0#32
  let v51_r0 : BitVec 1 := Scalar.cmpi .ne v50_r0 c0_i32_56_r0
  v51_r0

def k0_off4 : Fin 3 → Nat :=
  let c0_i32_26_r0 : BitVec 32 := 0#32
  let c1_i32_27_r0 : BitVec 32 := 1#32
  let v30_r0 : BitVec 32 := Scalar.addi c0_i32_26_r0 c1_i32_27_r0
  let c2_i32_120_r0 : BitVec 32 := 2#32
  let v135_r0 : BitVec 32 := Scalar.remui v30_r0 c2_i32_120_r0
  let c0_i32_122_r0 : BitVec 32 := 0#32
  let c0_i32_123_r0 : BitVec 32 := 0#32
  ![v135_r0.toNat, 0, 0]
def k0_off5 (i : grid0.Coords) : Fin 2 → Nat :=
  let c0_i32_124_r0 : BitVec 32 := 0#32
  let c128_i32_121_r0 : BitVec 32 := 128#32
  let c0_i32_47_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_47_r0 v4
  let v136_r0 : BitVec 32 := Scalar.muli c128_i32_121_r0 v41_r0
  ![0, v136_r0.toNat]
def k0_off6 : Fin 1 → Nat :=
  let c0_i32_26_r0 : BitVec 32 := 0#32
  let c1_i32_27_r0 : BitVec 32 := 1#32
  let v30_r0 : BitVec 32 := Scalar.addi c0_i32_26_r0 c1_i32_27_r0
  let c2_i32_120_r0 : BitVec 32 := 2#32
  let v135_r0 : BitVec 32 := Scalar.remui v30_r0 c2_i32_120_r0
  ![v135_r0.toNat]
def k0_cond2 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v59_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let v60_r0 : BitVec 1 := Scalar.ori v59_r0 v31_r0
  let c0_i32_61_r0 : BitVec 32 := 0#32
  let v61_r0 : BitVec 1 := Scalar.cmpi .slt c0_i32_32_r0 c0_i32_61_r0
  let true_62_r0 : BitVec 1 := 1#1
  let v62_r0 : BitVec 1 := Scalar.xori v61_r0 true_62_r0
  let v63_r0 : BitVec 1 := Scalar.andi v60_r0 v62_r0
  let v64_r0 : BitVec 32 := Scalar.extui v63_r0
  let c0_i32_63_r0 : BitVec 32 := 0#32
  let v65_r0 : BitVec 1 := Scalar.cmpi .ne v64_r0 c0_i32_63_r0
  v65_r0

def k0_off7 : Fin 3 → Nat :=
  let c0_i32_28_r0 : BitVec 32 := 0#32
  let c2_i32_121_r0 : BitVec 32 := 2#32
  let v136_r0 : BitVec 32 := Scalar.remui c0_i32_28_r0 c2_i32_121_r0
  let c0_i32_122_r0 : BitVec 32 := 0#32
  let c0_i32_123_r0 : BitVec 32 := 0#32
  ![v136_r0.toNat, 0, 0]
def k0_off8 (i : grid0.Coords) : Fin 2 → Nat :=
  let c0_i32_124_r0 : BitVec 32 := 0#32
  let c128_i32_120_r0 : BitVec 32 := 128#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v135_r0 : BitVec 32 := Scalar.muli c128_i32_120_r0 v33_r0
  ![0, v135_r0.toNat]
def k0_off9 : Fin 1 → Nat :=
  let c0_i32_28_r0 : BitVec 32 := 0#32
  let c2_i32_121_r0 : BitVec 32 := 2#32
  let v136_r0 : BitVec 32 := Scalar.remui c0_i32_28_r0 c2_i32_121_r0
  ![v136_r0.toNat]
def k0_off10 : Fin 3 → Nat :=
  let c0_i32_29_r0 : BitVec 32 := 0#32
  let c2_i32_68_r0 : BitVec 32 := 2#32
  let v74_r0 : BitVec 32 := Scalar.remui c0_i32_29_r0 c2_i32_68_r0
  let c0_i32_120_r1 : BitVec 32 := 0#32
  let c0_i32_121_r1 : BitVec 32 := 0#32
  ![v74_r0.toNat, 0, 0]
def k0_cond5 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v80_r0 : BitVec 1 := Scalar.cmpi .ne v33_r0 v41_r0
  let c0_i32_32_r0 : BitVec 32 := 0#32
  let c0_i32_34_r0 : BitVec 32 := 0#32
  let v32_r0 : BitVec 1 := Scalar.cmpi .eq c0_i32_32_r0 c0_i32_34_r0
  let v81_r0 : BitVec 1 := Scalar.ori v80_r0 v32_r0
  let v82_r0 : BitVec 32 := Scalar.extui v81_r0
  let c0_i32_71_r0 : BitVec 32 := 0#32
  let v83_r0 : BitVec 1 := Scalar.cmpi .ne v82_r0 c0_i32_71_r0
  v83_r0

def k0_off11 : Fin 3 → Nat :=
  let c0_i32_29_r0 : BitVec 32 := 0#32
  let c2_i32_120_r0 : BitVec 32 := 2#32
  let v135_r0 : BitVec 32 := Scalar.remui c0_i32_29_r0 c2_i32_120_r0
  let c0_i32_122_r0 : BitVec 32 := 0#32
  let c0_i32_123_r0 : BitVec 32 := 0#32
  ![v135_r0.toNat, 0, 0]
def k0_off12 (i : grid0.Coords) : Fin 2 → Nat :=
  let c128_i32_121_r0 : BitVec 32 := 128#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v136_r0 : BitVec 32 := Scalar.muli c128_i32_121_r0 v33_r0
  let c0_i32_124_r0 : BitVec 32 := 0#32
  ![v136_r0.toNat, 0]
def k0_off13 : Fin 1 → Nat :=
  let c0_i32_29_r0 : BitVec 32 := 0#32
  let c2_i32_120_r0 : BitVec 32 := 2#32
  let v135_r0 : BitVec 32 := Scalar.remui c0_i32_29_r0 c2_i32_120_r0
  ![v135_r0.toNat]
def k0_cond7 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_77_r0 : BitVec 1 := 1#1
  let v94_r0 : BitVec 1 := Scalar.xori v31_r0 true_77_r0
  let v95_r0 : BitVec 1 := Scalar.andi v93_r0 v94_r0
  let v96_r0 : BitVec 32 := Scalar.extui v95_r0
  let c0_i32_78_r0 : BitVec 32 := 0#32
  let v97_r0 : BitVec 1 := Scalar.cmpi .ne v96_r0 c0_i32_78_r0
  v97_r0

def k0_off14 : Fin 3 → Nat :=
  let c0_i32_30_r0 : BitVec 32 := 0#32
  let c2_i32_120_r0 : BitVec 32 := 2#32
  let v135_r0 : BitVec 32 := Scalar.remui c0_i32_30_r0 c2_i32_120_r0
  let c0_i32_122_r0 : BitVec 32 := 0#32
  let c0_i32_123_r0 : BitVec 32 := 0#32
  ![v135_r0.toNat, 0, 0]
def k0_off15 (i : grid0.Coords) : Fin 2 → Nat :=
  let c128_i32_121_r0 : BitVec 32 := 128#32
  let c0_i32_41_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_41_r0 v4
  let v136_r0 : BitVec 32 := Scalar.muli c128_i32_121_r0 v37_r0
  let c0_i32_124_r0 : BitVec 32 := 0#32
  ![v136_r0.toNat, 0]
def k0_off16 : Fin 1 → Nat :=
  let c0_i32_30_r0 : BitVec 32 := 0#32
  let c2_i32_120_r0 : BitVec 32 := 2#32
  let v135_r0 : BitVec 32 := Scalar.remui c0_i32_30_r0 c2_i32_120_r0
  ![v135_r0.toNat]
def k0_off17 (i : grid0.Coords) : Fin 3 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_77_r0 : BitVec 1 := 1#1
  let v94_r0 : BitVec 1 := Scalar.xori v31_r0 true_77_r0
  let v95_r0 : BitVec 1 := Scalar.andi v93_r0 v94_r0
  let true_79_r0 : BitVec 1 := 1#1
  let v98_r0 : BitVec 1 := Scalar.andi v95_r0 true_79_r0
  let c0_i32_30_r0 : BitVec 32 := 0#32
  let c1_i32_80_r0 : BitVec 32 := 1#32
  let v99_r0 : BitVec 32 := Scalar.addi c0_i32_30_r0 c1_i32_80_r0
  let v100_r0 : BitVec 32 := Scalar.select v98_r0 v99_r0 c0_i32_30_r0
  let c2_i32_112_r0 : BitVec 32 := 2#32
  let v125_r0 : BitVec 32 := Scalar.remui v100_r0 c2_i32_112_r0
  let c0_i32_114_r0 : BitVec 32 := 0#32
  let c0_i32_115_r0 : BitVec 32 := 0#32
  ![v125_r0.toNat, 0, 0]
def k0_off18 (i : grid0.Coords) : Fin 2 → Nat :=
  let c128_i32_113_r0 : BitVec 32 := 128#32
  let c0_i32_93_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v112_r0 : BitVec 32 := Scalar.addi c0_i32_93_r0 v4
  let v126_r0 : BitVec 32 := Scalar.muli c128_i32_113_r0 v112_r0
  let c0_i32_116_r0 : BitVec 32 := 0#32
  ![v126_r0.toNat, 0]
def k0_off19 (i : grid0.Coords) : Fin 1 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_77_r0 : BitVec 1 := 1#1
  let v94_r0 : BitVec 1 := Scalar.xori v31_r0 true_77_r0
  let v95_r0 : BitVec 1 := Scalar.andi v93_r0 v94_r0
  let true_79_r0 : BitVec 1 := 1#1
  let v98_r0 : BitVec 1 := Scalar.andi v95_r0 true_79_r0
  let c0_i32_30_r0 : BitVec 32 := 0#32
  let c1_i32_80_r0 : BitVec 32 := 1#32
  let v99_r0 : BitVec 32 := Scalar.addi c0_i32_30_r0 c1_i32_80_r0
  let v100_r0 : BitVec 32 := Scalar.select v98_r0 v99_r0 c0_i32_30_r0
  let c2_i32_112_r0 : BitVec 32 := 2#32
  let v125_r0 : BitVec 32 := Scalar.remui v100_r0 c2_i32_112_r0
  ![v125_r0.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x1000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1000x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10x1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096_S1x4096 : S4096.ShapeCasts S1x4096
  squeezes_S1x1x128_S1x128 : S1x1x128.Squeezes S1x128
  squeezes_S1_S_ : S1.Squeezes S_
  squeezes_S1x128x128_S128x128 : S1x128x128.Squeezes S128x128
  inb_S1x128_S1x128_0_0 : ∀ a, (![0, 0] : Fin 2 → Nat) a + S1x128.size a ≤ S1x128.size a
  squeezes_S1x128_S128 : S1x128.Squeezes S128
  inb_S1000x128_S1000x128_0_0 : ∀ a, (![0, 0] : Fin 2 → Nat) a + S1000x128.size a ≤ S1000x128.size a
  gathers_S1000x128_S128x128 : S1000x128.Gathers 0 S128x128
  shapeCasts_S10000x128_S10x1000x128 : S10000x128.ShapeCasts S10x1000x128
  bitsLt_bf16_f32 : FTy.bits .bf16 < FTy.bits .f32
  shapeCasts_S10000_S10x1000 : S10000.ShapeCasts S10x1000
  transposes_S10x1000_S1000x10_1_0 : S10x1000.Transposes [1, 0] S1000x10
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10x1000x128_S1x1000x128_0_0_0 : ∀ a, (![0, 0, 0] : Fin 3 → Nat) a + S1x1000x128.size a ≤ S10x1000x128.size a
  h_S1x1000x128 : 0 < S1x1000x128.numel
  shapeCasts_S1x1000x128_S1000x128 : S1x1000x128.ShapeCasts S1000x128
  inb_S1000x10_S1000x1_0_0 : ∀ a, (![0, 0] : Fin 2 → Nat) a + S1000x1.size a ≤ S1000x10.size a
  h_S1000x1 : 0 < S1000x1.numel
  shapeCasts_S1000x1_S1000x1 : S1000x1.ShapeCasts S1000x1
  broadcasts_S1000x1_S1000x256 : S1000x1.Broadcasts S1000x256
  reduces_S1000x256_S256 : S1000x256.Reduces [0] S256
  shapeCasts_S256_S1x256 : S256.ShapeCasts S1x256
  broadcasts_S1x256_S1000x256 : S1x256.Broadcasts S1000x256
  inb_S10x1000x256_S1x1000x256_0_0_0 : ∀ a, (![0, 0, 0] : Fin 3 → Nat) a + S1x1000x256.size a ≤ S10x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S10x1000x128_S1x1000x128_1_0_0 : ∀ a, (![1, 0, 0] : Fin 3 → Nat) a + S1x1000x128.size a ≤ S10x1000x128.size a
  inb_S1000x10_S1000x1_0_1 : ∀ a, (![0, 1] : Fin 2 → Nat) a + S1000x1.size a ≤ S1000x10.size a
  inb_S10x1000x256_S1x1000x256_1_0_0 : ∀ a, (![1, 0, 0] : Fin 3 → Nat) a + S1x1000x256.size a ≤ S10x1000x256.size a
  inb_S10x1000x128_S1x1000x128_2_0_0 : ∀ a, (![2, 0, 0] : Fin 3 → Nat) a + S1x1000x128.size a ≤ S10x1000x128.size a
  inb_S1000x10_S1000x1_0_2 : ∀ a, (![0, 2] : Fin 2 → Nat) a + S1000x1.size a ≤ S1000x10.size a
  inb_S10x1000x256_S1x1000x256_2_0_0 : ∀ a, (![2, 0, 0] : Fin 3 → Nat) a + S1x1000x256.size a ≤ S10x1000x256.size a
  inb_S10x1000x128_S1x1000x128_3_0_0 : ∀ a, (![3, 0, 0] : Fin 3 → Nat) a + S1x1000x128.size a ≤ S10x1000x128.size a
  inb_S1000x10_S1000x1_0_3 : ∀ a, (![0, 3] : Fin 2 → Nat) a + S1000x1.size a ≤ S1000x10.size a
  inb_S10x1000x256_S1x1000x256_3_0_0 : ∀ a, (![3, 0, 0] : Fin 3 → Nat) a + S1x1000x256.size a ≤ S10x1000x256.size a
  inb_S10x1000x128_S1x1000x128_4_0_0 : ∀ a, (![4, 0, 0] : Fin 3 → Nat) a + S1x1000x128.size a ≤ S10x1000x128.size a
  inb_S1000x10_S1000x1_0_4 : ∀ a, (![0, 4] : Fin 2 → Nat) a + S1000x1.size a ≤ S1000x10.size a
  inb_S10x1000x256_S1x1000x256_4_0_0 : ∀ a, (![4, 0, 0] : Fin 3 → Nat) a + S1x1000x256.size a ≤ S10x1000x256.size a
  inb_S10x1000x128_S1x1000x128_5_0_0 : ∀ a, (![5, 0, 0] : Fin 3 → Nat) a + S1x1000x128.size a ≤ S10x1000x128.size a
  inb_S1000x10_S1000x1_0_5 : ∀ a, (![0, 5] : Fin 2 → Nat) a + S1000x1.size a ≤ S1000x10.size a
  inb_S10x1000x256_S1x1000x256_5_0_0 : ∀ a, (![5, 0, 0] : Fin 3 → Nat) a + S1x1000x256.size a ≤ S10x1000x256.size a
  inb_S10x1000x128_S1x1000x128_6_0_0 : ∀ a, (![6, 0, 0] : Fin 3 → Nat) a + S1x1000x128.size a ≤ S10x1000x128.size a
  inb_S1000x10_S1000x1_0_6 : ∀ a, (![0, 6] : Fin 2 → Nat) a + S1000x1.size a ≤ S1000x10.size a
  inb_S10x1000x256_S1x1000x256_6_0_0 : ∀ a, (![6, 0, 0] : Fin 3 → Nat) a + S1x1000x256.size a ≤ S10x1000x256.size a
  inb_S10x1000x128_S1x1000x128_7_0_0 : ∀ a, (![7, 0, 0] : Fin 3 → Nat) a + S1x1000x128.size a ≤ S10x1000x128.size a
  inb_S1000x10_S1000x1_0_7 : ∀ a, (![0, 7] : Fin 2 → Nat) a + S1000x1.size a ≤ S1000x10.size a
  inb_S10x1000x256_S1x1000x256_7_0_0 : ∀ a, (![7, 0, 0] : Fin 3 → Nat) a + S1x1000x256.size a ≤ S10x1000x256.size a
  inb_S10x1000x128_S1x1000x128_8_0_0 : ∀ a, (![8, 0, 0] : Fin 3 → Nat) a + S1x1000x128.size a ≤ S10x1000x128.size a
  inb_S1000x10_S1000x1_0_8 : ∀ a, (![0, 8] : Fin 2 → Nat) a + S1000x1.size a ≤ S1000x10.size a
  inb_S10x1000x256_S1x1000x256_8_0_0 : ∀ a, (![8, 0, 0] : Fin 3 → Nat) a + S1x1000x256.size a ≤ S10x1000x256.size a
  inb_S10x1000x128_S1x1000x128_9_0_0 : ∀ a, (![9, 0, 0] : Fin 3 → Nat) a + S1x1000x128.size a ≤ S10x1000x128.size a
  inb_S1000x10_S1000x1_0_9 : ∀ a, (![0, 9] : Fin 2 → Nat) a + S1000x1.size a ≤ S1000x10.size a
  inb_S10x1000x256_S1x1000x256_9_0_0 : ∀ a, (![9, 0, 0] : Fin 3 → Nat) a + S1x1000x256.size a ≤ S10x1000x256.size a
  transposes_S10x1000x4096_S4096x10x1000_2_0_1 : S10x1000x4096.Transposes [2, 0, 1] S4096x10x1000
  dot_S1000x128_S256x128_S1000x256_1_1_0_0_n_n_wf : DotDims.WF S1000x128 S256x128 S1000x256 [1] [1] [0] [0] [] []
  hcc0_scoped1 : 0 + S2.numel ≤ 11
  hcc0_scoped3 : 2 + S2.numel ≤ 11
  hcc0_scoped4 : 4 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ a, k0_off1 a + S1x1x128.size a ≤ S2x1x128.size a
  k0_off2_inb : ∀ i : grid0.Coords, ∀ a, (k0_off2 i) a + S1x128.size a ≤ S1x4096.size a
  k0_off3_inb : ∀ a, k0_off3 a + S1.size a ≤ S2.size a
  k0_off4_inb : ∀ i : grid0.Coords, ∀ (k0_h1 : k0_cond1 i = 1#1), ∀ a, k0_off4 a + S1x1x128.size a ≤ S2x1x128.size a
  k0_off5_inb : ∀ i : grid0.Coords, ∀ (k0_h1 : k0_cond1 i = 1#1), ∀ a, (k0_off5 i) a + S1x128.size a ≤ S1x4096.size a
  k0_off6_inb : ∀ i : grid0.Coords, ∀ (k0_h1 : k0_cond1 i = 1#1), ∀ a, k0_off6 a + S1.size a ≤ S2.size a
  k0_off7_inb : ∀ i : grid0.Coords, ∀ (k0_h2 : k0_cond2 i = 1#1), ∀ a, k0_off7 a + S1x1x128.size a ≤ S2x1x128.size a
  k0_off8_inb : ∀ i : grid0.Coords, ∀ (k0_h2 : k0_cond2 i = 1#1), ∀ a, (k0_off8 i) a + S1x128.size a ≤ S1x4096.size a
  k0_off9_inb : ∀ i : grid0.Coords, ∀ (k0_h2 : k0_cond2 i = 1#1), ∀ a, k0_off9 a + S1.size a ≤ S2.size a
  k0_off10_inb : ∀ a, k0_off10 a + S1x128x128.size a ≤ S2x128x128.size a
  k0_off11_inb : ∀ i : grid0.Coords, ∀ (k0_h5 : k0_cond5 i = 1#1), ∀ a, k0_off11 a + S1x128x128.size a ≤ S2x128x128.size a
  k0_off12_inb : ∀ i : grid0.Coords, ∀ (k0_h5 : k0_cond5 i = 1#1), ∀ a, (k0_off12 i) a + S128x128.size a ≤ S4096x128.size a
  k0_off13_inb : ∀ i : grid0.Coords, ∀ (k0_h5 : k0_cond5 i = 1#1), ∀ a, k0_off13 a + S1.size a ≤ S2.size a
  k0_off14_inb : ∀ i : grid0.Coords, ∀ (k0_h7 : k0_cond7 i = 1#1), ∀ a, k0_off14 a + S1x128x128.size a ≤ S2x128x128.size a
  k0_off15_inb : ∀ i : grid0.Coords, ∀ (k0_h7 : k0_cond7 i = 1#1), ∀ a, (k0_off15 i) a + S128x128.size a ≤ S4096x128.size a
  k0_off16_inb : ∀ i : grid0.Coords, ∀ (k0_h7 : k0_cond7 i = 1#1), ∀ a, k0_off16 a + S1.size a ≤ S2.size a
  k0_off17_inb : ∀ i : grid0.Coords, ∀ a, (k0_off17 i) a + S1x128x128.size a ≤ S2x128x128.size a
  k0_off18_inb : ∀ i : grid0.Coords, ∀ a, (k0_off18 i) a + S128x128.size a ≤ S4096x128.size a
  k0_off19_inb : ∀ i : grid0.Coords, ∀ a, (k0_off19 i) a + S1.size a ≤ S2.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x128.size a
  hwx1_0 : ∀ i : grid1.Coords, EltTy.bits .f32 = 32 ∨ (Rect.block (s := S4096x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x1000x128.size a ≤ S10x1000x128.size a
  hwx1_1 : ∀ i : grid1.Coords, EltTy.bits .bf16 = 32 ∨ (Rect.block (s := S10x1000x128) S10x1000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x10.size a ≤ S1000x10.size a
  hwx1_2 : ∀ i : grid1.Coords, EltTy.bits .f32 = 32 ∨ (Rect.block (s := S1000x10) S1000x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10x1000x256.size a ≤ S10x1000x4096.size a
  hwx1_3 : ∀ i : grid1.Coords, EltTy.bits .f32 = 32 ∨ (Rect.block (s := S10x1000x4096) S10x1000x256.size (cc1_transform_3 i) (hinb1_3 i)).WholeWords (EltTy.packing .f32)

variable [Facts₀]

abbrev cc0_scoped1 : DmaSems sig S2 := SemArray.consecutive 0 S2 hcc0_scoped1
abbrev cc0_scoped3 : DmaSems sig S2 := SemArray.consecutive 2 S2 hcc0_scoped3
abbrev cc0_scoped4 : DmaSems sig S_ := SemArray.consecutive 4 S_ hcc0_scoped4
def dot_S1000x128_S256x128_S1000x256_1_1_0_0_n_n : DotDims S1000x128 S256x128 S1000x256 where
  lhsContracting := [1]
  rhsContracting := [1]
  lhsNonContracting := [0]
  rhsNonContracting := [0]
  lhsBatch := []
  rhsBatch := []
  wf := dot_S1000x128_S256x128_S1000x256_1_1_0_0_n_n_wf

abbrev win1_0 : Pipeline.Window sig grid1 :=
  Pipeline.Window.ofSpec (Memref.whole main_v1) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10x1000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1000x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S10x1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096 : Shape := ⟨1, ![4096]⟩
abbrev S1000x128 : Shape := ⟨2, ![1000, 128]⟩
abbrev S10000x128 : Shape := ⟨2, ![10000, 128]⟩
abbrev S10000 : Shape := ⟨1, ![10000]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x128 : Shape := ⟨2, ![4096, 128]⟩
abbrev S128x10000 : Shape := ⟨2, ![128, 10000]⟩
abbrev S4096x10000 : Shape := ⟨2, ![4096, 10000]⟩
abbrev S1x10000 : Shape := ⟨2, ![1, 10000]⟩
abbrev S4096x10x1000 : Shape := ⟨3, ![4096, 10, 1000]⟩
abbrev S4096x10 : Shape := ⟨2, ![4096, 10]⟩
abbrev S4096x10x1 : Shape := ⟨3, ![4096, 10, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096, .i32⟩
  | .hbm, ⟨1, _⟩ => ⟨S1000x128, .f32⟩
  | .hbm, ⟨2, _⟩ => ⟨S10000x128, .f32⟩
  | .hbm, ⟨3, _⟩ => ⟨S10000, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x128, .f32⟩
  | .hbm, ⟨23, _⟩ => ⟨S4096x128, .i1⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S128x10000, .f32⟩
  | .hbm, ⟨28, _⟩ => ⟨S4096x10000, .f32⟩
  | .hbm, ⟨29, _⟩ => ⟨S1x10000, .f32⟩
  | .hbm, ⟨30, _⟩ => ⟨S4096x10000, .f32⟩
  | .hbm, ⟨31, _⟩ => ⟨S4096x10000, .f32⟩
  | .hbm, ⟨32, _⟩ => ⟨S4096x10x1000, .f32⟩
  | .hbm, ⟨33, _⟩ => ⟨S_, .f32⟩
  | .hbm, ⟨34, _⟩ => ⟨S4096x10, .f32⟩
  | .hbm, ⟨35, _⟩ => ⟨S_, .f32⟩
  | .hbm, ⟨36, _⟩ => ⟨S4096x10, .f32⟩
  | .hbm, ⟨37, _⟩ => ⟨S4096x10, .f32⟩
  | .hbm, ⟨38, _⟩ => ⟨S4096x10x1, .f32⟩
  | .hbm, ⟨39, _⟩ => ⟨S4096x10x1000, .f32⟩
  | .hbm, ⟨40, _⟩ => ⟨S4096x10x1000, .f32⟩
  | .hbm, ⟨41, _⟩ => ⟨S4096x10x1000, .f32⟩
  | .hbm, ⟨42, _⟩ => ⟨S_, .f32⟩
  | .hbm, ⟨43, _⟩ => ⟨S4096x10, .f32⟩
  | .hbm, ⟨44, _⟩ => ⟨S4096x10x1, .f32⟩
  | .hbm, ⟨45, _⟩ => ⟨S4096x10x1000, .f32⟩
  | .hbm, ⟨46, _⟩ => ⟨S4096x10x1000, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  transposes_S10000x128_S128x10000_1_0 : S10000x128.Transposes [1, 0] S128x10000
  bcast_S10000_S1x10000_1 : S10000.BroadcastsInDim S1x10000 (![1] : Fin 1 → Fin S1x10000.rank)
  bcast_S1x10000_S4096x10000_0_1 : S1x10000.BroadcastsInDim S4096x10000 (![0, 1] : Fin 2 → Fin S4096x10000.rank)
  shapeCasts_S4096x10000_S4096x10x1000 : S4096x10000.ShapeCasts S4096x10x1000
  reducesTo_S4096x10x1000_S4096x10_d2 : S4096x10x1000.ReducesTo [2] S4096x10
  bcast_S_S4096x10 : S_.BroadcastsInDim S4096x10 (![] : Fin 0 → Fin S4096x10.rank)
  bcast_S4096x10_S4096x10x1_0_1 : S4096x10.BroadcastsInDim S4096x10x1 (![0, 1] : Fin 2 → Fin S4096x10x1.rank)
  bcast_S4096x10x1_S4096x10x1000_0_1_2 : S4096x10x1.BroadcastsInDim S4096x10x1000 (![0, 1, 2] : Fin 3 → Fin S4096x10x1000.rank)
  gather_S1000x128_S4096x1_S4096x128_1_0_n_n_0_1_1128_wf : GatherDims.WF S1000x128 S4096x1 S4096x128 [1] [0] [] [0] [] 1 ![1, 128]
  dot_S4096x128_S128x10000_S4096x10000_1_0_0_1_n_n_wf : DotDims.WF S4096x128 S128x10000 S4096x10000 [1] [0] [0] [1] [] []

variable [Facts₀]

def gather_S1000x128_S4096x1_S4096x128_1_0_n_n_0_1_1128 : GatherDims S1000x128 S4096x1 S4096x128 where
  offsetDims := [1]
  collapsedSliceDims := [0]
  operandBatchingDims := []
  startIndicesBatchingDims := []
  startIndexMap := [0]
  indexVectorDim := 1
  sliceSizes := ![1, 128]
  wf := gather_S1000x128_S4096x1_S4096x128_1_0_n_n_0_1_1128_wf
def dot_S4096x128_S128x10000_S4096x10000_1_0_0_1_n_n : DotDims S4096x128 S128x10000 S4096x10000 where
  lhsContracting := [1]
  rhsContracting := [0]
  lhsNonContracting := [0]
  rhsNonContracting := [1]
  lhsBatch := []
  rhsBatch := []
  wf := dot_S4096x128_S128x10000_S4096x10000_1_0_0_1_n_n_wf

class Facts : Prop extends Facts₀ where

variable [Facts]
-- ==== Proof.KI.Common.lean ====
/-
  What the two printed programs' proofs share: the program as the SparseCore launch theorem reads it (the call
  configuration, the body table under it, the variants), the resource algebra — the handshakes' rounds, the TensorCore
  pipeline's staging cells' rounds, and the transfers' counters side by side — with the three embeddings into the
  machine's algebra, and names for the three HBM arrays the SparseCore call touches.
  Stated over the KernelIdeal printing; generic in the float instance.
-/
import proofs.«218874_g56547539419890_cont_9to1c4b_400_22_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«218874_g56547539419890_cont_9to1c4b_400_22_alg».proof.Proof.Gen.KernelIdeal
import proofs.«218874_g56547539419890_cont_9to1c4b_400_22_alg».proof.Proof.Gen.KernelIdeal.Skeleton
import proofs.«218874_g56547539419890_cont_9to1c4b_400_22_alg».proof.Proof.Gen.KernelIdeal.Launch
import proofs.«218874_g56547539419890_cont_9to1c4b_400_22_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The certificate's label signature under the SparseCore layer: the kernels' labels and the one pipeline's. -/
abbrev ΛP : Labels := Pipeline.Sig Λ₀ (Fin 1) fun p => (pcfgs (F := F) p).Adm
/-- The SparseCore calls of @main. -/
abbrev K : SparseCore.Cfg τ sig (ΛP (F := F)) 1 := sc (F := F)
theorem nCore_zero : (K (F := F)).nCore 0 = 2 := rfl
theorem nSub_zero : (K (F := F)).nSub 0 = 16 := rfl
/-- The body table under the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UP : Type := URounds (GSem nD τ sig) Unit
/-- Handshakes, staging cells, transfer counters. -/
abbrev UU : Type := UH × (UP × Counters)

/-- The machine's algebra at this program. -/
abbrev MM (F : FTy → Type) : Type := MT nD τ sig (HIx 1) (Elt F) ℕ UU ℕ

abbrev EH : Emb UH (MM F) := embL
abbrev ER : Emb (UP × Counters) (MM F) := embR
abbrev EP : Emb UP (MM F) := (Emb.inl : Emb UP (UP × Counters)).trans (ER (F := F))

instance EP_landsIn : (EP (F := F)).LandsIn (upEmb : UEmb _ (MM F)) := by unfold EP ER; infer_instance

/-! ## The arrays of the SparseCore call -/

/-- The index array, reshaped to one row (main_v0); the table (main_arg1); the gathered rows (main_v1). -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

end Cert.KernelIdeal.Hand

end
-- ==== Proof.KI.Ghost.lean ====
/-
  The launch element of the ghost state: the handshakes' rounds at their launch cells and tokens, the TensorCore
  pipeline's staging cells' rounds at theirs, and the transfer counters at their unit. From it the launch deals the
  handshake cells' state to the SparseCore launch theorem and, to each device's TensorCore, the staging cells' ghost
  state and duty tokens its one pipelined region is entered with.
-/
import proofs.«218874_g56547539419890_cont_9to1c4b_400_22_alg».proof.Proof.KI.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- The launch element: handshakes, staging cells, counters. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals device `d`'s TensorCore besides the handshakes: the staging cells' ghost state and the duty
    tokens of the one pipelined region. -/
def GG (d : Dev nD) : sProp 𝕄 :=
  iprop(Pipeline.cellsGhost (nD := nD) (τ := τ) cfgs (EP (F := F)) 0 d ∗ Pipeline.toksInit (nD := nD) (τ := τ) cfgs (EP (F := F)) 0 d)

theorem bigSep_emp' {I : Type} (s : Finset I) : (bigSep s fun _ => iprop(emp)) = (iprop(emp) : sProp 𝕄) := bigSep_emp_const s

/-- The launch element splits into the handshakes' element and, funded, each device's staging ghost state; a
    payload record that asks nothing at the launch (`x = emp`) is served by `emp`. -/
theorem hu₀ (P : (K (F := F)).Pay (nD := nD) (Val := Elt F) (Name := ℕ) (U := UU)) (hx : ∀ q thr, P.x q thr = iprop(emp)) :
    (ownU (u₀ (F := F)) : sProp 𝕄)
    ⊢ |={Set.univ}=> iprop(BI.own (EH (F := F) (initOf (K (F := F)).hsCells (K (F := F)).hsToks)) ∗ (bigSep Finset.univ fun d : Dev nD => GG (F := F) d)
        ∗ bigSep Finset.univ fun thr : Thread nD τ => bigSep Finset.univ fun q : Fin 1 => P.x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HR⟩
  ihave HR' := (own_pair_emb (ER (F := F)) (initOf (Pipeline.cells (nD := nD) (τ := τ) cfgs cellOf_inj) (Pipeline.launchToks (nD := nD) (τ := τ) cfgs cellOf_inj)) (1 : Counters)) $$ HR
  icases HR' with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold GG
    rw [bigSep_sep']
    isplitl [Hg]
    · iapply (Entails.of_eq (bigSep_congr fun d _ => (bigSep_univ_of_subsingleton (0 : Fin 1) (Φ := fun p => Pipeline.cellsGhost (nD := nD) (τ := τ) cfgs (EP (F := F)) p d)))); iexact Hg
    · iapply (Entails.of_eq (bigSep_congr fun d _ => (bigSep_univ_of_subsingleton (0 : Fin 1) (Φ := fun p => Pipeline.toksInit (nD := nD) (τ := τ) cfgs (EP (F := F)) p d)))); iexact Ht
  rw [show (bigSep Finset.univ fun thr : Thread nD τ => bigSep Finset.univ fun q : Fin 1 => P.x q thr) = bigSep Finset.univ fun _ => iprop(emp) from
    bigSep_congr fun thr _ => (bigSep_univ_of_subsingleton (0 : Fin 1)).trans (hx 0 thr), bigSep_emp']
  iempintro

end Cert.KernelIdeal.Hand

end
-- ==== Proof.KI.ScPay.lean ====
/-
  The SparseCore call's payload: the parts of the index array, of the table and of the output array that each
  SparseCore and each of its vector subcores is handed and hands back, and the one whole-array function the output
  array holds once the call has ended. Generic in the float instance; the contents of the three arrays at the call
  are parameters.
-/
import proofs.«218874_g56547539419890_cont_9to1c4b_400_22_alg».proof.Proof.KI.Common
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F

/-! ## Shares of the table: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s half of the table's full share, and the sixteenth of it that is vector subcore `i`'s. -/
abbrev xqC (c : Fin 2) : PosShare TreeShare := leaf 1 fullShare c
abbrev xq (c : Fin 2) (i : Fin 16) : PosShare TreeShare := leaf 4 (xqC c) i

/-! ## The columns of the index array and the rows of the output array, by SparseCore and vector subcore

Vector subcore `i` of SparseCore `c` works on the 128 batch elements from `128 i + 2048 c` on: those columns of the
one-row index array, those rows of the output array. -/

theorem icol_inb (c : Fin 2) (i : Fin 16) : ∀ a, (![0, 128 * i.val + 2048 * c.val] : Fin 2 → ℕ) a + S1x128.size a ≤ S1x4096.size a := by
  intro a
  have hc := c.isLt; have hi := i.isLt
  match a with
  | 0 => show 0 + 1 ≤ 1; omega
  | 1 => show 128 * i.val + 2048 * c.val + 128 ≤ 4096; omega
theorem orow_inb (c : Fin 2) (i : Fin 16) : ∀ a, (![128 * i.val + 2048 * c.val, 0] : Fin 2 → ℕ) a + S128x128.size a ≤ S4096x128.size a := by
  intro a
  have hc := c.isLt; have hi := i.isLt
  match a with
  | 0 => show 128 * i.val + 2048 * c.val + 128 ≤ 4096; omega
  | 1 => show 0 + 128 ≤ 128; omega

abbrev icolR (c : Fin 2) (i : Fin 16) : Rect S1x4096 := Rect.unit (s := S1x4096) ![0, 128 * i.val + 2048 * c.val] S1x128.size (icol_inb c i)
abbrev orowR (c : Fin 2) (i : Fin 16) : Rect S4096x128 := Rect.unit (s := S4096x128) ![128 * i.val + 2048 * c.val, 0] S128x128.size (orow_inb c i)

/-- The index columns and the output rows of one vector subcore, and of one SparseCore (its sixteen subcores'). -/
def iTileSet (c : Fin 2) (i : Fin 16) : Finset S1x4096.Idx := (icolR c i).set
def oTileSet (c : Fin 2) (i : Fin 16) : Finset S4096x128.Idx := (orowR c i).set
def iCoreSet (c : Fin 2) : Finset S1x4096.Idx := (Finset.univ : Finset (Fin 16)).biUnion (iTileSet c)
def oCoreSet (c : Fin 2) : Finset S4096x128.Idx := (Finset.univ : Finset (Fin 16)).biUnion (oTileSet c)

/-! ## The contents at the call, and what the call leaves -/

variable (fi : (d : Dev nD) → Buf (Elt F) (iLoc d)) (fx : (d : Dev nD) → Buf (Elt F) (xLoc d)) (fo : (d : Dev nD) → Buf (Elt F) (oLoc d))

/-- What the proof asks of the index array at the call: every word names a row of the table. -/
def PreOK : Prop := ∀ (d : Dev nD) (j : S1x4096.Idx), (fi d j).toNat < 1000

/-- The table row that batch element `r` selects: the index word read as a natural number, reduced mod 1000 (total;
    the word itself when it is below 1000). -/
def gRow (d : Dev nD) (r : Fin 4096) : Fin 1000 := ⟨(fi d (ix2 (0 : Fin 1) r)).toNat % 1000, Nat.mod_lt _ (by decide)⟩

/-- The gathered rows, as ONE function on the whole output array: row `r`, column `k` is the table at the row the
    `r`-th index word selects, column `k`. -/
def gath (d : Dev nD) : Buf (Elt F) (oLoc d) := fun (j : S4096x128.Idx) => fx d (ix2 (gRow fi d (j 0)) (j 1))

theorem gath_apply (d : Dev nD) (r : Fin 4096) (k : Fin 128) : gath fi fx d (ix2 r k) = fx d (ix2 (gRow fi d r) k) := rfl

theorem gRow_val (d : Dev nD) (r : Fin 4096) : (gRow fi d r).val = (fi d (ix2 (0 : Fin 1) r)).toNat % 1000 := rfl

theorem gRow_val_of_pre (hpre : PreOK fi) (d : Dev nD) (r : Fin 4096) : (gRow fi d r).val = (fi d (ix2 (0 : Fin 1) r)).toNat := by
  rw [gRow_val, Nat.mod_eq_of_lt (hpre d _)]

/-! ## What the handshakes carry -/

abbrev iCorePts (d : Dev nD) (c : Fin 2) : sProp 𝕄 := iLoc d ↦[iCoreSet c]{fullShare} fi d
abbrev xCorePts (d : Dev nD) (c : Fin 2) : sProp 𝕄 := xLoc d ↦{xqC c} fx d
abbrev oCorePts (d : Dev nD) (c : Fin 2) (f : Buf (Elt F) (oLoc d)) : sProp 𝕄 := oLoc d ↦[oCoreSet c]{fullShare} f
abbrev iTilePts (d : Dev nD) (c : Fin 2) (i : Fin 16) : sProp 𝕄 := iLoc d ↦[iTileSet c i]{fullShare} fi d
abbrev xTilePts (d : Dev nD) (c : Fin 2) (i : Fin 16) : sProp 𝕄 := xLoc d ↦{xq c i} fx d
abbrev oTilePts (d : Dev nD) (c : Fin 2) (i : Fin 16) (f : Buf (Elt F) (oLoc d)) : sProp 𝕄 := oLoc d ↦[oTileSet c i]{fullShare} f

/-- The one call: each SparseCore takes its 2048 index columns, a half share of the table and its 2048 output rows;
    each vector subcore its 128 columns, its share of the table and its 128 rows; they come back with the output rows
    holding the gathered rows. -/
def P : (K (F := F)).Pay (nD := nD) (Val := Elt F) (Name := ℕ) (U := UU) where
  st := fun q d c => match q with
    | 0 => iprop(iCorePts fi d (Fin.cast nCore_zero c) ∗ xCorePts fx d (Fin.cast nCore_zero c) ∗ oCorePts d (Fin.cast nCore_zero c) (fo d))
  dn := fun q d c => match q with
    | 0 => iprop(iCorePts fi d (Fin.cast nCore_zero c) ∗ xCorePts fx d (Fin.cast nCore_zero c) ∗ oCorePts d (Fin.cast nCore_zero c) (gath fi fx d))
  go := fun q d c i => match q with
    | 0 => iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (fo d))
  td := fun q d c i => match q with
    | 0 => iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (gath fi fx d))
  x := fun _ _ => iprop(emp)

instance P_storable : (P (F := F) fi fx fo).IsStorable where
  st q d c := match q with
    | 0 => (inferInstance : BI.Storable (upEmb : UEmb _ 𝕄)
      iprop(iCorePts fi d (Fin.cast nCore_zero c) ∗ xCorePts fx d (Fin.cast nCore_zero c) ∗ oCorePts d (Fin.cast nCore_zero c) (fo d)))
  dn q d c := match q with
    | 0 => (inferInstance : BI.Storable (upEmb : UEmb _ 𝕄)
      iprop(iCorePts fi d (Fin.cast nCore_zero c) ∗ xCorePts fx d (Fin.cast nCore_zero c) ∗ oCorePts d (Fin.cast nCore_zero c) (gath fi fx d)))
  go q d c i := match q with
    | 0 => (inferInstance : BI.Storable (upEmb : UEmb _ 𝕄)
      iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (fo d)))
  td q d c i := match q with
    | 0 => (inferInstance : BI.Storable (upEmb : UEmb _ 𝕄)
      iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (gath fi fx d)))

end Cert.KernelIdeal.Hand

end
-- ==== Proof.KI.TcDat.lean ====
/-
  The TensorCore call of @main as a region, first half: its proof data, at ANY contents `V` of the core's buffers
  when the region is entered.

  The call walks 16 grid points. At point `t` the body is handed three input blocks — rows `256 t … 256 t + 255`
  of the gathered embeddings (window 0), the whole weight array (window 1) and the whole bias array (window 2) —
  and writes the block of the output (window 3) made of columns `256 t … 256 t + 255`. It stores that block as ten
  slabs along the leading axis, slab `p` a function of the embeddings block, slab `p` of the weights and column `p`
  of the biases. What the staging buffer of window 3 holds after the body is therefore the ten payloads laid side
  by side (`out1_3`); they tile the block, so every index is covered (`cover1_3`). The input windows are left as found.
  Generic in the float instance.
-/
import proofs.«218874_g56547539419890_cont_9to1c4b_400_22_alg».proof.Proof.KI.Common
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

-- the TensorCore's buffer contents when the region is entered: a parameter, which the run of @main instantiates
variable (V : (c : Dev nD) → (b : Ref sig .tc) → Buf (Elt F) ((c.tc : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move between two points is not fetched again and still holds the same block), for any proof
    data whose array is `V`'s and whose body leaves the block in place. Windows 0, 1, 2. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- the whole embeddings block; slab `p` of the weights; column `p` of the biases; slab `p` of the output block
abbrev rX : Rect S256x128 := Rect.unit (s := S256x128) ![0, 0] S256x128.size Gen.inb_S256x128_S256x128_0_0
abbrev rW0 : Rect S10x1000x128 := Rect.unit (s := S10x1000x128) ![0, 0, 0] S1x1000x128.size Gen.inb_S10x1000x128_S1x1000x128_0_0_0
abbrev rW1 : Rect S10x1000x128 := Rect.unit (s := S10x1000x128) ![1, 0, 0] S1x1000x128.size Gen.inb_S10x1000x128_S1x1000x128_1_0_0
abbrev rW2 : Rect S10x1000x128 := Rect.unit (s := S10x1000x128) ![2, 0, 0] S1x1000x128.size Gen.inb_S10x1000x128_S1x1000x128_2_0_0
abbrev rW3 : Rect S10x1000x128 := Rect.unit (s := S10x1000x128) ![3, 0, 0] S1x1000x128.size Gen.inb_S10x1000x128_S1x1000x128_3_0_0
abbrev rW4 : Rect S10x1000x128 := Rect.unit (s := S10x1000x128) ![4, 0, 0] S1x1000x128.size Gen.inb_S10x1000x128_S1x1000x128_4_0_0
abbrev rW5 : Rect S10x1000x128 := Rect.unit (s := S10x1000x128) ![5, 0, 0] S1x1000x128.size Gen.inb_S10x1000x128_S1x1000x128_5_0_0
abbrev rW6 : Rect S10x1000x128 := Rect.unit (s := S10x1000x128) ![6, 0, 0] S1x1000x128.size Gen.inb_S10x1000x128_S1x1000x128_6_0_0
abbrev rW7 : Rect S10x1000x128 := Rect.unit (s := S10x1000x128) ![7, 0, 0] S1x1000x128.size Gen.inb_S10x1000x128_S1x1000x128_7_0_0
abbrev rW8 : Rect S10x1000x128 := Rect.unit (s := S10x1000x128) ![8, 0, 0] S1x1000x128.size Gen.inb_S10x1000x128_S1x1000x128_8_0_0
abbrev rW9 : Rect S10x1000x128 := Rect.unit (s := S10x1000x128) ![9, 0, 0] S1x1000x128.size Gen.inb_S10x1000x128_S1x1000x128_9_0_0
abbrev rB0 : Rect S1000x10 := Rect.unit (s := S1000x10) ![0, 0] S1000x1.size Gen.inb_S1000x10_S1000x1_0_0
abbrev rB1 : Rect S1000x10 := Rect.unit (s := S1000x10) ![0, 1] S1000x1.size Gen.inb_S1000x10_S1000x1_0_1
abbrev rB2 : Rect S1000x10 := Rect.unit (s := S1000x10) ![0, 2] S1000x1.size Gen.inb_S1000x10_S1000x1_0_2
abbrev rB3 : Rect S1000x10 := Rect.unit (s := S1000x10) ![0, 3] S1000x1.size Gen.inb_S1000x10_S1000x1_0_3
abbrev rB4 : Rect S1000x10 := Rect.unit (s := S1000x10) ![0, 4] S1000x1.size Gen.inb_S1000x10_S1000x1_0_4
abbrev rB5 : Rect S1000x10 := Rect.unit (s := S1000x10) ![0, 5] S1000x1.size Gen.inb_S1000x10_S1000x1_0_5
abbrev rB6 : Rect S1000x10 := Rect.unit (s := S1000x10) ![0, 6] S1000x1.size Gen.inb_S1000x10_S1000x1_0_6
abbrev rB7 : Rect S1000x10 := Rect.unit (s := S1000x10) ![0, 7] S1000x1.size Gen.inb_S1000x10_S1000x1_0_7
abbrev rB8 : Rect S1000x10 := Rect.unit (s := S1000x10) ![0, 8] S1000x1.size Gen.inb_S1000x10_S1000x1_0_8
abbrev rB9 : Rect S1000x10 := Rect.unit (s := S1000x10) ![0, 9] S1000x1.size Gen.inb_S1000x10_S1000x1_0_9
abbrev rO0 : Rect S10x1000x256 := Rect.unit (s := S10x1000x256) ![0, 0, 0] S1x1000x256.size Gen.inb_S10x1000x256_S1x1000x256_0_0_0
abbrev rO1 : Rect S10x1000x256 := Rect.unit (s := S10x1000x256) ![1, 0, 0] S1x1000x256.size Gen.inb_S10x1000x256_S1x1000x256_1_0_0
abbrev rO2 : Rect S10x1000x256 := Rect.unit (s := S10x1000x256) ![2, 0, 0] S1x1000x256.size Gen.inb_S10x1000x256_S1x1000x256_2_0_0
abbrev rO3 : Rect S10x1000x256 := Rect.unit (s := S10x1000x256) ![3, 0, 0] S1x1000x256.size Gen.inb_S10x1000x256_S1x1000x256_3_0_0
abbrev rO4 : Rect S10x1000x256 := Rect.unit (s := S10x1000x256) ![4, 0, 0] S1x1000x256.size Gen.inb_S10x1000x256_S1x1000x256_4_0_0
abbrev rO5 : Rect S10x1000x256 := Rect.unit (s := S10x1000x256) ![5, 0, 0] S1x1000x256.size Gen.inb_S10x1000x256_S1x1000x256_5_0_0
abbrev rO6 : Rect S10x1000x256 := Rect.unit (s := S10x1000x256) ![6, 0, 0] S1x1000x256.size Gen.inb_S10x1000x256_S1x1000x256_6_0_0
abbrev rO7 : Rect S10x1000x256 := Rect.unit (s := S10x1000x256) ![7, 0, 0] S1x1000x256.size Gen.inb_S10x1000x256_S1x1000x256_7_0_0
abbrev rO8 : Rect S10x1000x256 := Rect.unit (s := S10x1000x256) ![8, 0, 0] S1x1000x256.size Gen.inb_S10x1000x256_S1x1000x256_8_0_0
abbrev rO9 : Rect S10x1000x256 := Rect.unit (s := S10x1000x256) ![9, 0, 0] S1x1000x256.size Gen.inb_S10x1000x256_S1x1000x256_9_0_0

/-! ## What the body leaves in the output window's buffer -/

/-- Window 3's staging buffer after the body, from the input windows' blocks: its ten stores as pieces, LAST FIRST.
    Slab `p` is the normalised exponentials of `weights[p] · embeddingsᵀ + bias[:, p]` along the 1000 rows. -/
def out1_3 (x0 : Vec F S256x128 .f32) (x1 : Vec F S10x1000x128 .bf16) (x2 : Vec F S1000x10 .f32) : Vec F S10x1000x256 .f32 :=
  View.canon [
    ⟨rO9, k1_pay13 (k1_pay1 (View.ld x0 rX)) (View.ld x1 rW9) (View.ld x2 rB9)⟩,
    ⟨rO8, k1_pay12 (k1_pay1 (View.ld x0 rX)) (View.ld x1 rW8) (View.ld x2 rB8)⟩,
    ⟨rO7, k1_pay11 (k1_pay1 (View.ld x0 rX)) (View.ld x1 rW7) (View.ld x2 rB7)⟩,
    ⟨rO6, k1_pay10 (k1_pay1 (View.ld x0 rX)) (View.ld x1 rW6) (View.ld x2 rB6)⟩,
    ⟨rO5, k1_pay9 (k1_pay1 (View.ld x0 rX)) (View.ld x1 rW5) (View.ld x2 rB5)⟩,
    ⟨rO4, k1_pay8 (k1_pay1 (View.ld x0 rX)) (View.ld x1 rW4) (View.ld x2 rB4)⟩,
    ⟨rO3, k1_pay7 (k1_pay6 (k1_pay1 (View.ld x0 rX)) (View.ld x1 rW3) (View.ld x2 rB3))⟩,
    ⟨rO2, k1_pay5 (k1_pay1 (View.ld x0 rX)) (View.ld x1 rW2) (View.ld x2 rB2)⟩,
    ⟨rO1, k1_pay4 (k1_pay3 (View.ld x0 rX) (View.ld x1 rW1) (View.ld x2 rB1))⟩,
    ⟨rO0, k1_pay2 (View.ld x0 rX) (View.ld x1 rW0) (View.ld x2 rB0)⟩]

/-- The ten slabs tile the block, so they cover it. -/
theorem cover1_3 (p0 : Vec F S1x1000x256 .f32) (p1 : Vec F S1x1000x256 .f32) (p2 : Vec F S1x1000x256 .f32) (p3 : Vec F S1x1000x256 .f32) (p4 : Vec F S1x1000x256 .f32) (p5 : Vec F S1x1000x256 .f32) (p6 : Vec F S1x1000x256 .f32) (p7 : Vec F S1x1000x256 .f32) (p8 : Vec F S1x1000x256 .f32) (p9 : Vec F S1x1000x256 .f32) (y : S10x1000x256.Idx) :
    ∃ pc ∈ ([⟨rO9, p0⟩, ⟨rO8, p1⟩, ⟨rO7, p2⟩, ⟨rO6, p3⟩, ⟨rO5, p4⟩, ⟨rO4, p5⟩, ⟨rO3, p6⟩, ⟨rO2, p7⟩, ⟨rO1, p8⟩, ⟨rO0, p9⟩] : List (View.Piece (Elt F) S10x1000x256 .f32)), y ∈ pc.1.set :=
  View.cover_of_tiled [⟨rO9, p0⟩, ⟨rO8, p1⟩, ⟨rO7, p2⟩, ⟨rO6, p3⟩, ⟨rO5, p4⟩, ⟨rO4, p5⟩, ⟨rO3, p6⟩, ⟨rO2, p7⟩, ⟨rO1, p8⟩, ⟨rO0, p9⟩] S1x1000x256.size (by rfl) y

/-! ## The pipeline's proof data -/

/-- The proof data of the pipeline on core `c`: the arrays as the region finds them (`V`); after the body at point `t`
    each input's buffer at its block and the output's at `out1_3` of the input blocks; the invariant is the scoped
    buffers no window stages, untouched (the body uses nothing else); nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.scopedRest (Ix := HIx 1) (Name := ℕ) (U := UU) (Lvl := ℕ) (Val := Elt F) spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The proof data family -/

/-- The prefetched tables' admissible contents: the pipeline has no table. -/
abbrev adm : (p : Fin 1) → (pcfgs (F := F) p).Adm := fun p => (cfgs p).toPCfg_adm

/-- Every pipeline's proof data (there is one), at the region's entry contents — a literal match, so that the
    configuration pinned at the numeral reduces to the printed one. -/
def pdats : (p : Fin 1) → (c : Dev nD) → Dat τ (Elt F) (HIx 1) ℕ UU ℕ (Pipeline.pin (pcfgs (F := F)) adm p) c
  | ⟨0, _⟩ => fun c => dat1 V c

end Cert.KernelIdeal.Hand

end
-- ==== Proof.KI.Host.lean ====
/-
  @main's host side, as values: the buffer contents of a device's TensorCore after each stretch of @main, as
  valuations of its buffers. From the launch memory: the reshape of the index array; then the SparseCore call, which
  leaves the gathered rows; then the four host operations that prepare the weights and the biases; then the
  TensorCore call, which leaves its output array; then the final transposition.
-/
import proofs.«218874_g56547539419890_cont_9to1c4b_400_22_alg».proof.Proof.KI.ScPay
import proofs.«218874_g56547539419890_cont_9to1c4b_400_22_alg».proof.Proof.KI.TcDat
import Idealize.ShloMosaic.Lib.Pipeline.Frame

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The launch contents of device `d`'s buffers. -/
def W0 (d : Dev nD) : Valuation τ sig (Elt F) := fun b => m (d, b)

/-- The reshape of the index array to one row. -/
def opA : HloOp τ sig (Elt F) := StableHlo.reshape main_arg0 main_v0 rfl shapeCasts_S4096_S1x4096

/-- After it. -/
def W1 (d : Dev nD) : Valuation τ sig (Elt F) := (opA (F := F)).result (W0 m d)

/-- The three arrays of the SparseCore call, as it finds them. -/
def fi (d : Dev nD) : Buf (Elt F) (iLoc d) := W1 m d (Proc.devRef .tc main_v0)
def fx (d : Dev nD) : Buf (Elt F) (xLoc d) := W1 m d (Proc.devRef .tc main_arg1)
def fo (d : Dev nD) : Buf (Elt F) (oLoc d) := W1 m d (Proc.devRef .tc main_v1)

/-- After the SparseCore call: the output array at the gathered rows, everything else as it was. -/
def W2 (d : Dev nD) : Valuation τ sig (Elt F) :=
  Function.update (W1 m d) (Proc.devRef .tc main_v1) (gath (fi m) (fx m) d)

/-- The host operations between the two calls: the weights reshaped and rounded, the biases reshaped and transposed. -/
def opsB : List (HloOp τ sig (Elt F)) :=
  [StableHlo.reshape main_arg2 main_v2 rfl shapeCasts_S10000x128_S10x1000x128,
   StableHlo.unary main_v2 main_v3 ((truncf .bf16 · bitsLt_bf16_f32) : (⟨S10x1000x128, .f32⟩ : BufTy).Contents (Elt F) → (⟨S10x1000x128, .bf16⟩ : BufTy).Contents (Elt F)),
   StableHlo.reshape main_arg3 main_v4 rfl shapeCasts_S10000_S10x1000,
   StableHlo.unary main_v4 main_v5 ((transpose S1000x10 [1, 0] · transposes_S10x1000_S1000x10_1_0) : (⟨S10x1000, .f32⟩ : BufTy).Contents (Elt F) → (⟨S1000x10, .f32⟩ : BufTy).Contents (Elt F))]

/-- After them. -/
def W6 (d : Dev nD) : Valuation τ sig (Elt F) := StableHlo.after (opsB (F := F)) (W2 m d)

/-- The same, as the TensorCore's references index it: what the TensorCore call is entered with. -/
def V6 : (c : Dev nD) → (b : Ref sig .tc) → Buf (Elt F) ((c.tc : Thread nD τ).loc b) := fun c b => W6 m c (Proc.devRef .tc b)

/-- What the TensorCore call leaves in its output array. -/
def out6 (d : Dev nD) : Buf (Elt F) ((d.tc : Thread nD τ).loc main_v6) := (pdats (V6 m) 0 d).arrAt 3 16

/-- After the TensorCore call. -/
def W7 (d : Dev nD) : Valuation τ sig (Elt F) := Function.update (W6 m d) (Proc.devRef .tc main_v6) (out6 m d)

/-- The final transposition. -/
def opZ : HloOp τ sig (Elt F) :=
  StableHlo.unary main_v6 main_v7 ((transpose S4096x10x1000 [2, 0, 1] · transposes_S10x1000x4096_S4096x10x1000_2_0_1) : (⟨S10x1000x4096, .f32⟩ : BufTy).Contents (Elt F) → (⟨S4096x10x1000, .f32⟩ : BufTy).Contents (Elt F))

/-- After it: the end of @main. -/
def W8 (d : Dev nD) : Valuation τ sig (Elt F) := (opZ (F := F)).result (W7 m d)

/-- The program's result on device `d`. -/
def res (d : Dev nD) : Buf (Elt F) ((d.tc : Thread nD τ).loc main_v7) := W8 m d (Proc.devRef .tc main_v7)

end Cert.KernelIdeal.Hand

end
-- ==== Proof.KI.HostFacts.lean ====
/-
  Facts about @main's host side that its proof on the TensorCore uses: the three arrays of the SparseCore call taken
  out of, and put back among, the TensorCore's unscoped buffers; and what the valuations hold at the arguments (their
  launch contents, throughout) and at the arrays the two calls read.
-/
import proofs.«218874_g56547539419890_cont_9to1c4b_400_22_alg».proof.Proof.KI.Host

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The unscoped buffers -/

theorem mem_ucRefs (b : Ref sig .tc) (h : (Proc.devRef (τ := τ) .tc b).isScoped = false) : Proc.devRef .tc b ∈ Pipeline.ucRefs τ sig :=
  Finset.mem_filter.mpr ⟨Finset.mem_map.mpr ⟨b, Finset.mem_univ _, rfl⟩, by rw [h]; simp⟩

theorem devRef_ne {a b : Ref sig .tc} (h : a ≠ b) : (Proc.devRef (τ := τ) .tc a) ≠ Proc.devRef .tc b :=
  fun e => h (Proc.devRef_injective _ e)

/-- The arrays the SparseCore call touches. -/
def scRefs : Finset (DevRef τ sig) := {Proc.devRef .tc main_v0, Proc.devRef .tc main_arg1, Proc.devRef .tc main_v1}

theorem scRefs_sub : scRefs ⊆ Pipeline.ucRefs τ sig := by
  intro b hb
  simp only [scRefs, Finset.mem_insert, Finset.mem_singleton] at hb
  rcases hb with rfl | rfl | rfl
  · exact mem_ucRefs _ rfl
  · exact mem_ucRefs _ rfl
  · exact mem_ucRefs _ rfl

theorem held_scRefs (d : Dev nD) (W : Valuation τ sig (Elt F)) :
    (StableHlo.held (T d) scRefs W : sProp 𝕄)
      = iprop((iLoc d ↦{fullShare} (W (Proc.devRef .tc main_v0) : Buf (Elt F) (iLoc d)))
          ∗ (xLoc d ↦{fullShare} (W (Proc.devRef .tc main_arg1) : Buf (Elt F) (xLoc d)))
          ∗ oLoc d ↦{fullShare} (W (Proc.devRef .tc main_v1) : Buf (Elt F) (oLoc d))) := by
  unfold StableHlo.held scRefs
  rw [bigSep_insert (by simp only [Finset.mem_insert, Finset.mem_singleton, not_or]; exact ⟨devRef_ne (by decide), devRef_ne (by decide)⟩),
    bigSep_insert (by simp only [Finset.mem_singleton]; exact devRef_ne (by decide)), bigSep_singleton]
  rfl

variable (m : (ℓ : Loc nD τ sig) → Buf (Elt F) ℓ)

/-- After the SparseCore call the unscoped buffers are as before it, but for the output array. -/
theorem held_join (d : Dev nD) :
    iprop((iLoc d ↦{fullShare} fi m d) ∗ (xLoc d ↦{fullShare} fx m d) ∗ (oLoc d ↦{fullShare} gath (fi m) (fx m) d)
        ∗ (StableHlo.held (T d) (Pipeline.ucRefs τ sig \ scRefs) (W1 m d) : sProp 𝕄))
      ⊢ (StableHlo.held (T d) (Pipeline.ucRefs τ sig) (W2 m d) : sProp 𝕄) := by
  rw [StableHlo.held_sub_split (T d) scRefs_sub (W2 m d), held_scRefs]
  have e0 : W2 m d (Proc.devRef .tc main_v0) = W1 m d (Proc.devRef .tc main_v0) := Function.update_of_ne (devRef_ne (by decide)) _ _
  have e1 : W2 m d (Proc.devRef .tc main_arg1) = W1 m d (Proc.devRef .tc main_arg1) := Function.update_of_ne (devRef_ne (by decide)) _ _
  have e2 : W2 m d (Proc.devRef .tc main_v1) = gath (fi m) (fx m) d := Function.update_self _ _ _
  rw [e0, e1, e2]
  have er : (StableHlo.held (T d) (Pipeline.ucRefs τ sig \ scRefs) (W2 m d) : sProp 𝕄) = StableHlo.held (T d) (Pipeline.ucRefs τ sig \ scRefs) (W1 m d) :=
    bigSep_congr fun b hb => by
      have hne : b ≠ Proc.devRef .tc main_v1 := fun e => (Finset.mem_sdiff.mp hb).2 (e ▸ by simp [scRefs])
      rw [show W2 m d b = W1 m d b from Function.update_of_ne hne _ _]
  rw [er]
  iintro ⟨Hi, Hx, Ho, Hr⟩
  isplitl [Hi Hx Ho]
  · isplitl [Hi]; · iexact Hi
    isplitl [Hx]; · iexact Hx
    iexact Ho
  iexact Hr

/-! ## The host operations between the calls, one by one -/

abbrev opB1 : HloOp τ sig (Elt F) := StableHlo.reshape main_arg2 main_v2 rfl shapeCasts_S10000x128_S10x1000x128
abbrev opB2 : HloOp τ sig (Elt F) :=
  StableHlo.unary main_v2 main_v3 ((truncf .bf16 · bitsLt_bf16_f32) : (⟨S10x1000x128, .f32⟩ : BufTy).Contents (Elt F) → (⟨S10x1000x128, .bf16⟩ : BufTy).Contents (Elt F))
abbrev opB3 : HloOp τ sig (Elt F) := StableHlo.reshape main_arg3 main_v4 rfl shapeCasts_S10000_S10x1000
abbrev opB4 : HloOp τ sig (Elt F) :=
  StableHlo.unary main_v4 main_v5 ((transpose S1000x10 [1, 0] · transposes_S10x1000_S1000x10_1_0) : (⟨S10x1000, .f32⟩ : BufTy).Contents (Elt F) → (⟨S1000x10, .f32⟩ : BufTy).Contents (Elt F))

theorem opsB_eq : opsB (F := F) = [opB1, opB2, opB3, opB4] := rfl

def W3 (d : Dev nD) : Valuation τ sig (Elt F) := (opB1 (F := F)).result (W2 m d)
def W4 (d : Dev nD) : Valuation τ sig (Elt F) := (opB2 (F := F)).result (W3 m d)
def W5 (d : Dev nD) : Valuation τ sig (Elt F) := (opB3 (F := F)).result (W4 m d)

theorem W6_eq (d : Dev nD) : W6 m d = (opB4 (F := F)).result (W5 m d) := rfl

/-! ## The final transposition's two buffers -/

/-- The buffers the final transposition touches. -/
def zRefs : Finset (DevRef τ sig) := {Proc.devRef .tc main_v6, Proc.devRef .tc main_v7}

theorem held_zRefs (d : Dev nD) (W : Valuation τ sig (Elt F)) :
    (StableHlo.held (T d) zRefs W : sProp 𝕄)
      = iprop((((d.tc : Thread nD τ).loc main_v6) ↦{fullShare} (W (Proc.devRef .tc main_v6) : Buf (Elt F) ((d.tc : Thread nD τ).loc main_v6)))
          ∗ (((d.tc : Thread nD τ).loc main_v7) ↦{fullShare} (W (Proc.devRef .tc main_v7) : Buf (Elt F) ((d.tc : Thread nD τ).loc main_v7)))) := by
  unfold StableHlo.held zRefs
  rw [bigSep_insert (by simp only [Finset.mem_singleton]; exact devRef_ne (by decide)), bigSep_singleton]
  rfl

theorem held_z_intro (d : Dev nD) :
    iprop((((d.tc : Thread nD τ).loc main_v6) ↦{fullShare} out6 m d) ∗ (((d.tc : Thread nD τ).loc main_v7) ↦{fullShare} V6 m d main_v7))
      ⊢ (StableHlo.held (T d) zRefs (W7 m d) : sProp 𝕄) := by
  rw [held_zRefs]
  have e0 : W7 m d (Proc.devRef .tc main_v6) = out6 m d := Function.update_self _ _ _
  have e1 : W7 m d (Proc.devRef .tc main_v7) = W6 m d (Proc.devRef .tc main_v7) := Function.update_of_ne (devRef_ne (by decide)) _ _
  rw [e0, e1]
  exact .rfl

theorem held_z_elim (d : Dev nD) :
    (StableHlo.held (T d) zRefs (W8 m d) : sProp 𝕄) ⊢ (((d.tc : Thread nD τ).loc main_v7) ↦{fullShare} res m d) := by
  rw [held_zRefs]
  exact sep_elim_right

theorem opZ_bufs : (opZ (F := F)).bufs ⊆ zRefs := fun _ h => h

end Cert.KernelIdeal.Hand

end
-- ==== Proof.KI.ScSplit.lean ====
/-
  How the call's operands split: the index columns and output rows of the whole arrays into the two SparseCores' and
  each SparseCore's into its sixteen vector subcores' (disjoint unit-stride rectangles that cover), the table's full
  share into halves and sixteenths; and how the results join, the output rows all at the one gathered-rows function.
-/
import proofs.«218874_g56547539419890_cont_9to1c4b_400_22_alg».proof.Proof.KI.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F

/-! ## Membership, by coordinates -/

theorem mem_iTileSet {c : Fin 2} {i : Fin 16} {j : S1x4096.Idx} :
    j ∈ iTileSet c i ↔ 128 * i.val + 2048 * c.val ≤ (j 1).val ∧ (j 1).val < 128 * i.val + 2048 * c.val + 128 := by
  unfold iTileSet icolR
  rw [Rect.mem_set_unit]
  constructor
  · intro h; exact h 1
  · intro h a
    match a with
    | 0 => have h0 : (j 0).val < 1 := (j 0).isLt; exact ⟨Nat.zero_le _, by show (j 0).val < 0 + 1; omega⟩
    | 1 => exact h

theorem mem_oTileSet {c : Fin 2} {i : Fin 16} {j : S4096x128.Idx} :
    j ∈ oTileSet c i ↔ 128 * i.val + 2048 * c.val ≤ (j 0).val ∧ (j 0).val < 128 * i.val + 2048 * c.val + 128 := by
  unfold oTileSet orowR
  rw [Rect.mem_set_unit]
  constructor
  · intro h; exact h 0
  · intro h a
    match a with
    | 0 => exact h
    | 1 => have h1 : (j 1).val < 128 := (j 1).isLt; exact ⟨Nat.zero_le _, by show (j 1).val < 0 + 128; omega⟩

theorem mem_iCoreSet {c : Fin 2} {j : S1x4096.Idx} : j ∈ iCoreSet c ↔ 2048 * c.val ≤ (j 1).val ∧ (j 1).val < 2048 * c.val + 2048 := by
  unfold iCoreSet
  simp only [Finset.mem_biUnion, Finset.mem_univ, true_and, mem_iTileSet]
  constructor
  · rintro ⟨i, h1, h2⟩; have := i.isLt; omega
  · intro h; exact ⟨⟨((j 1).val - 2048 * c.val) / 128, by omega⟩, by show 128 * (((j 1).val - 2048 * c.val) / 128) + 2048 * c.val ≤ _; omega,
      by show _ < 128 * (((j 1).val - 2048 * c.val) / 128) + 2048 * c.val + 128; omega⟩

theorem mem_oCoreSet {c : Fin 2} {j : S4096x128.Idx} : j ∈ oCoreSet c ↔ 2048 * c.val ≤ (j 0).val ∧ (j 0).val < 2048 * c.val + 2048 := by
  unfold oCoreSet
  simp only [Finset.mem_biUnion, Finset.mem_univ, true_and, mem_oTileSet]
  constructor
  · rintro ⟨i, h1, h2⟩; have := i.isLt; omega
  · intro h; exact ⟨⟨((j 0).val - 2048 * c.val) / 128, by omega⟩, by show 128 * (((j 0).val - 2048 * c.val) / 128) + 2048 * c.val ≤ _; omega,
      by show _ < 128 * (((j 0).val - 2048 * c.val) / 128) + 2048 * c.val + 128; omega⟩

/-! ## Disjoint, and they cover -/

theorem itiles_disjoint (c : Fin 2) : ∀ i ∈ (Finset.univ : Finset (Fin 16)), ∀ i' ∈ (Finset.univ : Finset (Fin 16)), i ≠ i' → Disjoint (iTileSet c i) (iTileSet c i') := by
  intro i _ i' _ h
  rw [Finset.disjoint_left]; intro j h1 h2
  rw [mem_iTileSet] at h1 h2
  exact h (Fin.ext (by omega))
theorem otiles_disjoint (c : Fin 2) : ∀ i ∈ (Finset.univ : Finset (Fin 16)), ∀ i' ∈ (Finset.univ : Finset (Fin 16)), i ≠ i' → Disjoint (oTileSet c i) (oTileSet c i') := by
  intro i _ i' _ h
  rw [Finset.disjoint_left]; intro j h1 h2
  rw [mem_oTileSet] at h1 h2
  exact h (Fin.ext (by omega))
theorem icores_disjoint : ∀ c ∈ (Finset.univ : Finset (Fin 2)), ∀ c' ∈ (Finset.univ : Finset (Fin 2)), c ≠ c' → Disjoint (iCoreSet c) (iCoreSet c') := by
  intro c _ c' _ h
  rw [Finset.disjoint_left]; intro j h1 h2
  rw [mem_iCoreSet] at h1 h2
  exact h (Fin.ext (by omega))
theorem ocores_disjoint : ∀ c ∈ (Finset.univ : Finset (Fin 2)), ∀ c' ∈ (Finset.univ : Finset (Fin 2)), c ≠ c' → Disjoint (oCoreSet c) (oCoreSet c') := by
  intro c _ c' _ h
  rw [Finset.disjoint_left]; intro j h1 h2
  rw [mem_oCoreSet] at h1 h2
  exact h (Fin.ext (by omega))
theorem icores_cover : (Finset.univ : Finset (Fin 2)).biUnion iCoreSet = Finset.univ := by
  ext j
  simp only [Finset.mem_biUnion, Finset.mem_univ, true_and, iff_true, mem_iCoreSet]
  have hj : (j 1).val < 4096 := (j 1).isLt
  exact ⟨⟨(j 1).val / 2048, by omega⟩, by show 2048 * ((j 1).val / 2048) ≤ _; omega, by show _ < 2048 * ((j 1).val / 2048) + 2048; omega⟩
theorem ocores_cover : (Finset.univ : Finset (Fin 2)).biUnion oCoreSet = Finset.univ := by
  ext j
  simp only [Finset.mem_biUnion, Finset.mem_univ, true_and, iff_true, mem_oCoreSet]
  have hj : (j 0).val < 4096 := (j 0).isLt
  exact ⟨⟨(j 0).val / 2048, by omega⟩, by show 2048 * ((j 0).val / 2048) ≤ _; omega, by show _ < 2048 * ((j 0).val / 2048) + 2048; omega⟩

/-! ## The points-tos split and join -/

theorem iPts_cores (d : Dev nD) (f : Buf (Elt F) (iLoc d)) :
    (iLoc d ↦{fullShare} f : sProp 𝕄) = bigSep Finset.univ fun c : Fin 2 => iLoc d ↦[iCoreSet c]{fullShare} f := by
  rw [← pointsTo_biUnion Finset.univ (ℓ := iLoc d) iCoreSet icores_disjoint, icores_cover]; try rfl
theorem oPts_cores (d : Dev nD) (f : Buf (Elt F) (oLoc d)) :
    (oLoc d ↦{fullShare} f : sProp 𝕄) = bigSep Finset.univ fun c : Fin 2 => oLoc d ↦[oCoreSet c]{fullShare} f := by
  rw [← pointsTo_biUnion Finset.univ (ℓ := oLoc d) oCoreSet ocores_disjoint, ocores_cover]; try rfl
theorem xPts_cores (d : Dev nD) (f : Buf (Elt F) (xLoc d)) :
    (xLoc d ↦{fullShare} f : sProp 𝕄) = bigSep Finset.univ fun c : Fin 2 => xLoc d ↦{xqC c} f :=
  pointsTo_leaves Finset.univ f 1 fullShare
theorem iPts_tiles (d : Dev nD) (c : Fin 2) (f : Buf (Elt F) (iLoc d)) :
    (iLoc d ↦[iCoreSet c]{fullShare} f : sProp 𝕄) = bigSep Finset.univ fun i : Fin 16 => iLoc d ↦[iTileSet c i]{fullShare} f :=
  pointsTo_biUnion Finset.univ (ℓ := iLoc d) (iTileSet c) (itiles_disjoint c)
theorem oPts_tiles (d : Dev nD) (c : Fin 2) (f : Buf (Elt F) (oLoc d)) :
    (oLoc d ↦[oCoreSet c]{fullShare} f : sProp 𝕄) = bigSep Finset.univ fun i : Fin 16 => oLoc d ↦[oTileSet c i]{fullShare} f :=
  pointsTo_biUnion Finset.univ (ℓ := oLoc d) (oTileSet c) (otiles_disjoint c)
theorem xPts_tiles (d : Dev nD) (c : Fin 2) (f : Buf (Elt F) (xLoc d)) :
    (xLoc d ↦{xqC c} f : sProp 𝕄) = bigSep Finset.univ fun i : Fin 16 => xLoc d ↦{xq c i} f :=
  pointsTo_leaves Finset.univ f 4 (xqC c)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (fi : (d : Dev nD) → Buf (Elt F) (iLoc d)) (fx : (d : Dev nD) → Buf (Elt F) (xLoc d)) (fo : (d : Dev nD) → Buf (Elt F) (oLoc d))

/-- One SparseCore's operands are its sixteen vector subcores'; their results, the output rows at the gathered rows,
    are the SparseCore's. -/
theorem vecSplit : (K (F := F)).VecSplit' (P fi fx fo) 0 := by
  intro d c
  show iprop(iCorePts fi d (Fin.cast nCore_zero c) ∗ xCorePts fx d (Fin.cast nCore_zero c) ∗ oCorePts d (Fin.cast nCore_zero c) (fo d)) ⊢ |={Set.univ}=> iprop(
      (bigSep Finset.univ fun i : Fin ((K (F := F)).nSub 0) =>
        iprop(iTilePts fi d (Fin.cast nCore_zero c) (Fin.cast nSub_zero i) ∗ xTilePts fx d (Fin.cast nCore_zero c) (Fin.cast nSub_zero i)
          ∗ oTilePts d (Fin.cast nCore_zero c) (Fin.cast nSub_zero i) (fo d)))
      ∗ ((bigSep Finset.univ fun i : Fin ((K (F := F)).nSub 0) =>
          iprop(iTilePts fi d (Fin.cast nCore_zero c) (Fin.cast nSub_zero i) ∗ xTilePts fx d (Fin.cast nCore_zero c) (Fin.cast nSub_zero i)
            ∗ oTilePts d (Fin.cast nCore_zero c) (Fin.cast nSub_zero i) (gath fi fx d)))
          -∗ iprop(iCorePts fi d (Fin.cast nCore_zero c) ∗ xCorePts fx d (Fin.cast nCore_zero c) ∗ oCorePts d (Fin.cast nCore_zero c) (gath fi fx d))))
  generalize Fin.cast nCore_zero c = c'
  rw [bigSep_tasks (F := F) (fun i => iprop(iTilePts fi d c' i ∗ xTilePts fx d c' i ∗ oTilePts d c' i (fo d))),
    bigSep_tasks (F := F) (fun i => iprop(iTilePts fi d c' i ∗ xTilePts fx d c' i ∗ oTilePts d c' i (gath fi fx d))),
    bigSep_sep', bigSep_sep', bigSep_sep', bigSep_sep']
  unfold iCorePts xCorePts oCorePts iTilePts xTilePts oTilePts
  rw [iPts_tiles, xPts_tiles, oPts_tiles, oPts_tiles]
  iintro H; imodintro
  isplitl [H]; · iexact H
  iintro H; iexact H

/-- The two SparseCores' operands are the three arrays whole. -/
theorem st0_eq (d : Dev nD) : (bigSep Finset.univ fun c : Fin ((K (F := F)).nCore 0) => (P fi fx fo).st 0 d c)
    = iprop((iLoc d ↦{fullShare} fi d) ∗ (xLoc d ↦{fullShare} fx d) ∗ oLoc d ↦{fullShare} fo d) := by
  show (bigSep Finset.univ fun c : Fin ((K (F := F)).nCore 0) =>
      iprop(iCorePts fi d (Fin.cast nCore_zero c) ∗ xCorePts fx d (Fin.cast nCore_zero c) ∗ oCorePts d (Fin.cast nCore_zero c) (fo d))) = _
  rw [bigSep_cores (F := F) (fun c => iprop(iCorePts fi d c ∗ xCorePts fx d c ∗ oCorePts d c (fo d))), bigSep_sep', bigSep_sep']
  unfold iCorePts xCorePts oCorePts
  rw [← iPts_cores, ← xPts_cores, ← oPts_cores]

/-- The two SparseCores' results are the index array and the table as they were and the output array at the gathered
    rows. -/
theorem dn0_eq (d : Dev nD) : (bigSep Finset.univ fun c : Fin ((K (F := F)).nCore 0) => (P fi fx fo).dn 0 d c)
    = iprop((iLoc d ↦{fullShare} fi d) ∗ (xLoc d ↦{fullShare} fx d) ∗ oLoc d ↦{fullShare} gath fi fx d) :=
  st0_eq fi fx (gath fi fx) d

theorem dn0_join (d : Dev nD) : (bigSep Finset.univ fun c : Fin ((K (F := F)).nCore 0) => (P fi fx fo).dn 0 d c)
    ⊢ iprop((iLoc d ↦{fullShare} fi d) ∗ (xLoc d ↦{fullShare} fx d) ∗ oLoc d ↦{fullShare} gath fi fx d) :=
  Entails.of_eq (dn0_eq fi fx fo d)

end Cert.KernelIdeal.Hand

end
-- ==== Proof.KI.TcBody.lean ====
/-
  The TensorCore call of @main as a region, second half: the body obligation.

  On whole staging memrefs, the three inputs' at read contents `x0`, `x1`, `x2` and the output's at anything, the
  body runs to the end leaving the inputs' as they were and the output's at `out1_3 x0 x1 x2`: ten times it loads a
  slab of the weights and a column of the biases, computes, and stores a slab of the output block; the ten stores
  cover the block, so what the buffer held before does not matter. At a grid point the inputs' memrefs hold their
  blocks, which gives the obligation the pipeline asks of the body at that point. Generic in the float instance.
-/
import proofs.«218874_g56547539419890_cont_9to1c4b_400_22_alg».proof.Proof.KI.TcDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

/-! ## The body's triple -/

set_option maxHeartbeats 4000000 in
/-- The kernel body on whole staging memrefs: the inputs kept, the output's buffer at `out1_3` of the inputs. -/
theorem sound_kernel1 (c : Dev nD) (E : Set ℕ) (i : grid1.Coords) (arg1 : Memref sig .tc .vmem S256x128 .f32) (harg1 : arg1.IsWhole)
    (arg2 : Memref sig .tc .vmem S10x1000x128 .bf16) (harg2 : arg2.IsWhole) (arg3 : Memref sig .tc .vmem S1000x10 .f32) (harg3 : arg3.IsWhole)
    (arg4 : Memref sig .tc .vmem S10x1000x256 .f32) (harg4 : arg4.IsWhole)
    (x0 : Vec F S256x128 .f32) (x1 : Vec F S10x1000x128 .bf16) (x2 : Vec F S1000x10 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (out1_3 x0 x1 x2)) -∗ Kc ⟨⟩))
      ⊢ wp frame (wpE (defs₀ (F := F)) Variants.none (c.tc : Thread nD τ) none) E (cc1__tc_body i arg1 harg1 arg2 harg2 arg3 harg3 arg4 harg4) Kc := by
  simp only [cc1__tc_body_eq_skeleton]; unfold cc1__tc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _ _ _ _ _ _ _ _ _)

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt (none : HIx 1) t.castSucc
    ∗ (∃ d, owns (c.tc : Thread nD τ) (st1_0 t) fullShare ((dat1 V c).before 0 t d))
    ∗ (∃ d, owns (c.tc : Thread nD τ) (st1_1 t) fullShare ((dat1 V c).before 1 t d))
    ∗ (∃ d, owns (c.tc : Thread nD τ) (st1_2 t) fullShare ((dat1 V c).before 2 t d))
    ∗ (∃ d, owns (c.tc : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt (none : HIx 1) t.succ
    ∗ owns (c.tc : Thread nD τ) (st1_0 t) fullShare ((dat1 V c).after 0 t)
    ∗ owns (c.tc : Thread nD τ) (st1_1 t) fullShare ((dat1 V c).after 1 t)
    ∗ owns (c.tc : Thread nD τ) (st1_2 t) fullShare ((dat1 V c).after 2 t)
    ∗ owns (c.tc : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none (c.tc : Thread nD τ) none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt (none : HIx 1) t.succ = (dat1 V c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none (none : HIx 1) Set.univ := fun t => by
  rw [bigSep_W1, bigSep_W1]
  exact sound_body1 V c t

end Cert.KernelIdeal.Hand

end
-- ==== Proof.KI.TcRegion.lean ====
/-
  The TensorCore call of @main as a region, third part: the segment record the launch of @main enters it by.

  The region is entered from every unscoped buffer of the core at contents `V c` beside the core owing nothing, and
  left with the call's four arrays at what the pipeline's write-backs made of them (the three inputs as entered, the
  output at the blocks the body stored), every other unscoped buffer as entered, and the core again owing nothing.
  The kernel has no semaphore of its own and the body owes nothing at the staging cells, so the wait evidence is from
  nothing; nothing enters the invariant but the scoped buffers no window stages. Generic in the float instance.
-/
import proofs.«218874_g56547539419890_cont_9to1c4b_400_22_alg».proof.Proof.KI.TcBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

/-- The body obligation of the pipeline's proof data, on every core. -/
theorem body_obligation (c : Dev nD) : BodyObligation (pdats (F := F) V 0 c) (defs₀ (F := F)) 𝒱₀ (none : HIx 1) Set.univ :=
  body_obligation1 V c

/-- The body owes nothing at any point. -/
theorem owed_zero (c : Dev nD) (t) : (pdats (F := F) V 0 c).owed t = 0 := rfl

/-- The region's segment record. -/
def regionSeg : Pipeline.RegionSeg (pcfgs (F := F)) adm (pdats V) (none : HIx 1) defs₀ 𝒱₀ (K (F := F)).L (K (F := F)).lev (0 : Fin 1) where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs (Ix := HIx 1) (Name := ℕ) (U := UU) (Lvl := ℕ) c (V c) ∗ ∃ W, owes (c.tc : Thread nD τ) (0 : CellTallies nD τ sig (HIx 1)) W)
  post c := iprop((pdats V 0 c).arrays ((pdats V 0 c).arrAt · (Pipeline.pin (pcfgs (F := F)) adm 0).N)
    ∗ Pipeline.unscopedRest (Ix := HIx 1) (Name := ℕ) (U := UU) (Lvl := ℕ) spec1 c (V c)
    ∗ ∃ W, owes (c.tc : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, Hrest⟩
    imodintro
    isplitl [Ha]; · iexact Ha
    isplitl [Hrest]; · iexact Hrest
    unfold Pipeline.Dat.owesAt Pipeline.owesWithin
    icases HO with ⟨%W, -, HO⟩; iexists W; iexact HO

/-- The region's exit state, opened: the output array at what the write-backs made of it after the last of the 16
    points, the arguments and the result buffer as entered, the core owing nothing (the other buffers let go). -/
theorem post_open (d : Dev nD) : (regionSeg V).post d ⊢ (iprop((((d.tc : Thread nD τ).loc main_v6) ↦{fullShare} ((pdats V 0 d).arrAt 3 16 : Buf (Elt F) ((d.tc : Thread nD τ).loc main_v6)))
      ∗ (((d.tc : Thread nD τ).loc main_arg0) ↦{fullShare} V d main_arg0) ∗ (((d.tc : Thread nD τ).loc main_arg1) ↦{fullShare} V d main_arg1)
      ∗ (((d.tc : Thread nD τ).loc main_arg2) ↦{fullShare} V d main_arg2) ∗ (((d.tc : Thread nD τ).loc main_arg3) ↦{fullShare} V d main_arg3)
      ∗ (((d.tc : Thread nD τ).loc main_v7) ↦{fullShare} V d main_v7)
      ∗ ∃ W, owes (d.tc : Thread nD τ) (0 : CellTallies nD τ sig (HIx 1)) W) : sProp 𝕄) := by
  show (iprop((pdats V 0 d).arrays ((pdats V 0 d).arrAt · (Pipeline.pin (pcfgs (F := F)) adm 0).N)
    ∗ Pipeline.unscopedRest (Ix := HIx 1) (Name := ℕ) (U := UU) (Lvl := ℕ) spec1 d (V d)
    ∗ ∃ W, owes (d.tc : Thread nD τ) (0 : CellTallies nD τ sig (HIx 1)) W) : sProp 𝕄) ⊢ _
  rw [Pipeline.arrays_eq (Pipeline.pin (pcfgs (F := F)) adm) (pdats V) 0 d launch1.arr_whole ((pdats V 0 d).share_full fun _ => rfl),
    bigSep_W1, unscopedRest1_eq]
  iintro ⟨⟨-, -, -, H6⟩, ⟨Ha0, Ha1, Ha2, Ha3, -, -, -, Hv7⟩, HO⟩
  isplitl [H6]; · iexact H6
  isplitl [Ha0]; · iexact Ha0
  isplitl [Ha1]; · iexact Ha1
  isplitl [Ha2]; · iexact Ha2
  isplitl [Ha3]; · iexact Ha3
  isplitl [Hv7]; · iexact Hv7
  iexact HO

end Cert.KernelIdeal.Hand

end
-- ==== Proof.KI.TcEnter.lean ====
/-
  The TensorCore call of @main entered from @main itself, which runs under the SparseCore layer of labels.

  @main's line is the call of the pipeline's entry label as a label of the extended signature. A proof about the
  call in the pipeline's own signature is a proof about it lifted to the extended one (every effect but a call has the
  same clause, and a call of a label is a call of the same label injected); in the pipeline's signature the call is
  the region's step: from the region boundary, every unscoped buffer of the core at the entry contents `V d`, the core
  owing nothing, the level facts and the staging cells' ghost state and duty tokens, to the boundary and the region's
  exit state, for whatever follows. Generic in the float instance.
-/
import proofs.«218874_g56547539419890_cont_9to1c4b_400_22_alg».proof.Proof.KI.Ghost
import proofs.«218874_g56547539419890_cont_9to1c4b_400_22_alg».proof.Proof.KI.TcRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

set_option maxHeartbeats 400000 in
/-- The region's step in the pipeline's own signature, for any continuation's postcondition `Ψ`: the call, then
    nothing. -/
theorem wp_region_inner (d : Dev nD) (Ψ : PUnit → sProp 𝕄) :
    iprop(levAts (K (F := F)).L (K (F := F)).lev ∗ boundary (SparseCore.T d) ∗ unscopedBufs d (V d)
        ∗ (∃ W, owes (SparseCore.T d) (0 : CellTallies nD τ sig (HIx 1)) W) ∗ GG (F := F) d
        ∗ (iprop(boundary (SparseCore.T d) ∗ (regionSeg V).post d) -∗ Ψ ⟨⟩))
      ⊢ wp frame (wpE (D (F := F)) 𝒱 (SparseCore.T d) none) Set.univ
          (Prog.lift (TpuEff.customCall (Pipeline.entry (0 : Fin 1)) ())) Ψ := by
  have h := Pipeline.RegionSeg.wp (pcfgs (F := F)) adm (pdats V) (none : HIx 1) cellOf_inj (EP (F := F)) defs₀ 𝒱₀
    (K (F := F)).L (K (F := F)).lev (regionSeg V) d none (fun _ hu => by cases hu) (fun _ => .ret ⟨⟩) Ψ
  -- the record's entry state, and the ghost state over the pinned configurations, by unfolding
  have hpre : (iprop(unscopedBufs (Ix := HIx 1) (Name := ℕ) (U := UU) (Lvl := ℕ) d (V d)
      ∗ ∃ W, owes (SparseCore.T d) (0 : CellTallies nD τ sig (HIx 1)) W) : sProp 𝕄) ⊢ (regionSeg V).pre d := .rfl
  have hG : (GG (F := F) d : sProp 𝕄) ⊢ iprop(Pipeline.cellsGhost (Pipeline.pin (pcfgs (F := F)) adm) (EP (F := F)) 0 d
      ∗ Pipeline.toksInit (Pipeline.pin (pcfgs (F := F)) adm) (EP (F := F)) 0 d) := by
    unfold GG; exact .rfl
  iintro ⟨Hlev, Hb, Hub, HO, HG, Hk⟩
  iapply h
  isplitl [Hk]
  · iintro Hpost
    rw [wp_ret]; imodintro
    iapply Hk; iexact Hpost
  isplitl [Hb]; · iexact Hb
  isplitl [Hub HO]
  · iapply hpre
    isplitl [Hub]; · iexact Hub
    iexact HO
  isplitl [Hlev]; · iexact Hlev
  iapply hG; iexact HG

set_option maxHeartbeats 400000 in
/-- The region's step under the SparseCore layer: the same call with its label injected. -/
theorem wp_region (d : Dev nD) (Ψ : PUnit → sProp 𝕄) :
    iprop(levAts (K (F := F)).L (K (F := F)).lev ∗ boundary (SparseCore.T d) ∗ unscopedBufs d (V d)
        ∗ (∃ W, owes (SparseCore.T d) (0 : CellTallies nD τ sig (HIx 1)) W) ∗ GG (F := F) d
        ∗ (iprop(boundary (SparseCore.T d) ∗ (regionSeg V).post d) -∗ Ψ ⟨⟩))
      ⊢ wp frame (wpE ((K (F := F)).defs (D (F := F))) 𝒱 (SparseCore.T d) none) Set.univ
          (Prog.lift (TpuEff.customCall (SparseCore.inner (Pipeline.entry (0 : Fin 1))) ())) Ψ := by
  change _ ⊢ wp _ _ _ (SparseCore.liftProg (Prog.lift (TpuEff.customCall (Pipeline.entry (0 : Fin 1)) ()))) _
  exact (wp_region_inner V d Ψ).trans ((K (F := F)).wp_liftProg (D (F := F)) 𝒱 (SparseCore.T d) Set.univ none _ _)

end Cert.KernelIdeal.Hand

end
-- ==== Proof.KI.Main.lean ====
/-
  @main on a device's TensorCore, and the program's run.

  @main reshapes the index array, makes the SparseCore call (handing the SparseCores the index array, the table and the
  output array, getting them back with the gathered rows in the output array), prepares the weights and the biases by
  four host operations, enters the one pipelined region of the TensorCore call, and transposes its output. The run of
  the whole family of threads follows by the SparseCore launch theorem from the tile obligation, the splits, the launch
  element and this proof; the final memory has the four arguments as launched and the result at the value the host
  side's valuations name.
-/
import proofs.«218874_g56547539419890_cont_9to1c4b_400_22_alg».proof.Proof.KI.Ghost
import proofs.«218874_g56547539419890_cont_9to1c4b_400_22_alg».proof.Proof.KI.HostFacts
import proofs.«218874_g56547539419890_cont_9to1c4b_400_22_alg».proof.Proof.KI.ScSplit
import proofs.«218874_g56547539419890_cont_9to1c4b_400_22_alg».proof.Proof.KI.TcRegion
import proofs.«218874_g56547539419890_cont_9to1c4b_400_22_alg».proof.Proof.KI.TcEnter

noncomputable section

namespace Cert.KernelIdeal.Hand

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-- The SparseCore call's payload at the contents the call finds. -/
abbrev PP : (K (F := F)).Pay (nD := nD) (Val := Elt F) (Name := ℕ) (U := UU) := P (fi m) (fx m) (fo m)

/-- What the TensorCore holds at the end that the claim reads: the four arguments and the result. -/
def FIN (d : Dev nD) : sProp 𝕄 :=
  iprop((((d.tc : Thread nD τ).loc main_arg0) ↦{fullShare} V6 m d main_arg0) ∗ (((d.tc : Thread nD τ).loc main_arg1) ↦{fullShare} V6 m d main_arg1)
    ∗ (((d.tc : Thread nD τ).loc main_arg2) ↦{fullShare} V6 m d main_arg2) ∗ (((d.tc : Thread nD τ).loc main_arg3) ↦{fullShare} V6 m d main_arg3)
    ∗ (((d.tc : Thread nD τ).loc main_v7) ↦{fullShare} res m d))

theorem Otc_one (d : Dev nD) : (K (F := F)).Otc d 1 = 0 := by
  unfold SparseCore.Cfg.Otc
  exact Finset.sum_eq_zero fun q _ => if_neg (by have := q.isLt; omega)

theorem wbelow_any (d : Dev nD) (W : Waits sig (HIx 1)) : (K (F := F)).WBelow (SparseCore.T d) W 8 := by
  intro p _
  rcases hp : p.2 with _ | q
  · rw [SparseCore.Cfg.lev_none]; exact Nat.zero_le _
  · have := (K (F := F)).lev_some_le (SparseCore.T d, p.1) q; have := q.isLt; omega

/-- After the one SparseCore call the TensorCore owes nothing more: what it owes can be lent to the pipelined region and
    taken back, whatever waits the region recorded. -/
theorem tcSt_one_open (d : Dev nD) :
    ((K (F := F)).tcSt (EH (F := F)) d ((0 : Fin 1).val + 1) : sProp 𝕄)
      ⊢ iprop((∃ W, owes (SparseCore.T d) (0 : CellTallies nD τ sig (HIx 1)) W)
          ∗ ((∃ W, owes (SparseCore.T d) (0 : CellTallies nD τ sig (HIx 1)) W) -∗ (K (F := F)).tcSt (EH (F := F)) d 1)) := by
  unfold SparseCore.Cfg.tcSt
  rw [show ((0 : Fin 1).val + 1) = 1 from rfl, Otc_one]
  iintro ⟨⟨%W, %hW, HO⟩, Hrest⟩
  isplitl [HO]; · iexists W; iexact HO
  iintro ⟨%W', HO'⟩
  isplitl [HO']
  · iexists W'; isplitr; · ipureintro; exact wbelow_any d W'
    iexact HO'
  iexact Hrest

theorem held_z_intro' (d : Dev nD) :
    iprop((((d.tc : Thread nD τ).loc main_v6) ↦{fullShare} ((pdats (V6 m) 0 d).arrAt 3 16 : Buf (Elt F) ((d.tc : Thread nD τ).loc main_v6)))
        ∗ (((d.tc : Thread nD τ).loc main_v7) ↦{fullShare} V6 m d main_v7))
      ⊢ (StableHlo.held (SparseCore.T d) zRefs (W7 m d) : sProp 𝕄) := held_z_intro m d

theorem held_z_elim' (d : Dev nD) :
    (StableHlo.held (SparseCore.T d) zRefs ((opZ (F := F)).result (W7 m d)) : sProp 𝕄) ⊢ (((d.tc : Thread nD τ).loc main_v7) ↦{fullShare} res m d) :=
  held_z_elim m d

theorem ub_held (d : Dev nD) : (unscopedBufs d (fun b => m ((SparseCore.T d).loc b)) : sProp 𝕄) = StableHlo.held (SparseCore.T d) (Pipeline.ucRefs τ sig) (W0 m d) :=
  Pipeline.unscopedBufs_held d (W0 m d)

set_option backward.isDefEq.respectTransparency.types false in
set_option maxHeartbeats 800000 in
/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes GG
  rw [ub_held]
  simp only [main, wp_bind, wp_pure]
  iintro ⟨#Hctx, Hst, ⟨Hb, Hbufs, Hsems, Hprng⟩, ⟨Hcg, Htk⟩⟩
  ihave #Hlev := (SparseCore.Cfg.ctx_levAts κ) $$ Hctx
  -- the reshape of the index array
  iapply (StableHlo.wp_hlo_within (op := opA (F := F)) (V := W0 m d) 𝒱 (SparseCore.T d) none Set.univ (Pipeline.sub_ucRefs _ (StableHlo.reshape_bufs_sub _ _ _ _ _ _))) $$ [Hb Hbufs]
  · isplitl [Hb] <;> iassumption
  iintro ⟨Hb, Hbufs⟩
  rw [wp_ret]; imodintro
  -- the SparseCore call: the three arrays out, and back
  ihave Hbufs := (show (StableHlo.held (SparseCore.T d) (Pipeline.ucRefs τ sig) ((opA (F := F)).result (W0 m d)) : sProp 𝕄)
      ⊢ iprop(StableHlo.held (SparseCore.T d) scRefs (W1 m d) ∗ StableHlo.held (SparseCore.T d) (Pipeline.ucRefs τ sig \ scRefs) (W1 m d))
      from Entails.of_eq (StableHlo.held_sub_split (SparseCore.T d) scRefs_sub (W1 m d))) $$ Hbufs
  icases Hbufs with ⟨H3, Hrest⟩
  ihave H3 := (Entails.of_eq (held_scRefs (F := F) d (W1 m d))) $$ H3
  icases H3 with ⟨Hi, Hx, Ho⟩
  iapply ((K (F := F)).wp_run (D (F := F)) 𝒱 (EH := EH) (P := PP m) κ d 0) $$ [Hst Hi Hx Ho Hb Hrest Hsems Hprng Hcg Htk]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn := (dn0_join (fi m) (fx m) (fo m) d) $$ Hdn
  icases Hdn with ⟨Hi, Hx, Ho⟩
  ihave Hbufs := (held_join m d) $$ [Hi Hx Ho Hrest]
  · isplitl [Hi]; · iexact Hi
    isplitl [Hx]; · iexact Hx
    isplitl [Ho]; · iexact Ho
    iexact Hrest
  -- the four host operations between the calls
  iapply (StableHlo.wp_hlo_within (V := W2 m d) 𝒱 (SparseCore.T d) none Set.univ (Pipeline.sub_ucRefs _ (StableHlo.reshape_bufs_sub _ _ _ _ _ _))) $$ [Hb Hbufs]
  · isplitl [Hb] <;> iassumption
  iintro ⟨Hb, Hbufs⟩
  rw [wp_ret]; imodintro
  iapply (StableHlo.wp_hlo_within 𝒱 (SparseCore.T d) none Set.univ (Pipeline.sub_ucRefs _ (StableHlo.unary_bufs_sub _ _ _ _ _))) $$ [Hb Hbufs]
  · isplitl [Hb] <;> iassumption
  iintro ⟨Hb, Hbufs⟩
  rw [wp_ret]; imodintro
  iapply (StableHlo.wp_hlo_within 𝒱 (SparseCore.T d) none Set.univ (Pipeline.sub_ucRefs _ (StableHlo.reshape_bufs_sub _ _ _ _ _ _))) $$ [Hb Hbufs]
  · isplitl [Hb] <;> iassumption
  iintro ⟨Hb, Hbufs⟩
  rw [wp_ret]; imodintro
  iapply (StableHlo.wp_hlo_within 𝒱 (SparseCore.T d) none Set.univ (Pipeline.sub_ucRefs _ (StableHlo.unary_bufs_sub _ _ _ _ _))) $$ [Hb Hbufs]
  · isplitl [Hb] <;> iassumption
  iintro ⟨Hb, Hbufs⟩
  rw [wp_ret]; imodintro
  -- the TensorCore call's region
  ihave Hub := (show (StableHlo.held (SparseCore.T d) (Pipeline.ucRefs τ sig) ((opB4 (F := F)).result ((opB3 (F := F)).result ((opB2 (F := F)).result ((opB1 (F := F)).result (W2 m d))))) : sProp 𝕄) ⊢ (unscopedBufs d (V6 m d) : sProp 𝕄)
      from Entails.of_eq (Pipeline.unscopedBufs_held d (W6 m d)).symm) $$ Hbufs
  ihave Hst := (tcSt_one_open (F := F) d) $$ Hst
  icases Hst with ⟨HO, Hback⟩
  iapply (wp_region (V6 m) d _) $$ [Hb Hub HO Hcg Htk Hback Hsems Hprng]
  isplitr; · iexact Hlev
  isplitl [Hb]; · iexact Hb
  isplitl [Hub]; · iexact Hub
  isplitl [HO]; · iexact HO
  isplitl [Hcg Htk]
  · unfold GG; isplitl [Hcg] <;> iassumption
  iintro ⟨Hb, Hpost⟩
  ihave Hpost := (post_open (V6 m) d) $$ Hpost
  icases Hpost with ⟨Hv6, Ha0, Ha1, Ha2, Ha3, Hv7, HO⟩
  -- the final transposition
  ihave Hz := (held_z_intro' m d) $$ [Hv6 Hv7]
  · isplitl [Hv6] <;> iassumption
  iapply (StableHlo.wp_hlo_within (op := opZ (F := F)) (V := W7 m d) 𝒱 (SparseCore.T d) none Set.univ (opZ_bufs (F := F))) $$ [Hb Hz]
  · isplitl [Hb] <;> iassumption
  iintro ⟨Hb, Hz⟩
  rw [wp_ret]; imodintro; imodintro
  isplitl [HO Hback]
  · iapply Hback; iexact HO
  ihave Hres := (held_z_elim' m d) $$ Hz
  unfold FIN
  isplitl [Ha0]; · iexact Ha0
  isplitl [Ha1]; · iexact Ha1
  isplitl [Ha2]; · iexact Ha2
  isplitl [Ha3]; · iexact Ha3
  iexact Hres

end Cert.KernelIdeal.Hand

end
-- ==== Proof.KI.ScValue.lean ====
/-
  The gather task's buffers as the task addresses them, and the VALUE it leaves: the stream's offsets are the task's
  128 index words (each below 1000 under the precondition), so the rows it gathers, copied out, are the table rows those
  words name — the gathered-rows function on the task's output rows. Index arithmetic only; generic in the float instance.
-/
import proofs.«218874_g56547539419890_cont_9to1c4b_400_22_alg».proof.Proof.KI.ScPay
import Idealize.ShloMosaic.Lib.Writes

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F

local notation "iV" => (Memref.whole Cert.KernelIdeal.main_v0_scv : Memref Cert.KernelIdeal.sig Kind.scVector Space.hbm Cert.KernelIdeal.S1x4096 EltTy.i32)
local notation "xV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

variable (fi : (d : Dev nD) → Buf (Elt F) (iLoc d)) (fx : (d : Dev nD) → Buf (Elt F) (xLoc d)) (fo : (d : Dev nD) → Buf (Elt F) (oLoc d))

/-! ## The grid point, and the buffers as the task addresses them -/

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

/-- Each task runs exactly one step: nothing to prefetch, nothing of an earlier step to wait for. -/
theorem cond1_false : ∀ L : grid0.Coords, ¬ (k0_cond1 L = 1#1) := by decide +kernel
theorem cond2_true : ∀ L : grid0.Coords, k0_cond2 L = 1#1 := by decide +kernel
theorem cond5_true : ∀ L : grid0.Coords, k0_cond5 L = 1#1 := by decide +kernel
theorem cond7_false : ∀ L : grid0.Coords, ¬ (k0_cond7 L = 1#1) := by decide +kernel

/-- The task's 128 index columns and its 128 output rows, as its copies address them. -/
abbrev iColK (L : grid0.Coords) : Memref sig .scVector .hbm S1x128 .i32 :=
  (iV).slice (Rect.unit (s := S1x4096) (k0_off2 L) S1x128.size (k0_off2_inb L)) (fun _ => rfl)
abbrev oRowK (L : grid0.Coords) : Memref sig .scVector .hbm S128x128 .f32 :=
  (oV).slice (Rect.unit (s := S4096x128) (k0_off12 L) S128x128.size (k0_off12_inb L (cond5_true L))) (fun _ => rfl)

theorem set_iColK : (iColK L).view.set = iTileSet (cL L) (iL L) := by
  show ((View.whole (main_v0_scv : Ref sig .scVector)).slice (Rect.unit (s := S1x4096) (k0_off2 L) S1x128.size (k0_off2_inb L))).set = (icolR (cL L) (iL L)).set
  rw [View.set_slice_whole]
  exact congrArg (fun r : Rect S1x4096 => r.set) (Rect.unit_congr (k0_off2_eq L) _ _)
theorem set_oRowK : (oRowK L).view.set = oTileSet (cL L) (iL L) := by
  show ((View.whole (main_v1_scv : Ref sig .scVector)).slice (Rect.unit (s := S4096x128) (k0_off12 L) S128x128.size (k0_off12_inb L (cond5_true L)))).set = (orowR (cL L) (iL L)).set
  rw [View.set_slice_whole]
  exact congrArg (fun r : Rect S4096x128 => r.set) (Rect.unit_congr (k0_off12_eq L) _ _)

theorem pts_iColK (f : Buf (Elt F) (iLoc d)) :
    ((iColK L).view.loc (V d (cV L) (jV L)) ↦[(iColK L).view.set]{fullShare} f : sProp 𝕄) = iLoc d ↦[iTileSet (cL L) (iL L)]{fullShare} f := by
  rw [set_iColK]
theorem pts_oRowK (f : Buf (Elt F) (oLoc d)) :
    ((oRowK L).view.loc (V d (cV L) (jV L)) ↦[(oRowK L).view.set]{fullShare} f : sProp 𝕄) = oLoc d ↦[oTileSet (cL L) (iL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scoped0)) :
    ((sV).view.loc (V d (cV L) (jV L)) ↦{fullShare} f : sProp 𝕄) = (V d (cV L) (jV L)).loc cc0_scoped0 ↦{fullShare} f := rfl
theorem pts_rV (f : Buf (Elt F) ((V d (cV L) (jV L)).loc cc0_scoped2)) :
    ((rV).view.loc (V d (cV L) (jV L)) ↦{fullShare} f : sProp 𝕄) = (V d (cV L) (jV L)).loc cc0_scoped2 ↦{fullShare} f := rfl

/-- Slot 0 of the index scratch as the index copy fills it, and as the stream reads its 128 words; slot 0 of the row
    scratch as the stream fills it and as the copy-out reads it; the table as the stream addresses it. -/
abbrev iSlotK : Memref sig .scVector .vmem S1x128 .i32 :=
  ((sV).slice (Rect.unit (s := S2x1x128) k0_off1 S1x1x128.size k0_off1_inb) (fun _ => rfl)).squeeze S1x128 squeezes_S1x1x128_S1x128
abbrev offsK : Memref sig .scVector .vmem S128 .i32 :=
  ((iSlotK).slice (Rect.unit (s := S1x128) ![0, 0] S1x128.size inb_S1x128_S1x128_0_0) (fun _ => rfl)).squeeze S128 squeezes_S1x128_S128
abbrev rSlotK : Memref sig .scVector .vmem S128x128 .f32 :=
  ((rV).slice (Rect.unit (s := S2x128x128) k0_off10 S1x128x128.size k0_off10_inb) (fun _ => rfl)).squeeze S128x128 squeezes_S1x128x128_S128x128
abbrev rSlotK' (L : grid0.Coords) : Memref sig .scVector .vmem S128x128 .f32 :=
  ((rV).slice (Rect.unit (s := S2x128x128) k0_off11 S1x128x128.size (k0_off11_inb L (cond5_true L))) (fun _ => rfl)).squeeze S128x128 squeezes_S1x128x128_S128x128
abbrev xAllK : Memref sig .scVector .hbm S1000x128 .f32 :=
  (xV).slice (Rect.unit (s := S1000x128) ![0, 0] S1000x128.size inb_S1000x128_S1000x128_0_0) (fun _ => rfl)

/-- The copy-out reads slot 0 of the row scratch at the elements the stream wrote. -/
theorem rSlot_emb (y : S128x128.Idx) : ((rSlotK' L).view.emb y : S2x128x128.Idx) = (rSlotK).view.emb y := by
  funext a
  apply Fin.ext
  show k0_off11 a + 1 * ((Shape.reshapeEquiv squeezes_S1x128x128_S128x128.numel_eq y) a).val
    = k0_off10 a + 1 * ((Shape.reshapeEquiv squeezes_S1x128x128_S128x128.numel_eq y) a).val
  rw [k0_off11_eq, k0_off10_eq]

theorem rSlot_read (G : Buf (Elt F) ((V d (cV L) (jV L)).loc cc0_scoped2)) (y : S128x128.Idx) :
    (rSlotK' L).view.read (Elt F) G y = (rSlotK).view.read (Elt F) G y :=
  congrArg (fun i : S2x128x128.Idx => G i) (rSlot_emb L y)

/-! ## The index words the stream reads -/

/-- What the index copy lands in slot 0 of the index scratch: the task's 128 index words. -/
abbrev pay0 : S1x128.Idx → Elt F .i32 := (iColK L).view.read (Elt F) (fi d)

theorem pay0_apply (z : S1x128.Idx) : pay0 fi d L z = fi d ((iColK L).view.emb z) := (View.read_apply _ _).trans (cast_eq _ _)

theorem pay0_lt (hpre : PreOK fi) (z : S1x128.Idx) : (pay0 fi d L z).toNat < 1000 := by
  rw [pay0_apply]; exact hpre d _

variable (fs : Buf (Elt F) ((V d (cV L) (jV L)).loc cc0_scoped0)) (fr : Buf (Elt F) ((V d (cV L) (jV L)).loc cc0_scoped2))

/-- Word `x` of the stream's offset list, read off the index scratch once a payload has landed in slot 0, is that
    payload's word at `(0, x)`. -/
theorem offs_read (pay : S1x128.Idx → Elt F .i32) (x : S128.Idx) :
    (offsK).view.read (Elt F) (View.write (Elt F) (iSlotK).view fs pay Finset.univ) x
      = pay ((Rect.unit (s := S1x128) ![0, 0] S1x128.size inb_S1x128_S1x128_0_0).emb (Shape.reshapeEquiv squeezes_S1x128_S128.numel_eq x)) := by
  have e : (offsK).view.read (Elt F) (View.write (Elt F) (iSlotK).view fs pay Finset.univ) x
      = (iSlotK).view.read (Elt F) (View.write (Elt F) (iSlotK).view fs pay Finset.univ)
          ((Rect.unit (s := S1x128) ![0, 0] S1x128.size inb_S1x128_S1x128_0_0).emb (Shape.reshapeEquiv squeezes_S1x128_S128.numel_eq x)) := rfl
  rw [e, View.read_write_of_mem _ _ (Finset.mem_univ _)]

/-- The stream's offsets are in range: every word of the landed payload is below 1000. -/
theorem hin_of (pay : S1x128.Idx → Elt F .i32) (hpay : ∀ y, (pay y).toNat < 1000) :
    ∀ x, ((offsK).view.read (Elt F) (View.write (Elt F) (iSlotK).view fs pay Finset.univ) x).toNat < S1000x128.size gathers_S1000x128_S128x128.axis := by
  intro x
  rw [offs_read]
  exact hpay _

/-- The index of the index array that word `k` of the offset list was copied from: column `128 i + 2048 c + k`. -/
theorem word_idx (k : Fin 128) (hk : 128 = S128.numel) (hb : 128 * (L 1).val + 2048 * (L 0).val + k.val < 4096) :
    (iColK L).view.emb ((Rect.unit (s := S1x128) ![0, 0] S1x128.size inb_S1x128_S1x128_0_0).emb
        (Shape.reshapeEquiv squeezes_S1x128_S128.numel_eq (S128.rowMajor.symm (k.cast hk))))
      = ix2 (0 : Fin 1) (⟨128 * (L 1).val + 2048 * (L 0).val + k.val, hb⟩ : Fin 4096) := by
  have e1 : Shape.reshapeEquiv squeezes_S1x128_S128.numel_eq (S128.rowMajor.symm (k.cast hk)) = ix2 (0 : Fin 1) k :=
    Shape.reshapeEquiv_eq_of_rowMajor _ (by
      rw [Shape.rowMajor_val_two, Equiv.apply_symm_apply]
      show 0 * 128 + k.val = k.val
      omega)
  rw [e1]
  funext a
  apply Fin.ext
  have e2 := k0_off2_eq L
  match a with
  | ⟨0, h0⟩ =>
    show k0_off2 L ⟨0, h0⟩ + 1 * ((![0, 0] : Fin 2 → ℕ) ⟨0, h0⟩ + 1 * 0) = 0
    rw [e2]; rfl
  | ⟨1, h1⟩ =>
    show k0_off2 L ⟨1, h1⟩ + 1 * ((![0, 0] : Fin 2 → ℕ) ⟨1, h1⟩ + 1 * k.val) = 128 * (L 1).val + 2048 * (L 0).val + k.val
    rw [e2]
    show 128 * (L 1).val + 2048 * (L 0).val + 1 * (0 + 1 * k.val) = _
    omega

/-! ## The rows the stream gathers, and what the copy-out leaves -/

/-- The rows the stream lands in slot 0 of the row scratch: row `k` is the table row the `k`-th landed index word names. -/
abbrev payG (hin : ∀ x, ((offsK).view.read (Elt F) (View.write (Elt F) (iSlotK).view fs (pay0 fi d L) Finset.univ) x).toNat < S1000x128.size gathers_S1000x128_S128x128.axis) :
    S128x128.Idx → Elt F .f32 :=
  SparseCore.gatherPayload gathers_S1000x128_S128x128 ((xAllK).view.read (Elt F) (fx d))
    (SparseCore.rows ((offsK).view.read (Elt F) (View.write (Elt F) (iSlotK).view fs (pay0 fi d L) Finset.univ)) (rfl : S128.numel = S128x128.size gathers_S1000x128_S128x128.axis') hin)

/-- Row `k`, column `c` of the gathered rows is the gathered-rows function at the task's row `k`, column `c`. -/
theorem payG_apply (hpre : PreOK fi) (hin) (y : S128x128.Idx) :
    payG fi fx d L fs hin y = gath fi fx d ((oRowK L).view.emb y) := by
  have hL0 : (L 0).val < 2 := (L 0).isLt
  have hL1 : (L 1).val < 16 := (L 1).isLt
  have hy0 : (y 0).val < 128 := (y 0).isLt
  have hb : 128 * (L 1).val + 2048 * (L 0).val + (y 0).val < 4096 := by omega
  -- the row of the output array this element is copied to
  have he0 : (oRowK L).view.emb y 0 = (⟨128 * (L 1).val + 2048 * (L 0).val + (y 0).val, hb⟩ : Fin 4096) := by
    apply Fin.ext
    show k0_off12 L 0 + 1 * (y 0).val = 128 * (L 1).val + 2048 * (L 0).val + (y 0).val
    rw [k0_off12_eq]
    show 128 * (L 1).val + 2048 * (L 0).val + 1 * (y 0).val = _
    omega
  have he1 : (oRowK L).view.emb y 1 = y 1 := by
    apply Fin.ext
    show k0_off12 L 1 + 1 * (y 1).val = (y 1).val
    rw [k0_off12_eq]
    show 0 + 1 * (y 1).val = _
    omega
  -- the index word the stream read for this row
  have hw : (SparseCore.rows ((offsK).view.read (Elt F) (View.write (Elt F) (iSlotK).view fs (pay0 fi d L) Finset.univ))
      (rfl : S128.numel = S128x128.size gathers_S1000x128_S128x128.axis') hin (y gathers_S1000x128_S128x128.axis')).val
      = (gRow fi d ((oRowK L).view.emb y 0)).val := by
    show ((offsK).view.read (Elt F) (View.write (Elt F) (iSlotK).view fs (pay0 fi d L) Finset.univ)
      (S128.rowMajor.symm ((y 0).cast rfl))).toNat = _
    rw [offs_read, pay0_apply]
    refine (congrArg (fun z : S1x4096.Idx => (fi d z).toNat) (word_idx L (y 0) rfl hb)).trans ?_
    rw [he0, gRow_val_of_pre fi hpre]
  show fx d ((xAllK).view.emb (gathers_S1000x128_S128x128.idx _ y)) = fx d (ix2 (gRow fi d ((oRowK L).view.emb y 0)) ((oRowK L).view.emb y 1))
  congr 1
  funext a
  apply Fin.ext
  match a with
  | ⟨0, h0⟩ =>
    show (![0, 0] : Fin 2 → ℕ) ⟨0, h0⟩ + 1 * (gathers_S1000x128_S128x128.idx _ y ⟨0, h0⟩).val = (gRow fi d ((oRowK L).view.emb y 0)).val
    rw [← hw]
    show 0 + 1 * _ = _
    rw [Nat.zero_add, Nat.one_mul]
    exact congrArg Fin.val (Shape.Gathers.idx_axis gathers_S1000x128_S128x128 _ y)
  | ⟨1, h1⟩ =>
    show (![0, 0] : Fin 2 → ℕ) ⟨1, h1⟩ + 1 * (gathers_S1000x128_S128x128.idx _ y ⟨1, h1⟩).val = ((oRowK L).view.emb y 1).val
    rw [he1]
    show 0 + 1 * _ = _
    rw [Nat.zero_add, Nat.one_mul]
    exact Shape.Gathers.idx_of_ne gathers_S1000x128_S128x128 _ y ⟨1, h1⟩ (Nat.succ_ne_zero 0)

/-- What the copy-out writes over the task's output rows: on those rows it is the gathered-rows function. -/
theorem out_value (hpre : PreOK fi) (hin) :
    ∀ i ∈ (oRowK L).view.set,
      (oRowK L).view.writes (Elt F) (fo d) [⟨Rect.whole S128x128,
        (rSlotK' L).view.read (Elt F) (View.write (Elt F) (rSlotK).view fr (payG fi fx d L fs hin) Finset.univ)⟩] i = gath fi fx d i := by
  intro i hi
  obtain ⟨y, -, rfl⟩ := Finset.mem_map.mp hi
  have hr := View.read_writes_cons_emb (oRowK L).view (fo d) (Rect.whole S128x128)
    ((rSlotK' L).view.read (Elt F) (View.write (Elt F) (rSlotK).view fr (payG fi fx d L fs hin) Finset.univ)) [] y
  rw [Rect.emb_whole_apply, View.read_apply] at hr
  have hr' := (cast_eq _ _).symm.trans hr
  rw [hr', rSlot_read d L, View.read_write_univ]
  exact payG_apply fi fx d L fs hpre hin y

end Cert.KernelIdeal.Hand

end
-- ==== Proof.KI.ScTile.lean ====
/-
  One vector subcore's task of the gather kernel, at a symbolic grid point: it copies its 128 index words into its
  index scratch, gathers the table rows they name into its row scratch by the indirect stream, and copies those out
  to its 128 rows of the output array, one transfer at a time on each DMA semaphore. Carried with it: the rows it
  leaves are the gathered-rows function on its rows. Then the task as the launch theorem's obligation. Generic in
  the float instance.
-/
import proofs.«218874_g56547539419890_cont_9to1c4b_400_22_alg».proof.Proof.KI.ScValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

local notation "iV" => (Memref.whole Cert.KernelIdeal.main_v0_scv : Memref Cert.KernelIdeal.sig Kind.scVector Space.hbm Cert.KernelIdeal.S1x4096 EltTy.i32)
local notation "xV" => (Memref.whole Cert.KernelIdeal.main_arg1_scv : Memref Cert.KernelIdeal.sig Kind.scVector Space.hbm Cert.KernelIdeal.S1000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

variable (fi : (d : Dev nD) → Buf (Elt F) (iLoc d)) (fx : (d : Dev nD) → Buf (Elt F) (xLoc d)) (fo : (d : Dev nD) → Buf (Elt F) (oLoc d))
variable [FloatOps F]

section Tile

variable (d : Dev nD) (L : grid0.Coords)

/-- The three DMA semaphores the task uses: of the index copy, of the gather, of the copy-out. -/
abbrev cAcell (d : Dev nD) (c : Fin τ.nSC) (i : Fin τ.nSub) : GSem nD τ sig := (V d c i, .dma (0 : DmaSem sig))
abbrev cBcell (d : Dev nD) (c : Fin τ.nSC) (i : Fin τ.nSub) : GSem nD τ sig := (V d c i, .dma (4 : DmaSem sig))
abbrev cCcell (d : Dev nD) (c : Fin τ.nSC) (i : Fin τ.nSub) : GSem nD τ sig := (V d c i, .dma (2 : DmaSem sig))

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma (0 : DmaSem sig) : SemLoc sig).isScoped .scVector = true; decide⟩),
    SparseCore.bigSep_erase' (Finset.mem_erase.mpr ⟨by simp [cAcell, cBcell], (mem_ownCells (g := cBcell d (cV L) (jV L))).mpr ⟨rfl, by
      show (SemLoc.dma (4 : DmaSem sig) : SemLoc sig).isScoped .scVector = true; decide⟩⟩),
    SparseCore.bigSep_erase' (Finset.mem_erase.mpr ⟨by simp [cBcell, cCcell], Finset.mem_erase.mpr ⟨by simp [cAcell, cCcell],
      (mem_ownCells (g := cCcell d (cV L) (jV L))).mpr ⟨rfl, by show (SemLoc.dma (2 : DmaSem sig) : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
theorem sem0_inb : ∀ a, (![0] : Fin 1 → ℕ) a + S1.size a ≤ S2.size a := by decide

set_option maxHeartbeats 4000000 in
/-- The task on vector subcore `(L 0, L 1)` of device `d`: the index copy and its wait, the indirect gather and its
    wait (its offsets in range by the precondition), the copy-out and its wait; the rows left are the gathered rows. -/
theorem tile_body (hF : (K (F := F)).Facts) (hpre : PreOK fi) (O : CellTallies nD τ sig (HIx 1)) (W : Waits sig (HIx 1)) (hO : ∀ g, O g none = 0) :
    iprop(levAts (K (F := F)).L (K (F := F)).lev ∗ emp
        ∗ (iTilePts fi d (cL L) (iL L) ∗ xTilePts fx d (cL L) (iL L) ∗ oTilePts d (cL L) (iL L) (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) cc0_scoped1 rV (Memref.isWhole_whole _) cc0_scoped3 cc0_scoped4)
          fun _ => iprop((iTilePts fi d (cL L) (iL L) ∗ xTilePts fx d (cL L) (iL L) ∗ oTilePts d (cL L) (iL L) (gath fi fx d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h1 := cond1_false L
  have h2 := cond2_true L
  have h5 := cond5_true L
  have h7 := cond7_false L
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iColK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  -- the stream's offsets are the index words the first copy lands, each below 1000
  have hin := hin_of (F := F) d L fs (pay0 fi d L) (pay0_lt fi d L hpre)
  sl_exec
  -- the last wait names its semaphore through an offset chain of the grid point: its closed form
  rw [SemArray.slice_unit_congr cc0_scoped3 (k0_off19_eq L) (k0_off19_inb L) sem0_inb]
  sl_exec
  sl_step
  -- the rows written are the gathered rows
  ihave Ho2 := (Entails.of_eq (pointsTo_congr (out_value fi fx fo d L fs fr hpre hin))) $$ Ho'
  isplitl [Hi' Hx' Ho2]
  · isplitl [Hi']; · iapply (Entails.of_eq (pts_iColK (F := F) d L _)); iexact Hi'
    isplitl [Hx']; · iexact Hx'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) cc0_scoped1 rV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of vector subcore `i` of SparseCore `c`, as the launch theorem asks for it. -/
theorem tileObl (hF : (K (F := F)).Facts) (hpre : PreOK fi) : (K (F := F)).TileObl (D (F := F)) 𝒱 (P fi fx fo) v₀ 0 := by
  intro d c i O W hO _ _
  simp only [show (P fi fx fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi fx fo d (coordsV ⟨_, hci.1⟩ ⟨_, hci.2⟩) hF hpre O W hO).trans (wp_mono frame _ _ fun _ => obl_post)

end Tile

end Cert.KernelIdeal.Hand

end
-- ==== Proof.LibReal.lean ====
/-
  Real numbers among the extended reals. An extended real is either a real number or one of the two
  infinities, and the laws of arithmetic that move a factor across a sum hold on the extended reals only
  where no infinity occurs. This module names the property "is a real number", shows that every operation a
  graph-convolution layer performs on a row of features keeps it, and proves the one law the layers need:
  a common real factor may be moved from every summand of a finite sum of products to the finished sum.
-/
import Mathlib.Data.EReal.Basic
import Mathlib.Data.EReal.Operations
import Mathlib.Data.EReal.Inv
import Idealize.ShloMosaic.PureOps.Ideal

noncomputable section

open scoped BigOperators

namespace Cert.Gcn

open Idealize.ShloMosaic

/-- An extended real is a real number: it is the image of some real, hence neither infinity. -/
def IsReal (x : EReal) : Prop := ∃ r : ℝ, x = (r : EReal)

namespace IsReal

/-- The image of a real number is a real number. -/
theorem coe (r : ℝ) : IsReal (r : EReal) := ⟨r, rfl⟩

/-- Zero is a real number. -/
theorem zero : IsReal (0 : EReal) := ⟨0, rfl⟩

/-- One is a real number. -/
theorem one : IsReal (1 : EReal) := ⟨1, rfl⟩

/-- The sum of two real numbers is a real number. -/
theorem add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The negative of a real number is a real number. -/
theorem neg {x : EReal} (hx : IsReal x) : IsReal (-x) := by
  obtain ⟨a, rfl⟩ := hx
  exact ⟨-a, (EReal.coe_neg a).symm⟩

/-- The larger of two real numbers is a real number: it is one of the two. -/
theorem max {x y : EReal} (hx : IsReal x) (hy : IsReal y) : IsReal (max x y) := by
  rcases max_choice x y with h | h
  · rw [h]; exact hx
  · rw [h]; exact hy

/-- The smaller of two real numbers is a real number: it is one of the two. -/
theorem min {x y : EReal} (hx : IsReal x) (hy : IsReal y) : IsReal (min x y) := by
  rcases min_choice x y with h | h
  · rw [h]; exact hx
  · rw [h]; exact hy

/-- A real number is not `+∞`. -/
theorem ne_top {x : EReal} (hx : IsReal x) : x ≠ ⊤ := by
  obtain ⟨a, rfl⟩ := hx
  exact EReal.coe_ne_top a

/-- A real number is not `-∞`. -/
theorem ne_bot {x : EReal} (hx : IsReal x) : x ≠ ⊥ := by
  obtain ⟨a, rfl⟩ := hx
  exact EReal.coe_ne_bot a

end IsReal

/-- An extended real that is neither infinity is a real number. -/
theorem isReal_of_ne {x : EReal} (ht : x ≠ ⊤) (hb : x ≠ ⊥) : IsReal x :=
  ⟨x.toReal, (EReal.coe_toReal ht hb).symm⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The image of the larger of two reals is the larger of the images. -/
theorem coe_max (a b : ℝ) : ((Max.max a b : ℝ) : EReal) = Max.max (a : EReal) (b : EReal) :=
  EReal.coe_strictMono.monotone.map_max

/-! ### Moving a real factor across a finite sum -/

/-- A finite sum of products of reals, each summand multiplied by one more real `c`, is the finished sum
    multiplied by `c`. On the extended reals this is false in general (an infinite summand and `c = 0`);
    here every factor is a real number. The leading `0 +` is the initial value of the accumulation. -/
theorem sum_mul_hoist {ι : Type*} (s : Finset ι) (a f : ι → EReal) (c : EReal)
    (ha : ∀ j ∈ s, IsReal (a j)) (hf : ∀ j ∈ s, IsReal (f j)) (hc : IsReal c) :
    (0 + ∑ j ∈ s, a j * f j) * c = 0 + ∑ j ∈ s, a j * (f j * c) := by
  obtain ⟨c', rfl⟩ := hc
  have ha2 : ∀ j ∈ s, ∃ r : ℝ, a j = (r : EReal) := ha
  have hf2 : ∀ j ∈ s, ∃ r : ℝ, f j = (r : EReal) := hf
  choose! a' ha' using ha2
  choose! f' hf' using hf2
  have h1 : ∑ j ∈ s, a j * f j = ((∑ j ∈ s, a' j * f' j : ℝ) : EReal) := by
    rw [coe_sum]
    exact Finset.sum_congr rfl fun j hj => by rw [ha' j hj, hf' j hj, EReal.coe_mul]
  have h2 : ∑ j ∈ s, a j * (f j * (c' : EReal)) = ((∑ j ∈ s, a' j * (f' j * c') : ℝ) : EReal) := by
    rw [coe_sum]
    exact Finset.sum_congr rfl fun j hj => by rw [ha' j hj, hf' j hj, EReal.coe_mul, EReal.coe_mul]
  rw [zero_add, zero_add, h1, h2, ← EReal.coe_mul, Finset.sum_mul]
  exact congrArg _ (Finset.sum_congr rfl fun j _ => mul_assoc _ _ _)

/-- The same law with the two factors of each summand on the left written in the other order. -/
theorem sum_mul_hoist' {ι : Type*} (s : Finset ι) (a f : ι → EReal) (c : EReal)
    (ha : ∀ j ∈ s, IsReal (a j)) (hf : ∀ j ∈ s, IsReal (f j)) (hc : IsReal c) :
    (0 + ∑ j ∈ s, f j * a j) * c = 0 + ∑ j ∈ s, a j * (f j * c) := by
  rw [← sum_mul_hoist s a f c ha hf hc]
  exact congrArg (fun t => (0 + t) * c) (Finset.sum_congr rfl fun j _ => mul_comm _ _)

/-! ### The single-precision words the programs spell, as the reals they denote -/

/-- The word `0x3F800000` denotes the real number 1. -/
theorem ofBits_one : Ideal.ofBits .f32 0x3F800000#32 = ((1 : ℝ) : EReal) := by
  simp [Ideal.ofBits, Ideal.ieee, -EReal.coe_mul]; norm_num

/-- The word `0x3F000000` denotes the real number 1/2. -/
theorem ofBits_half : Ideal.ofBits .f32 0x3F000000#32 = ((1 / 2 : ℝ) : EReal) := by
  simp [Ideal.ofBits, Ideal.ieee, -EReal.coe_mul]; norm_num

/-- The word `0x40000000` denotes the real number 2. -/
theorem ofBits_two : Ideal.ofBits .f32 0x40000000#32 = ((2 : ℝ) : EReal) := by
  simp [Ideal.ofBits, Ideal.ieee, -EReal.coe_mul]; norm_num

/-- The word `0x40400000` denotes the real number 3. -/
theorem ofBits_three : Ideal.ofBits .f32 0x40400000#32 = ((3 : ℝ) : EReal) := by
  simp [Ideal.ofBits, Ideal.ieee, -EReal.coe_mul]; norm_num

/-- The word `0x47C35000` denotes the real number 100000. -/
theorem ofBits_100000 : Ideal.ofBits .f32 0x47C35000#32 = ((100000 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- The word `0x3727C5AC` (the single-precision rounding of one hundred-thousandth) denotes a positive real number. -/
theorem ofBits_eps_pos : ∃ r : ℝ, 0 < r ∧ Ideal.ofBits .f32 0x3727C5AC#32 = (r : EReal) := by
  simp [Ideal.ofBits, Ideal.ieee, -EReal.coe_mul]

/-- The word `0x7F800000` denotes +∞. -/
theorem ofBits_pos_inf : Ideal.ofBits .f32 0x7F800000#32 = ⊤ := by
  simp [Ideal.ofBits, Ideal.ieee]

/-- The word `0xFF800000` denotes −∞. -/
theorem ofBits_neg_inf : Ideal.ofBits .f32 0xFF800000#32 = ⊥ := by
  simp [Ideal.ofBits, Ideal.ieee]

/-- The first four words above denote real numbers. -/
theorem isReal_ofBits_one : IsReal (Ideal.ofBits .f32 0x3F800000#32) := ⟨_, ofBits_one⟩
/-- See `isReal_ofBits_one`. -/
theorem isReal_ofBits_half : IsReal (Ideal.ofBits .f32 0x3F000000#32) := ⟨_, ofBits_half⟩
/-- See `isReal_ofBits_one`. -/
theorem isReal_ofBits_two : IsReal (Ideal.ofBits .f32 0x40000000#32) := ⟨_, ofBits_two⟩
/-- See `isReal_ofBits_one`. -/
theorem isReal_ofBits_three : IsReal (Ideal.ofBits .f32 0x40400000#32) := ⟨_, ofBits_three⟩

/-! ### The operations with corners, away from their corners -/

/-- The square root of a nonnegative real number is a real number. (Below zero the square root here is `-∞`,
    so the hypothesis `0 ≤ x` cannot be dropped.) -/
theorem isReal_sqrt {x : EReal} (hx : IsReal x) (h0 : 0 ≤ x) : IsReal (Ideal.sqrt x) := by
  obtain ⟨r, rfl⟩ := hx
  rw [Ideal.sqrt_coe, if_neg (not_lt.mpr (EReal.coe_nonneg.mp h0))]
  exact ⟨_, rfl⟩

/-- The quotient of a real number by a nonzero real number is a real number. -/
theorem isReal_div {x y : EReal} (hx : IsReal x) (hy : IsReal y) (h0 : y ≠ 0) : IsReal (Ideal.div x y) := by
  obtain ⟨a, rfl⟩ := hx
  obtain ⟨b, rfl⟩ := hy
  have hb : b ≠ 0 := fun h => h0 (by rw [h]; rfl)
  rw [Ideal.div_coe hb, ← EReal.coe_mul]
  exact ⟨_, rfl⟩

/-- A real number raised to at least 1 has a real inverse square root: the argument of the inverse square root
    is then a real number that is at least 1, in particular positive. -/
theorem isReal_rsqrt_max_one {x : EReal} (hx : IsReal x) :
    IsReal (Ideal.rsqrt (max x (Ideal.ofBits .f32 0x3F800000#32))) := by
  obtain ⟨r, rfl⟩ := hx
  rw [ofBits_one, ← coe_max, Ideal.rsqrt_coe]
  have h1 : (1 : ℝ) ≤ Max.max r 1 := le_max_right r 1
  have h2 : ¬ Max.max r 1 < 0 := not_lt.mpr (by linarith)
  have h3 : ¬ Max.max r 1 = 0 := fun h => by linarith
  rw [if_neg h2, if_neg h3]
  exact ⟨_, rfl⟩

/-! ### Three quotients against products, at every extended real -/

/-- Dividing by the word for 1 is multiplying by it, at the infinities too. -/
theorem div_one (x : EReal) :
    Ideal.div x (Ideal.ofBits .f32 0x3F800000#32) = x * Ideal.ofBits .f32 0x3F800000#32 := by
  rw [ofBits_one, Ideal.div_coe one_ne_zero, _root_.div_one]

/-- Dividing by the word for 2 is multiplying by the word for 1/2, at the infinities too. -/
theorem div_two (x : EReal) :
    Ideal.div x (Ideal.ofBits .f32 0x40000000#32) = x * Ideal.ofBits .f32 0x3F000000#32 := by
  rw [ofBits_two, ofBits_half, Ideal.div_coe two_ne_zero]

/-- Dividing by the word for 3 is multiplying by the real number 1/3, at the infinities too. -/
theorem div_three (x : EReal) :
    Ideal.div x (Ideal.ofBits .f32 0x40400000#32) = x * ((1 / 3 : ℝ) : EReal) := by
  rw [ofBits_three, Ideal.div_coe three_ne_zero]

/-! ### Distributing a real factor -/

/-- A real number is the image of its real part. -/
theorem IsReal.coe_toReal {x : EReal} (hx : IsReal x) : ((x.toReal : ℝ) : EReal) = x := by
  obtain ⟨a, rfl⟩ := hx
  rfl

/-- The difference of two real numbers is a real number. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Among real numbers a sum times a factor is the sum of the products. -/
theorem add_mul_real {x y c : EReal} (hx : IsReal x) (hy : IsReal y) (hc : IsReal c) :
    (x + y) * c = x * c + y * c := by
  obtain ⟨a, rfl⟩ := hx
  obtain ⟨b, rfl⟩ := hy
  obtain ⟨d, rfl⟩ := hc
  rw [← EReal.coe_add, ← EReal.coe_mul, ← EReal.coe_mul, ← EReal.coe_mul, ← EReal.coe_add, add_mul]

/-- Among real numbers a factor times a sum is the sum of the products. -/
theorem mul_add_real {c x y : EReal} (hc : IsReal c) (hx : IsReal x) (hy : IsReal y) :
    c * (x + y) = c * x + c * y := by
  rw [mul_comm c (x + y), add_mul_real hx hy hc, mul_comm x c, mul_comm y c]

/-- A finite sum of real numbers times a real factor is the sum of the products. -/
theorem sum_mul_real {ι : Type*} (s : Finset ι) (f : ι → EReal) (c : EReal) (hf : ∀ j ∈ s, IsReal (f j))
    (hc : IsReal c) : (∑ j ∈ s, f j) * c = ∑ j ∈ s, f j * c := by
  classical
  induction s using Finset.induction_on with
  | empty => simp
  | insert a s ha ih =>
    rw [Finset.sum_insert ha, Finset.sum_insert ha,
      add_mul_real (hf a (Finset.mem_insert_self a s))
        (IsReal.sum s f fun i hi => hf i (Finset.mem_insert_of_mem hi)) hc,
      ih fun i hi => hf i (Finset.mem_insert_of_mem hi)]

/-- A real factor times a finite sum of real numbers is the sum of the products. -/
theorem mul_sum_real {ι : Type*} (s : Finset ι) (f : ι → EReal) (c : EReal) (hf : ∀ j ∈ s, IsReal (f j))
    (hc : IsReal c) : c * ∑ j ∈ s, f j = ∑ j ∈ s, c * f j := by
  rw [mul_comm, sum_mul_real s f c hf hc]
  exact Finset.sum_congr rfl fun j _ => mul_comm _ _

/-! ### Regrouping three summands, at every extended real -/

/-- Three summands accumulated one at a time from zero are zero plus their sum. -/
theorem add3_assoc (a b c : EReal) : ((0 + a) + b) + c = 0 + (a + b + c) := by
  rw [zero_add, zero_add]

/-- Three summands accumulated one at a time from zero, with the sum grouped to the right. -/
theorem add3_assoc_right (a b c : EReal) : ((0 + a) + b) + c = a + (b + c) := by
  rw [zero_add, add_assoc]

/-- Three summands accumulated one at a time from zero are their plain sum. -/
theorem add3_zero (a b c : EReal) : ((0 + a) + b) + c = a + b + c := by
  rw [zero_add]

end Cert.Gcn

end
-- ==== Proof.PreFacts.lean ====
/-
  The precondition decoded. The predicate is the conjunction of four "all" reductions: |E| < +inf, |W| < +inf and
  |b| < +inf elementwise, and 0 ≤ X ≤ 999 elementwise as signed words. When it evaluates to the bit 1, every index
  word, read as a natural number, is below 1000 (at any float instance), and at the extended reals every float
  entry is a real number: |x| < +inf excludes both infinities.
-/
import proofs.«218874_g56547539419890_cont_9to1c4b_400_22_alg».proof.Pre_input_domain
import proofs.«218874_g56547539419890_cont_9to1c4b_400_22_alg».proof.Proof.Gen.Pre_input_domain
import proofs.«218874_g56547539419890_cont_9to1c4b_400_22_alg».proof.Proof.LibReal
import Idealize.ShloMosaic.Lib.ReduceAll
import Idealize.ShloMosaic.Lib.ValueIdx

noncomputable section

namespace Cert.Spec.PreFacts

open Idealize.ShloMosaic Idealize.ShloMosaic.ValueIdx
open Cert.Pre_input_domain
open Cert.Gcn (IsReal)

/-- The scalar shape has one index. -/
instance subsingleton_scalar_idx : Subsingleton S_.Idx := ⟨fun _ _ => funext fun d => d.elim0⟩

/-- A 32-bit word between 0 and 999 as a signed integer is below 1000 as a natural number. -/
theorem toNat_lt_of_signed_range (x : BitVec 32) (h0 : IntOp.cmpi .sge x 0#32 = 1#1)
    (h1 : IntOp.cmpi .sle x 999#32 = 1#1) : x.toNat < 1000 := by
  rw [IntOp.cmpi_sge] at h0
  rw [IntOp.cmpi_sle] at h1
  have e0 : (0#32 : BitVec 32).toInt = 0 := by decide
  have e1 : (999#32 : BitVec 32).toInt = 999 := by decide
  rw [e0] at h0
  rw [e1] at h1
  have hx := x.isLt
  rw [BitVec.toInt_eq_toNat_cond] at h0 h1
  split at h0 <;> omega

/-- The predicate's four conjuncts, elementwise, at any float instance. -/
theorem decode {F : FTy → Type} [FloatOps F] (X : IVec S4096 32) (E : FVec F S1000x128 .f32)
    (W : FVec F S10000x128 .f32) (b : FVec F S10000 .f32) (h : fn (F := F) X E W b = (fun _ => 1#1)) :
    (∀ i : S1000x128.Idx, FloatOps.cmpf .olt (FloatOps.hostAbsf (E i)) (FloatOps.ofBits (F := F) .f32 0x7F800000#32) = 1#1)
    ∧ (∀ i : S10000x128.Idx, FloatOps.cmpf .olt (FloatOps.hostAbsf (W i)) (FloatOps.ofBits (F := F) .f32 0x7F800000#32) = 1#1)
    ∧ (∀ i : S10000.Idx, FloatOps.cmpf .olt (FloatOps.hostAbsf (b i)) (FloatOps.ofBits (F := F) .f32 0x7F800000#32) = 1#1)
    ∧ (∀ i : S4096.Idx, (X i).toNat < 1000) := by
  have e := congrFun h ix0
  dsimp only [fn, fn_part1] at e
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun i => ?_, fun i => ?_⟩
  · exact Host.reduce_andi_all _ _ _ _ ix0 e1 i
  · exact Host.reduce_andi_all _ _ _ _ ix0 e2 i
  · exact Host.reduce_andi_all _ _ _ _ ix0 e3 i
  · have hi := Host.reduce_andi_all _ _ _ _ ix0 e4 i
    obtain ⟨h0, h1⟩ := IntOp.andi_eq_one.1 hi
    exact toNat_lt_of_signed_range (X i) h0 h1

/-- (a) Under the precondition every index word, read as a natural number, is below 1000: at any float instance. -/
theorem index_lt {F : FTy → Type} [FloatOps F] (X : IVec S4096 32) (E : FVec F S1000x128 .f32)
    (W : FVec F S10000x128 .f32) (b : FVec F S10000 .f32) (h : fn (F := F) X E W b = (fun _ => 1#1))
    (j : (⟨1, ![4096]⟩ : Shape).Idx) : (X j).toNat < 1000 :=
  (decode X E W b h).2.2.2 j

/-- At the extended reals, |x| < +inf says x is a real number. -/
theorem isReal_of_abs_lt_inf (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- (b) Under the precondition, at the extended reals, every entry of the table, the weights and the bias is a real. -/
theorem entries_real (X : IVec S4096 32) (E : FVec Ideal S1000x128 .f32) (W : FVec Ideal S10000x128 .f32)
    (b : FVec Ideal S10000 .f32) (h : fn (F := Ideal) X E W b = (fun _ => 1#1)) :
    (∀ i : (⟨2, ![1000, 128]⟩ : Shape).Idx, IsReal (E i))
    ∧ (∀ i : (⟨2, ![10000, 128]⟩ : Shape).Idx, IsReal (W i))
    ∧ (∀ i : (⟨1, ![10000]⟩ : Shape).Idx, IsReal (b i)) :=
  ⟨fun i => isReal_of_abs_lt_inf _ ((decode X E W b h).1 i),
   fun i => isReal_of_abs_lt_inf _ ((decode X E W b h).2.1 i),
   fun i => isReal_of_abs_lt_inf _ ((decode X E W b h).2.2.1 i)⟩

end Cert.Spec.PreFacts

end
-- ==== Proof.KI.HostVals.lean ====
/-
  What @main's host side holds, stage by stage, as values: the arguments keep their launch contents throughout; the
  index array is reshaped to one row for the gather; the gathered rows stand where the gather left them; the weights
  are reshaped into ten slabs and changed to the matmul's format; the bias is reshaped and transposed into columns;
  the program's result is the dense stage's output transposed. Also: under the precondition every word of the
  reshaped index array names a row of the table. Generic in the float instance.
-/
import proofs.«218874_g56547539419890_cont_9to1c4b_400_22_alg».proof.Proof.KI.Host
import proofs.«218874_g56547539419890_cont_9to1c4b_400_22_alg».proof.Proof.PreFacts

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## The valuations away from what each stretch writes -/

/-- The launch contents, read at a TensorCore reference. -/
theorem W0_apply (d : Dev nD) (b : Ref sig .tc) : W0 m d (Proc.devRef .tc b) = m ((d.tc : Thread nD τ).loc b) := rfl

/-- The first reshape writes the one-row index array only. -/
theorem W1_of_ne (d : Dev nD) {b : Ref sig .tc} (h : b ≠ main_v0) :
    W1 m d (Proc.devRef .tc b) = W0 m d (Proc.devRef .tc b) := by
  unfold W1 opA
  exact StableHlo.reshape_result_ne _ _ _ _ _ _ _ h

/-- The gather writes the gathered rows only. -/
theorem W2_of_ne (d : Dev nD) {b : Ref sig .tc} (h : b ≠ main_v1) :
    W2 m d (Proc.devRef .tc b) = W1 m d (Proc.devRef .tc b) :=
  Function.update_of_ne (StableHlo.devRef_ne_of_ne h) _ _

/-- An argument still holds its launch contents after the gather. -/
theorem W2_arg (d : Dev nD) {b : Ref sig .tc} (h0 : b ≠ main_v0) (h1 : b ≠ main_v1) :
    W2 m d (Proc.devRef .tc b) = m ((d.tc : Thread nD τ).loc b) :=
  (W2_of_ne m d h1).trans ((W1_of_ne m d h0).trans (W0_apply m d b))

/-! ## What the dense stage is entered with -/

theorem V6_arg0 (d : Dev nD) : V6 m d main_arg0 = m ((d.tc : Thread nD τ).loc main_arg0) := by
  dsimp only [V6, W6, opsB]
  after_results
  exact W2_arg m d (by decide) (by decide)

theorem V6_arg1 (d : Dev nD) : V6 m d main_arg1 = m ((d.tc : Thread nD τ).loc main_arg1) := by
  dsimp only [V6, W6, opsB]
  after_results
  exact W2_arg m d (by decide) (by decide)

theorem V6_arg2 (d : Dev nD) : V6 m d main_arg2 = m ((d.tc : Thread nD τ).loc main_arg2) := by
  dsimp only [V6, W6, opsB]
  after_results
  exact W2_arg m d (by decide) (by decide)

theorem V6_arg3 (d : Dev nD) : V6 m d main_arg3 = m ((d.tc : Thread nD τ).loc main_arg3) := by
  dsimp only [V6, W6, opsB]
  after_results
  exact W2_arg m d (by decide) (by decide)

/-- The gathered rows, as the gather left them. -/
theorem V6_v1 (d : Dev nD) : V6 m d main_v1 = gath (fi m) (fx m) d := by
  dsimp only [V6, W6, opsB]
  after_results
  exact Function.update_self _ _ _

/-- The weights: reshaped into ten slabs, then changed to the matmul's format. -/
theorem V6_v3 (d : Dev nD) :
    V6 m d main_v3
      = (truncf .bf16 (shapeCast S10x1000x128 (m ((d.tc : Thread nD τ).loc main_arg2)) shapeCasts_S10000x128_S10x1000x128)
          bitsLt_bf16_f32 : FVec F S10x1000x128 .bf16) := by
  dsimp only [V6, W6, opsB]
  after_results
  rw [W2_arg m d (by decide) (by decide)]
  rfl

/-- The bias: reshaped to [10,1000], then transposed into columns. -/
theorem V6_v5 (d : Dev nD) :
    V6 m d main_v5
      = (transpose S1000x10 [1, 0] (shapeCast S10x1000 (m ((d.tc : Thread nD τ).loc main_arg3)) shapeCasts_S10000_S10x1000)
          transposes_S10x1000_S1000x10_1_0 : FVec F S1000x10 .f32) := by
  dsimp only [V6, W6, opsB]
  after_results
  rw [W2_arg m d (by decide) (by decide)]
  rfl

/-! ## What the gather is entered with, and the program's result -/

/-- The index array as the gather finds it: the argument reshaped to one row. -/
theorem fi_eq (d : Dev nD) :
    fi m d = (shapeCast S1x4096 (m ((d.tc : Thread nD τ).loc main_arg0)) shapeCasts_S4096_S1x4096 : IVec S1x4096 32) := by
  unfold fi W1 opA
  rw [StableHlo.reshape_result]
  rfl

/-- The table as the gather finds it: the argument. -/
theorem fx_eq (d : Dev nD) : fx m d = m ((d.tc : Thread nD τ).loc main_arg1) :=
  (W1_of_ne m d (by decide)).trans (W0_apply m d main_arg1)

/-- The program's result: the dense stage's output array, transposed (2,0,1). -/
theorem res_eq (d : Dev nD) :
    res m d = (transpose S4096x10x1000 [2, 0, 1] (out6 m d) transposes_S10x1000x4096_S4096x10x1000_2_0_1 :
      FVec F S4096x10x1000 .f32) := by
  unfold res W8 opZ
  rw [StableHlo.unary_result]
  unfold W7
  rw [Function.update_self]

/-! ## The precondition, at the gather -/

/-- Under the precondition every word of the one-row index array, read as a natural number, names a row of the
    table. -/
theorem preOK_of_pre
    (h : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) = (fun _ => 1#1)) :
    PreOK (fi m) := by
  intro d j
  rw [fi_eq]
  unfold shapeCast
  exact Cert.Spec.PreFacts.index_lt _ _ _ _ (h d) _

end Cert.KernelIdeal.Hand

end
-- ==== Proof.KI.Run.lean ====
/-
  The program's run, read at the memory: from any launch memory with zero counters of which the gather's
  precondition holds, every weakly fair execution of the whole family of threads terminates, and the final memory
  has the result array at the value the host side's valuations name and the four argument arrays as launched.
  What each TensorCore ends holding is five whole buffers; held beside the state interpretation, each is what the
  physical memory has at its location.
-/
import proofs.«218874_g56547539419890_cont_9to1c4b_400_22_alg».proof.Proof.KI.Main
import proofs.«218874_g56547539419890_cont_9to1c4b_400_22_alg».proof.Proof.KI.ScTile
import proofs.«218874_g56547539419890_cont_9to1c4b_400_22_alg».proof.Proof.KI.HostVals

noncomputable section

namespace Cert.KernelIdeal.Hand

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-- What a final physical state has on device `d`: the result at its value, the four arguments as launched. -/
def fq (d : Dev nD) (s' : Phys nD τ sig (Elt F)) : Prop :=
  s'.mem.mem ((d.tc : Thread nD τ).loc main_v7) = res m d
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)

set_option maxRecDepth 16384 in
/-- The five whole buffers a TensorCore ends holding agree with the physical memory, each at its location; the
    arguments' contents, which no host operation writes, are the launch memory's. -/
theorem hfin (d : Dev nD) (s' : Phys nD τ sig (Elt F)) : iprop(FIN m d ∗ SI s') ⊢ (⌜fq m d s'⌝ : sProp 𝕄) := by
  unfold FIN
  rw [V6_arg0, V6_arg1, V6_arg2, V6_arg3]
  iintro ⟨⟨H0, H1, H2, H3, H7⟩, HSI⟩
  ihave H := (persistent_entails_right (SI_pointsTo_agree (st := s') (ℓ := ((d.tc : Thread nD τ).loc main_arg0)) (I := Finset.univ) (q := fullShare) (f := m ((d.tc : Thread nD τ).loc main_arg0)))) $$ [HSI H0]
  · isplitl [HSI] <;> iassumption
  icases H with ⟨%h0, HSI, -⟩
  ihave H := (persistent_entails_right (SI_pointsTo_agree (st := s') (ℓ := ((d.tc : Thread nD τ).loc main_arg1)) (I := Finset.univ) (q := fullShare) (f := m ((d.tc : Thread nD τ).loc main_arg1)))) $$ [HSI H1]
  · isplitl [HSI] <;> iassumption
  icases H with ⟨%h1, HSI, -⟩
  ihave H := (persistent_entails_right (SI_pointsTo_agree (st := s') (ℓ := ((d.tc : Thread nD τ).loc main_arg2)) (I := Finset.univ) (q := fullShare) (f := m ((d.tc : Thread nD τ).loc main_arg2)))) $$ [HSI H2]
  · isplitl [HSI] <;> iassumption
  icases H with ⟨%h2, HSI, -⟩
  ihave H := (persistent_entails_right (SI_pointsTo_agree (st := s') (ℓ := ((d.tc : Thread nD τ).loc main_arg3)) (I := Finset.univ) (q := fullShare) (f := m ((d.tc : Thread nD τ).loc main_arg3)))) $$ [HSI H3]
  · isplitl [HSI] <;> iassumption
  icases H with ⟨%h3, HSI, -⟩
  ihave H := (SI_pointsTo_agree (st := s') (ℓ := ((d.tc : Thread nD τ).loc main_v7)) (I := Finset.univ) (q := fullShare) (f := res m d)) $$ [HSI H7]
  · isplitl [HSI] <;> iassumption
  icases H with %h7
  ipureintro
  exact ⟨funext fun i => h7 i (Finset.mem_univ i), funext fun i => h0 i (Finset.mem_univ i),
    funext fun i => h1 i (Finset.mem_univ i), funext fun i => h2 i (Finset.mem_univ i),
    funext fun i => h3 i (Finset.mem_univ i)⟩

/-! ## The program's run -/

/-- What the run ends in, on every device: the result at its value, the four arguments as launched. -/
def QC : PUnit × MemSt nD τ sig (Elt F) → Prop := fun r => ∀ c : Dev nD,
  r.2.mem ((c.tc : Thread nD τ).loc main_v7) = res m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- The run of the whole family of threads, by the launch theorem: the tile obligation and the splits of the gather,
    the launch element, @main on each TensorCore, and the reading of what each TensorCore ends holding. -/
theorem run_main [∀ e, Nonempty (Elt F e)] (hpre : PreOK (fi m)) :
    θ_run (defs (F := F)) (threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (fi m) (fx m) (fo m) facts hpre)
    (fun q _ => match q with | 0 => SparseCore.Cfg.VecSplit.of_plain (vecSplit (fi m) (fx m) (fo m)))
    m ρ main (GG (F := F)) (FIN m) (u₀ (F := F)) (sep_elim_left.trans (hu₀ (PP m) (fun _ _ => rfl))) (hmain m ρ) (fq m) (hfin m)
    (QC m) (fun _ h => h)

end Cert.KernelIdeal.Hand

end
-- ==== Proof.KB.Common.lean ====
/-
  What the two printed programs' proofs share: the program as the SparseCore launch theorem reads it (the call
  configuration, the body table under it, the variants), the resource algebra — the handshakes' rounds, the TensorCore
  pipeline's staging cells' rounds, and the transfers' counters side by side — with the three embeddings into the
  machine's algebra, and names for the three HBM arrays the SparseCore call touches.
  Stated over the Kernel printing; generic in the float instance.
-/
import proofs.«218874_g56547539419890_cont_9to1c4b_400_22_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«218874_g56547539419890_cont_9to1c4b_400_22_alg».proof.Proof.Gen.Kernel
import proofs.«218874_g56547539419890_cont_9to1c4b_400_22_alg».proof.Proof.Gen.Kernel.Skeleton
import proofs.«218874_g56547539419890_cont_9to1c4b_400_22_alg».proof.Proof.Gen.Kernel.Launch
import proofs.«218874_g56547539419890_cont_9to1c4b_400_22_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The certificate's label signature under the SparseCore layer: the kernels' labels and the one pipeline's. -/
abbrev ΛP : Labels := Pipeline.Sig Λ₀ (Fin 1) fun p => (pcfgs (F := F) p).Adm
/-- The SparseCore calls of @main. -/
abbrev K : SparseCore.Cfg τ sig (ΛP (F := F)) 1 := sc (F := F)
theorem nCore_zero : (K (F := F)).nCore 0 = 2 := rfl
theorem nSub_zero : (K (F := F)).nSub 0 = 16 := rfl
/-- The body table under the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UP : Type := URounds (GSem nD τ sig) Unit
/-- Handshakes, staging cells, transfer counters. -/
abbrev UU : Type := UH × (UP × Counters)

/-- The machine's algebra at this program. -/
abbrev MM (F : FTy → Type) : Type := MT nD τ sig (HIx 1) (Elt F) ℕ UU ℕ

abbrev EH : Emb UH (MM F) := embL
abbrev ER : Emb (UP × Counters) (MM F) := embR
abbrev EP : Emb UP (MM F) := (Emb.inl : Emb UP (UP × Counters)).trans (ER (F := F))

instance EP_landsIn : (EP (F := F)).LandsIn (upEmb : UEmb _ (MM F)) := by unfold EP ER; infer_instance

/-! ## The arrays of the SparseCore call -/

/-- The index array, reshaped to one row (main_v0); the table (main_arg1); the gathered rows (main_v1). -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

end Cert.Kernel.Hand

end
-- ==== Proof.KB.Ghost.lean ====
/-
  The launch element of the ghost state: the handshakes' rounds at their launch cells and tokens, the TensorCore
  pipeline's staging cells' rounds at theirs, and the transfer counters at their unit. From it the launch deals the
  handshake cells' state to the SparseCore launch theorem and, to each device's TensorCore, the staging cells' ghost
  state and duty tokens its one pipelined region is entered with.
-/
import proofs.«218874_g56547539419890_cont_9to1c4b_400_22_alg».proof.Proof.KB.Common

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- The launch element: handshakes, staging cells, counters. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch deals device `d`'s TensorCore besides the handshakes: the staging cells' ghost state and the duty
    tokens of the one pipelined region. -/
def GG (d : Dev nD) : sProp 𝕄 :=
  iprop(Pipeline.cellsGhost (nD := nD) (τ := τ) cfgs (EP (F := F)) 0 d ∗ Pipeline.toksInit (nD := nD) (τ := τ) cfgs (EP (F := F)) 0 d)

theorem bigSep_emp' {I : Type} (s : Finset I) : (bigSep s fun _ => iprop(emp)) = (iprop(emp) : sProp 𝕄) := bigSep_emp_const s

/-- The launch element splits into the handshakes' element and, funded, each device's staging ghost state; a
    payload record that asks nothing at the launch (`x = emp`) is served by `emp`. -/
theorem hu₀ (P : (K (F := F)).Pay (nD := nD) (Val := Elt F) (Name := ℕ) (U := UU)) (hx : ∀ q thr, P.x q thr = iprop(emp)) :
    (ownU (u₀ (F := F)) : sProp 𝕄)
    ⊢ |={Set.univ}=> iprop(BI.own (EH (F := F) (initOf (K (F := F)).hsCells (K (F := F)).hsToks)) ∗ (bigSep Finset.univ fun d : Dev nD => GG (F := F) d)
        ∗ bigSep Finset.univ fun thr : Thread nD τ => bigSep Finset.univ fun q : Fin 1 => P.x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HR⟩
  ihave HR' := (own_pair_emb (ER (F := F)) (initOf (Pipeline.cells (nD := nD) (τ := τ) cfgs cellOf_inj) (Pipeline.launchToks (nD := nD) (τ := τ) cfgs cellOf_inj)) (1 : Counters)) $$ HR
  icases HR' with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold GG
    rw [bigSep_sep']
    isplitl [Hg]
    · iapply (Entails.of_eq (bigSep_congr fun d _ => (bigSep_univ_of_subsingleton (0 : Fin 1) (Φ := fun p => Pipeline.cellsGhost (nD := nD) (τ := τ) cfgs (EP (F := F)) p d)))); iexact Hg
    · iapply (Entails.of_eq (bigSep_congr fun d _ => (bigSep_univ_of_subsingleton (0 : Fin 1) (Φ := fun p => Pipeline.toksInit (nD := nD) (τ := τ) cfgs (EP (F := F)) p d)))); iexact Ht
  rw [show (bigSep Finset.univ fun thr : Thread nD τ => bigSep Finset.univ fun q : Fin 1 => P.x q thr) = bigSep Finset.univ fun _ => iprop(emp) from
    bigSep_congr fun thr _ => (bigSep_univ_of_subsingleton (0 : Fin 1)).trans (hx 0 thr), bigSep_emp']
  iempintro

end Cert.Kernel.Hand

end
-- ==== Proof.KB.ScPay.lean ====
/-
  The SparseCore call's payload: the parts of the index array, of the table and of the output array that each
  SparseCore and each of its vector subcores is handed and hands back, and the one whole-array function the output
  array holds once the call has ended. Generic in the float instance; the contents of the three arrays at the call
  are parameters.
-/
import proofs.«218874_g56547539419890_cont_9to1c4b_400_22_alg».proof.Proof.KB.Common
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F

/-! ## Shares of the table: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s half of the table's full share, and the sixteenth of it that is vector subcore `i`'s. -/
abbrev xqC (c : Fin 2) : PosShare TreeShare := leaf 1 fullShare c
abbrev xq (c : Fin 2) (i : Fin 16) : PosShare TreeShare := leaf 4 (xqC c) i

/-! ## The columns of the index array and the rows of the output array, by SparseCore and vector subcore

Vector subcore `i` of SparseCore `c` works on the 128 batch elements from `128 i + 2048 c` on: those columns of the
one-row index array, those rows of the output array. -/

theorem icol_inb (c : Fin 2) (i : Fin 16) : ∀ a, (![0, 128 * i.val + 2048 * c.val] : Fin 2 → ℕ) a + S1x128.size a ≤ S1x4096.size a := by
  intro a
  have hc := c.isLt; have hi := i.isLt
  match a with
  | 0 => show 0 + 1 ≤ 1; omega
  | 1 => show 128 * i.val + 2048 * c.val + 128 ≤ 4096; omega
theorem orow_inb (c : Fin 2) (i : Fin 16) : ∀ a, (![128 * i.val + 2048 * c.val, 0] : Fin 2 → ℕ) a + S128x128.size a ≤ S4096x128.size a := by
  intro a
  have hc := c.isLt; have hi := i.isLt
  match a with
  | 0 => show 128 * i.val + 2048 * c.val + 128 ≤ 4096; omega
  | 1 => show 0 + 128 ≤ 128; omega

abbrev icolR (c : Fin 2) (i : Fin 16) : Rect S1x4096 := Rect.unit (s := S1x4096) ![0, 128 * i.val + 2048 * c.val] S1x128.size (icol_inb c i)
abbrev orowR (c : Fin 2) (i : Fin 16) : Rect S4096x128 := Rect.unit (s := S4096x128) ![128 * i.val + 2048 * c.val, 0] S128x128.size (orow_inb c i)

/-- The index columns and the output rows of one vector subcore, and of one SparseCore (its sixteen subcores'). -/
def iTileSet (c : Fin 2) (i : Fin 16) : Finset S1x4096.Idx := (icolR c i).set
def oTileSet (c : Fin 2) (i : Fin 16) : Finset S4096x128.Idx := (orowR c i).set
def iCoreSet (c : Fin 2) : Finset S1x4096.Idx := (Finset.univ : Finset (Fin 16)).biUnion (iTileSet c)
def oCoreSet (c : Fin 2) : Finset S4096x128.Idx := (Finset.univ : Finset (Fin 16)).biUnion (oTileSet c)

/-! ## The contents at the call, and what the call leaves -/

variable (fi : (d : Dev nD) → Buf (Elt F) (iLoc d)) (fx : (d : Dev nD) → Buf (Elt F) (xLoc d)) (fo : (d : Dev nD) → Buf (Elt F) (oLoc d))

/-- What the proof asks of the index array at the call: every word names a row of the table. -/
def PreOK : Prop := ∀ (d : Dev nD) (j : S1x4096.Idx), (fi d j).toNat < 1000

/-- The table row that batch element `r` selects: the index word read as a natural number, reduced mod 1000 (total;
    the word itself when it is below 1000). -/
def gRow (d : Dev nD) (r : Fin 4096) : Fin 1000 := ⟨(fi d (ix2 (0 : Fin 1) r)).toNat % 1000, Nat.mod_lt _ (by decide)⟩

/-- The gathered rows, as ONE function on the whole output array: row `r`, column `k` is the table at the row the
    `r`-th index word selects, column `k`. -/
def gath (d : Dev nD) : Buf (Elt F) (oLoc d) := fun (j : S4096x128.Idx) => fx d (ix2 (gRow fi d (j 0)) (j 1))

theorem gath_apply (d : Dev nD) (r : Fin 4096) (k : Fin 128) : gath fi fx d (ix2 r k) = fx d (ix2 (gRow fi d r) k) := rfl

theorem gRow_val (d : Dev nD) (r : Fin 4096) : (gRow fi d r).val = (fi d (ix2 (0 : Fin 1) r)).toNat % 1000 := rfl

theorem gRow_val_of_pre (hpre : PreOK fi) (d : Dev nD) (r : Fin 4096) : (gRow fi d r).val = (fi d (ix2 (0 : Fin 1) r)).toNat := by
  rw [gRow_val, Nat.mod_eq_of_lt (hpre d _)]

/-! ## What the handshakes carry -/

abbrev iCorePts (d : Dev nD) (c : Fin 2) : sProp 𝕄 := iLoc d ↦[iCoreSet c]{fullShare} fi d
abbrev xCorePts (d : Dev nD) (c : Fin 2) : sProp 𝕄 := xLoc d ↦{xqC c} fx d
abbrev oCorePts (d : Dev nD) (c : Fin 2) (f : Buf (Elt F) (oLoc d)) : sProp 𝕄 := oLoc d ↦[oCoreSet c]{fullShare} f
abbrev iTilePts (d : Dev nD) (c : Fin 2) (i : Fin 16) : sProp 𝕄 := iLoc d ↦[iTileSet c i]{fullShare} fi d
abbrev xTilePts (d : Dev nD) (c : Fin 2) (i : Fin 16) : sProp 𝕄 := xLoc d ↦{xq c i} fx d
abbrev oTilePts (d : Dev nD) (c : Fin 2) (i : Fin 16) (f : Buf (Elt F) (oLoc d)) : sProp 𝕄 := oLoc d ↦[oTileSet c i]{fullShare} f

/-- The one call: each SparseCore takes its 2048 index columns, a half share of the table and its 2048 output rows;
    each vector subcore its 128 columns, its share of the table and its 128 rows; they come back with the output rows
    holding the gathered rows. -/
def P : (K (F := F)).Pay (nD := nD) (Val := Elt F) (Name := ℕ) (U := UU) where
  st := fun q d c => match q with
    | 0 => iprop(iCorePts fi d (Fin.cast nCore_zero c) ∗ xCorePts fx d (Fin.cast nCore_zero c) ∗ oCorePts d (Fin.cast nCore_zero c) (fo d))
  dn := fun q d c => match q with
    | 0 => iprop(iCorePts fi d (Fin.cast nCore_zero c) ∗ xCorePts fx d (Fin.cast nCore_zero c) ∗ oCorePts d (Fin.cast nCore_zero c) (gath fi fx d))
  go := fun q d c i => match q with
    | 0 => iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (fo d))
  td := fun q d c i => match q with
    | 0 => iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (gath fi fx d))
  x := fun _ _ => iprop(emp)

instance P_storable : (P (F := F) fi fx fo).IsStorable where
  st q d c := match q with
    | 0 => (inferInstance : BI.Storable (upEmb : UEmb _ 𝕄)
      iprop(iCorePts fi d (Fin.cast nCore_zero c) ∗ xCorePts fx d (Fin.cast nCore_zero c) ∗ oCorePts d (Fin.cast nCore_zero c) (fo d)))
  dn q d c := match q with
    | 0 => (inferInstance : BI.Storable (upEmb : UEmb _ 𝕄)
      iprop(iCorePts fi d (Fin.cast nCore_zero c) ∗ xCorePts fx d (Fin.cast nCore_zero c) ∗ oCorePts d (Fin.cast nCore_zero c) (gath fi fx d)))
  go q d c i := match q with
    | 0 => (inferInstance : BI.Storable (upEmb : UEmb _ 𝕄)
      iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (fo d)))
  td q d c i := match q with
    | 0 => (inferInstance : BI.Storable (upEmb : UEmb _ 𝕄)
      iprop(iTilePts fi d (Fin.cast nCore_zero c) (Fin.cast nSub_zero i) ∗ xTilePts fx d (Fin.cast nCore_zero c) (Fin.cast nSub_zero i)
        ∗ oTilePts d (Fin.cast nCore_zero c) (Fin.cast nSub_zero i) (gath fi fx d)))

end Cert.Kernel.Hand

end
-- ==== Proof.KB.TcDat.lean ====
/-
  The TensorCore call of @main as a region, first half: its proof data, at ANY contents `V` of the core's buffers
  when the region is entered.

  The call walks 16 grid points. At point `t` the body is handed three input blocks — rows `256 t … 256 t + 255`
  of the gathered embeddings (window 0), the whole weight array (window 1) and the whole bias array (window 2) —
  and writes the block of the output (window 3) made of columns `256 t … 256 t + 255`. It stores that block as ten
  slabs along the leading axis, slab `p` a function of the embeddings block, slab `p` of the weights and column `p`
  of the biases. What the staging buffer of window 3 holds after the body is therefore the ten payloads laid side
  by side (`out1_3`); they tile the block, so every index is covered (`cover1_3`). The input windows are left as found.
  Generic in the float instance.
-/
import proofs.«218874_g56547539419890_cont_9to1c4b_400_22_alg».proof.Proof.KB.Common
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

-- the TensorCore's buffer contents when the region is entered: a parameter, which the run of @main instantiates
variable (V : (c : Dev nD) → (b : Ref sig .tc) → Buf (Elt F) ((c.tc : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move between two points is not fetched again and still holds the same block), for any proof
    data whose array is `V`'s and whose body leaves the block in place. Windows 0, 1, 2. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- the whole embeddings block; slab `p` of the weights; column `p` of the biases; slab `p` of the output block
abbrev rX : Rect S256x128 := Rect.unit (s := S256x128) ![0, 0] S256x128.size Gen.inb_S256x128_S256x128_0_0
abbrev rW0 : Rect S10x1000x128 := Rect.unit (s := S10x1000x128) ![0, 0, 0] S1x1000x128.size Gen.inb_S10x1000x128_S1x1000x128_0_0_0
abbrev rW1 : Rect S10x1000x128 := Rect.unit (s := S10x1000x128) ![1, 0, 0] S1x1000x128.size Gen.inb_S10x1000x128_S1x1000x128_1_0_0
abbrev rW2 : Rect S10x1000x128 := Rect.unit (s := S10x1000x128) ![2, 0, 0] S1x1000x128.size Gen.inb_S10x1000x128_S1x1000x128_2_0_0
abbrev rW3 : Rect S10x1000x128 := Rect.unit (s := S10x1000x128) ![3, 0, 0] S1x1000x128.size Gen.inb_S10x1000x128_S1x1000x128_3_0_0
abbrev rW4 : Rect S10x1000x128 := Rect.unit (s := S10x1000x128) ![4, 0, 0] S1x1000x128.size Gen.inb_S10x1000x128_S1x1000x128_4_0_0
abbrev rW5 : Rect S10x1000x128 := Rect.unit (s := S10x1000x128) ![5, 0, 0] S1x1000x128.size Gen.inb_S10x1000x128_S1x1000x128_5_0_0
abbrev rW6 : Rect S10x1000x128 := Rect.unit (s := S10x1000x128) ![6, 0, 0] S1x1000x128.size Gen.inb_S10x1000x128_S1x1000x128_6_0_0
abbrev rW7 : Rect S10x1000x128 := Rect.unit (s := S10x1000x128) ![7, 0, 0] S1x1000x128.size Gen.inb_S10x1000x128_S1x1000x128_7_0_0
abbrev rW8 : Rect S10x1000x128 := Rect.unit (s := S10x1000x128) ![8, 0, 0] S1x1000x128.size Gen.inb_S10x1000x128_S1x1000x128_8_0_0
abbrev rW9 : Rect S10x1000x128 := Rect.unit (s := S10x1000x128) ![9, 0, 0] S1x1000x128.size Gen.inb_S10x1000x128_S1x1000x128_9_0_0
abbrev rB0 : Rect S1000x10 := Rect.unit (s := S1000x10) ![0, 0] S1000x1.size Gen.inb_S1000x10_S1000x1_0_0
abbrev rB1 : Rect S1000x10 := Rect.unit (s := S1000x10) ![0, 1] S1000x1.size Gen.inb_S1000x10_S1000x1_0_1
abbrev rB2 : Rect S1000x10 := Rect.unit (s := S1000x10) ![0, 2] S1000x1.size Gen.inb_S1000x10_S1000x1_0_2
abbrev rB3 : Rect S1000x10 := Rect.unit (s := S1000x10) ![0, 3] S1000x1.size Gen.inb_S1000x10_S1000x1_0_3
abbrev rB4 : Rect S1000x10 := Rect.unit (s := S1000x10) ![0, 4] S1000x1.size Gen.inb_S1000x10_S1000x1_0_4
abbrev rB5 : Rect S1000x10 := Rect.unit (s := S1000x10) ![0, 5] S1000x1.size Gen.inb_S1000x10_S1000x1_0_5
abbrev rB6 : Rect S1000x10 := Rect.unit (s := S1000x10) ![0, 6] S1000x1.size Gen.inb_S1000x10_S1000x1_0_6
abbrev rB7 : Rect S1000x10 := Rect.unit (s := S1000x10) ![0, 7] S1000x1.size Gen.inb_S1000x10_S1000x1_0_7
abbrev rB8 : Rect S1000x10 := Rect.unit (s := S1000x10) ![0, 8] S1000x1.size Gen.inb_S1000x10_S1000x1_0_8
abbrev rB9 : Rect S1000x10 := Rect.unit (s := S1000x10) ![0, 9] S1000x1.size Gen.inb_S1000x10_S1000x1_0_9
abbrev rO0 : Rect S10x1000x256 := Rect.unit (s := S10x1000x256) ![0, 0, 0] S1x1000x256.size Gen.inb_S10x1000x256_S1x1000x256_0_0_0
abbrev rO1 : Rect S10x1000x256 := Rect.unit (s := S10x1000x256) ![1, 0, 0] S1x1000x256.size Gen.inb_S10x1000x256_S1x1000x256_1_0_0
abbrev rO2 : Rect S10x1000x256 := Rect.unit (s := S10x1000x256) ![2, 0, 0] S1x1000x256.size Gen.inb_S10x1000x256_S1x1000x256_2_0_0
abbrev rO3 : Rect S10x1000x256 := Rect.unit (s := S10x1000x256) ![3, 0, 0] S1x1000x256.size Gen.inb_S10x1000x256_S1x1000x256_3_0_0
abbrev rO4 : Rect S10x1000x256 := Rect.unit (s := S10x1000x256) ![4, 0, 0] S1x1000x256.size Gen.inb_S10x1000x256_S1x1000x256_4_0_0
abbrev rO5 : Rect S10x1000x256 := Rect.unit (s := S10x1000x256) ![5, 0, 0] S1x1000x256.size Gen.inb_S10x1000x256_S1x1000x256_5_0_0
abbrev rO6 : Rect S10x1000x256 := Rect.unit (s := S10x1000x256) ![6, 0, 0] S1x1000x256.size Gen.inb_S10x1000x256_S1x1000x256_6_0_0
abbrev rO7 : Rect S10x1000x256 := Rect.unit (s := S10x1000x256) ![7, 0, 0] S1x1000x256.size Gen.inb_S10x1000x256_S1x1000x256_7_0_0
abbrev rO8 : Rect S10x1000x256 := Rect.unit (s := S10x1000x256) ![8, 0, 0] S1x1000x256.size Gen.inb_S10x1000x256_S1x1000x256_8_0_0
abbrev rO9 : Rect S10x1000x256 := Rect.unit (s := S10x1000x256) ![9, 0, 0] S1x1000x256.size Gen.inb_S10x1000x256_S1x1000x256_9_0_0

/-! ## What the body leaves in the output window's buffer -/

/-- Window 3's staging buffer after the body, from the input windows' blocks: its ten stores as pieces, LAST FIRST.
    Slab `p` is the normalised exponentials of `weights[p] · embeddingsᵀ + bias[:, p]` along the 1000 rows. -/
def out1_3 (x0 : Vec F S256x128 .f32) (x1 : Vec F S10x1000x128 .bf16) (x2 : Vec F S1000x10 .f32) : Vec F S10x1000x256 .f32 :=
  View.canon [
    ⟨rO9, k1_pay13 (k1_pay1 (View.ld x0 rX)) (View.ld x1 rW9) (View.ld x2 rB9)⟩,
    ⟨rO8, k1_pay12 (k1_pay1 (View.ld x0 rX)) (View.ld x1 rW8) (View.ld x2 rB8)⟩,
    ⟨rO7, k1_pay11 (k1_pay1 (View.ld x0 rX)) (View.ld x1 rW7) (View.ld x2 rB7)⟩,
    ⟨rO6, k1_pay10 (k1_pay1 (View.ld x0 rX)) (View.ld x1 rW6) (View.ld x2 rB6)⟩,
    ⟨rO5, k1_pay9 (k1_pay1 (View.ld x0 rX)) (View.ld x1 rW5) (View.ld x2 rB5)⟩,
    ⟨rO4, k1_pay8 (k1_pay1 (View.ld x0 rX)) (View.ld x1 rW4) (View.ld x2 rB4)⟩,
    ⟨rO3, k1_pay7 (k1_pay6 (k1_pay1 (View.ld x0 rX)) (View.ld x1 rW3) (View.ld x2 rB3))⟩,
    ⟨rO2, k1_pay5 (k1_pay1 (View.ld x0 rX)) (View.ld x1 rW2) (View.ld x2 rB2)⟩,
    ⟨rO1, k1_pay4 (k1_pay3 (View.ld x0 rX) (View.ld x1 rW1) (View.ld x2 rB1))⟩,
    ⟨rO0, k1_pay2 (View.ld x0 rX) (View.ld x1 rW0) (View.ld x2 rB0)⟩]

/-- The ten slabs tile the block, so they cover it. -/
theorem cover1_3 (p0 : Vec F S1x1000x256 .f32) (p1 : Vec F S1x1000x256 .f32) (p2 : Vec F S1x1000x256 .f32) (p3 : Vec F S1x1000x256 .f32) (p4 : Vec F S1x1000x256 .f32) (p5 : Vec F S1x1000x256 .f32) (p6 : Vec F S1x1000x256 .f32) (p7 : Vec F S1x1000x256 .f32) (p8 : Vec F S1x1000x256 .f32) (p9 : Vec F S1x1000x256 .f32) (y : S10x1000x256.Idx) :
    ∃ pc ∈ ([⟨rO9, p0⟩, ⟨rO8, p1⟩, ⟨rO7, p2⟩, ⟨rO6, p3⟩, ⟨rO5, p4⟩, ⟨rO4, p5⟩, ⟨rO3, p6⟩, ⟨rO2, p7⟩, ⟨rO1, p8⟩, ⟨rO0, p9⟩] : List (View.Piece (Elt F) S10x1000x256 .f32)), y ∈ pc.1.set :=
  View.cover_of_tiled [⟨rO9, p0⟩, ⟨rO8, p1⟩, ⟨rO7, p2⟩, ⟨rO6, p3⟩, ⟨rO5, p4⟩, ⟨rO4, p5⟩, ⟨rO3, p6⟩, ⟨rO2, p7⟩, ⟨rO1, p8⟩, ⟨rO0, p9⟩] S1x1000x256.size (by rfl) y

/-! ## The pipeline's proof data -/

/-- The proof data of the pipeline on core `c`: the arrays as the region finds them (`V`); after the body at point `t`
    each input's buffer at its block and the output's at `out1_3` of the input blocks; the invariant is the scoped
    buffers no window stages, untouched (the body uses nothing else); nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.scopedRest (Ix := HIx 1) (Name := ℕ) (U := UU) (Lvl := ℕ) (Val := Elt F) spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The proof data family -/

/-- The prefetched tables' admissible contents: the pipeline has no table. -/
abbrev adm : (p : Fin 1) → (pcfgs (F := F) p).Adm := fun p => (cfgs p).toPCfg_adm

/-- Every pipeline's proof data (there is one), at the region's entry contents — a literal match, so that the
    configuration pinned at the numeral reduces to the printed one. -/
def pdats : (p : Fin 1) → (c : Dev nD) → Dat τ (Elt F) (HIx 1) ℕ UU ℕ (Pipeline.pin (pcfgs (F := F)) adm p) c
  | ⟨0, _⟩ => fun c => dat1 V c

end Cert.Kernel.Hand

end
-- ==== Proof.KB.Host.lean ====
/-
  @main's host side, as values: the buffer contents of a device's TensorCore after each stretch of @main, as
  valuations of its buffers. From the launch memory: the reshape of the index array; then the SparseCore call, which
  leaves the gathered rows; then the four host operations that prepare the weights and the biases; then the
  TensorCore call, which leaves its output array; then the final transposition.
-/
import proofs.«218874_g56547539419890_cont_9to1c4b_400_22_alg».proof.Proof.KB.ScPay
import proofs.«218874_g56547539419890_cont_9to1c4b_400_22_alg».proof.Proof.KB.TcDat
import Idealize.ShloMosaic.Lib.Pipeline.Frame

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The launch contents of device `d`'s buffers. -/
def W0 (d : Dev nD) : Valuation τ sig (Elt F) := fun b => m (d, b)

/-- The reshape of the index array to one row. -/
def opA : HloOp τ sig (Elt F) := StableHlo.reshape main_arg0 main_v0 rfl shapeCasts_S4096_S1x4096

/-- After it. -/
def W1 (d : Dev nD) : Valuation τ sig (Elt F) := (opA (F := F)).result (W0 m d)

/-- The three arrays of the SparseCore call, as it finds them. -/
def fi (d : Dev nD) : Buf (Elt F) (iLoc d) := W1 m d (Proc.devRef .tc main_v0)
def fx (d : Dev nD) : Buf (Elt F) (xLoc d) := W1 m d (Proc.devRef .tc main_arg1)
def fo (d : Dev nD) : Buf (Elt F) (oLoc d) := W1 m d (Proc.devRef .tc main_v1)

/-- After the SparseCore call: the output array at the gathered rows, everything else as it was. -/
def W2 (d : Dev nD) : Valuation τ sig (Elt F) :=
  Function.update (W1 m d) (Proc.devRef .tc main_v1) (gath (fi m) (fx m) d)

/-- The host operations between the two calls: the weights reshaped and rounded, the biases reshaped and transposed. -/
def opsB : List (HloOp τ sig (Elt F)) :=
  [StableHlo.reshape main_arg2 main_v2 rfl shapeCasts_S10000x128_S10x1000x128,
   StableHlo.unary main_v2 main_v3 ((truncf .bf16 · bitsLt_bf16_f32) : (⟨S10x1000x128, .f32⟩ : BufTy).Contents (Elt F) → (⟨S10x1000x128, .bf16⟩ : BufTy).Contents (Elt F)),
   StableHlo.reshape main_arg3 main_v4 rfl shapeCasts_S10000_S10x1000,
   StableHlo.unary main_v4 main_v5 ((transpose S1000x10 [1, 0] · transposes_S10x1000_S1000x10_1_0) : (⟨S10x1000, .f32⟩ : BufTy).Contents (Elt F) → (⟨S1000x10, .f32⟩ : BufTy).Contents (Elt F))]

/-- After them. -/
def W6 (d : Dev nD) : Valuation τ sig (Elt F) := StableHlo.after (opsB (F := F)) (W2 m d)

/-- The same, as the TensorCore's references index it: what the TensorCore call is entered with. -/
def V6 : (c : Dev nD) → (b : Ref sig .tc) → Buf (Elt F) ((c.tc : Thread nD τ).loc b) := fun c b => W6 m c (Proc.devRef .tc b)

/-- What the TensorCore call leaves in its output array. -/
def out6 (d : Dev nD) : Buf (Elt F) ((d.tc : Thread nD τ).loc main_v6) := (pdats (V6 m) 0 d).arrAt 3 16

/-- After the TensorCore call. -/
def W7 (d : Dev nD) : Valuation τ sig (Elt F) := Function.update (W6 m d) (Proc.devRef .tc main_v6) (out6 m d)

/-- The final transposition. -/
def opZ : HloOp τ sig (Elt F) :=
  StableHlo.unary main_v6 main_v7 ((transpose S4096x10x1000 [2, 0, 1] · transposes_S10x1000x4096_S4096x10x1000_2_0_1) : (⟨S10x1000x4096, .f32⟩ : BufTy).Contents (Elt F) → (⟨S4096x10x1000, .f32⟩ : BufTy).Contents (Elt F))

/-- After it: the end of @main. -/
def W8 (d : Dev nD) : Valuation τ sig (Elt F) := (opZ (F := F)).result (W7 m d)

/-- The program's result on device `d`. -/
def res (d : Dev nD) : Buf (Elt F) ((d.tc : Thread nD τ).loc main_v7) := W8 m d (Proc.devRef .tc main_v7)

end Cert.Kernel.Hand

end
-- ==== Proof.KB.HostFacts.lean ====
/-
  Facts about @main's host side that its proof on the TensorCore uses: the three arrays of the SparseCore call taken
  out of, and put back among, the TensorCore's unscoped buffers; and what the valuations hold at the arguments (their
  launch contents, throughout) and at the arrays the two calls read.
-/
import proofs.«218874_g56547539419890_cont_9to1c4b_400_22_alg».proof.Proof.KB.Host

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The unscoped buffers -/

theorem mem_ucRefs (b : Ref sig .tc) (h : (Proc.devRef (τ := τ) .tc b).isScoped = false) : Proc.devRef .tc b ∈ Pipeline.ucRefs τ sig :=
  Finset.mem_filter.mpr ⟨Finset.mem_map.mpr ⟨b, Finset.mem_univ _, rfl⟩, by rw [h]; simp⟩

theorem devRef_ne {a b : Ref sig .tc} (h : a ≠ b) : (Proc.devRef (τ := τ) .tc a) ≠ Proc.devRef .tc b :=
  fun e => h (Proc.devRef_injective _ e)

/-- The arrays the SparseCore call touches. -/
def scRefs : Finset (DevRef τ sig) := {Proc.devRef .tc main_v0, Proc.devRef .tc main_arg1, Proc.devRef .tc main_v1}

theorem scRefs_sub : scRefs ⊆ Pipeline.ucRefs τ sig := by
  intro b hb
  simp only [scRefs, Finset.mem_insert, Finset.mem_singleton] at hb
  rcases hb with rfl | rfl | rfl
  · exact mem_ucRefs _ rfl
  · exact mem_ucRefs _ rfl
  · exact mem_ucRefs _ rfl

theorem held_scRefs (d : Dev nD) (W : Valuation τ sig (Elt F)) :
    (StableHlo.held (T d) scRefs W : sProp 𝕄)
      = iprop((iLoc d ↦{fullShare} (W (Proc.devRef .tc main_v0) : Buf (Elt F) (iLoc d)))
          ∗ (xLoc d ↦{fullShare} (W (Proc.devRef .tc main_arg1) : Buf (Elt F) (xLoc d)))
          ∗ oLoc d ↦{fullShare} (W (Proc.devRef .tc main_v1) : Buf (Elt F) (oLoc d))) := by
  unfold StableHlo.held scRefs
  rw [bigSep_insert (by simp only [Finset.mem_insert, Finset.mem_singleton, not_or]; exact ⟨devRef_ne (by decide), devRef_ne (by decide)⟩),
    bigSep_insert (by simp only [Finset.mem_singleton]; exact devRef_ne (by decide)), bigSep_singleton]
  rfl

variable (m : (ℓ : Loc nD τ sig) → Buf (Elt F) ℓ)

/-- After the SparseCore call the unscoped buffers are as before it, but for the output array. -/
theorem held_join (d : Dev nD) :
    iprop((iLoc d ↦{fullShare} fi m d) ∗ (xLoc d ↦{fullShare} fx m d) ∗ (oLoc d ↦{fullShare} gath (fi m) (fx m) d)
        ∗ (StableHlo.held (T d) (Pipeline.ucRefs τ sig \ scRefs) (W1 m d) : sProp 𝕄))
      ⊢ (StableHlo.held (T d) (Pipeline.ucRefs τ sig) (W2 m d) : sProp 𝕄) := by
  rw [StableHlo.held_sub_split (T d) scRefs_sub (W2 m d), held_scRefs]
  have e0 : W2 m d (Proc.devRef .tc main_v0) = W1 m d (Proc.devRef .tc main_v0) := Function.update_of_ne (devRef_ne (by decide)) _ _
  have e1 : W2 m d (Proc.devRef .tc main_arg1) = W1 m d (Proc.devRef .tc main_arg1) := Function.update_of_ne (devRef_ne (by decide)) _ _
  have e2 : W2 m d (Proc.devRef .tc main_v1) = gath (fi m) (fx m) d := Function.update_self _ _ _
  rw [e0, e1, e2]
  have er : (StableHlo.held (T d) (Pipeline.ucRefs τ sig \ scRefs) (W2 m d) : sProp 𝕄) = StableHlo.held (T d) (Pipeline.ucRefs τ sig \ scRefs) (W1 m d) :=
    bigSep_congr fun b hb => by
      have hne : b ≠ Proc.devRef .tc main_v1 := fun e => (Finset.mem_sdiff.mp hb).2 (e ▸ by simp [scRefs])
      rw [show W2 m d b = W1 m d b from Function.update_of_ne hne _ _]
  rw [er]
  iintro ⟨Hi, Hx, Ho, Hr⟩
  isplitl [Hi Hx Ho]
  · isplitl [Hi]; · iexact Hi
    isplitl [Hx]; · iexact Hx
    iexact Ho
  iexact Hr

/-! ## The host operations between the calls, one by one -/

abbrev opB1 : HloOp τ sig (Elt F) := StableHlo.reshape main_arg2 main_v2 rfl shapeCasts_S10000x128_S10x1000x128
abbrev opB2 : HloOp τ sig (Elt F) :=
  StableHlo.unary main_v2 main_v3 ((truncf .bf16 · bitsLt_bf16_f32) : (⟨S10x1000x128, .f32⟩ : BufTy).Contents (Elt F) → (⟨S10x1000x128, .bf16⟩ : BufTy).Contents (Elt F))
abbrev opB3 : HloOp τ sig (Elt F) := StableHlo.reshape main_arg3 main_v4 rfl shapeCasts_S10000_S10x1000
abbrev opB4 : HloOp τ sig (Elt F) :=
  StableHlo.unary main_v4 main_v5 ((transpose S1000x10 [1, 0] · transposes_S10x1000_S1000x10_1_0) : (⟨S10x1000, .f32⟩ : BufTy).Contents (Elt F) → (⟨S1000x10, .f32⟩ : BufTy).Contents (Elt F))

theorem opsB_eq : opsB (F := F) = [opB1, opB2, opB3, opB4] := rfl

def W3 (d : Dev nD) : Valuation τ sig (Elt F) := (opB1 (F := F)).result (W2 m d)
def W4 (d : Dev nD) : Valuation τ sig (Elt F) := (opB2 (F := F)).result (W3 m d)
def W5 (d : Dev nD) : Valuation τ sig (Elt F) := (opB3 (F := F)).result (W4 m d)

theorem W6_eq (d : Dev nD) : W6 m d = (opB4 (F := F)).result (W5 m d) := rfl

/-! ## The final transposition's two buffers -/

/-- The buffers the final transposition touches. -/
def zRefs : Finset (DevRef τ sig) := {Proc.devRef .tc main_v6, Proc.devRef .tc main_v7}

theorem held_zRefs (d : Dev nD) (W : Valuation τ sig (Elt F)) :
    (StableHlo.held (T d) zRefs W : sProp 𝕄)
      = iprop((((d.tc : Thread nD τ).loc main_v6) ↦{fullShare} (W (Proc.devRef .tc main_v6) : Buf (Elt F) ((d.tc : Thread nD τ).loc main_v6)))
          ∗ (((d.tc : Thread nD τ).loc main_v7) ↦{fullShare} (W (Proc.devRef .tc main_v7) : Buf (Elt F) ((d.tc : Thread nD τ).loc main_v7)))) := by
  unfold StableHlo.held zRefs
  rw [bigSep_insert (by simp only [Finset.mem_singleton]; exact devRef_ne (by decide)), bigSep_singleton]
  rfl

theorem held_z_intro (d : Dev nD) :
    iprop((((d.tc : Thread nD τ).loc main_v6) ↦{fullShare} out6 m d) ∗ (((d.tc : Thread nD τ).loc main_v7) ↦{fullShare} V6 m d main_v7))
      ⊢ (StableHlo.held (T d) zRefs (W7 m d) : sProp 𝕄) := by
  rw [held_zRefs]
  have e0 : W7 m d (Proc.devRef .tc main_v6) = out6 m d := Function.update_self _ _ _
  have e1 : W7 m d (Proc.devRef .tc main_v7) = W6 m d (Proc.devRef .tc main_v7) := Function.update_of_ne (devRef_ne (by decide)) _ _
  rw [e0, e1]
  exact .rfl

theorem held_z_elim (d : Dev nD) :
    (StableHlo.held (T d) zRefs (W8 m d) : sProp 𝕄) ⊢ (((d.tc : Thread nD τ).loc main_v7) ↦{fullShare} res m d) := by
  rw [held_zRefs]
  exact sep_elim_right

theorem opZ_bufs : (opZ (F := F)).bufs ⊆ zRefs := fun _ h => h

end Cert.Kernel.Hand

end
-- ==== Proof.KB.ScSplit.lean ====
/-
  How the call's operands split: the index columns and output rows of the whole arrays into the two SparseCores' and
  each SparseCore's into its sixteen vector subcores' (disjoint unit-stride rectangles that cover), the table's full
  share into halves and sixteenths; and how the results join, the output rows all at the one gathered-rows function.
-/
import proofs.«218874_g56547539419890_cont_9to1c4b_400_22_alg».proof.Proof.KB.ScPay

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F

/-! ## Membership, by coordinates -/

theorem mem_iTileSet {c : Fin 2} {i : Fin 16} {j : S1x4096.Idx} :
    j ∈ iTileSet c i ↔ 128 * i.val + 2048 * c.val ≤ (j 1).val ∧ (j 1).val < 128 * i.val + 2048 * c.val + 128 := by
  unfold iTileSet icolR
  rw [Rect.mem_set_unit]
  constructor
  · intro h; exact h 1
  · intro h a
    match a with
    | 0 => have h0 : (j 0).val < 1 := (j 0).isLt; exact ⟨Nat.zero_le _, by show (j 0).val < 0 + 1; omega⟩
    | 1 => exact h

theorem mem_oTileSet {c : Fin 2} {i : Fin 16} {j : S4096x128.Idx} :
    j ∈ oTileSet c i ↔ 128 * i.val + 2048 * c.val ≤ (j 0).val ∧ (j 0).val < 128 * i.val + 2048 * c.val + 128 := by
  unfold oTileSet orowR
  rw [Rect.mem_set_unit]
  constructor
  · intro h; exact h 0
  · intro h a
    match a with
    | 0 => exact h
    | 1 => have h1 : (j 1).val < 128 := (j 1).isLt; exact ⟨Nat.zero_le _, by show (j 1).val < 0 + 128; omega⟩

theorem mem_iCoreSet {c : Fin 2} {j : S1x4096.Idx} : j ∈ iCoreSet c ↔ 2048 * c.val ≤ (j 1).val ∧ (j 1).val < 2048 * c.val + 2048 := by
  unfold iCoreSet
  simp only [Finset.mem_biUnion, Finset.mem_univ, true_and, mem_iTileSet]
  constructor
  · rintro ⟨i, h1, h2⟩; have := i.isLt; omega
  · intro h; exact ⟨⟨((j 1).val - 2048 * c.val) / 128, by omega⟩, by show 128 * (((j 1).val - 2048 * c.val) / 128) + 2048 * c.val ≤ _; omega,
      by show _ < 128 * (((j 1).val - 2048 * c.val) / 128) + 2048 * c.val + 128; omega⟩

theorem mem_oCoreSet {c : Fin 2} {j : S4096x128.Idx} : j ∈ oCoreSet c ↔ 2048 * c.val ≤ (j 0).val ∧ (j 0).val < 2048 * c.val + 2048 := by
  unfold oCoreSet
  simp only [Finset.mem_biUnion, Finset.mem_univ, true_and, mem_oTileSet]
  constructor
  · rintro ⟨i, h1, h2⟩; have := i.isLt; omega
  · intro h; exact ⟨⟨((j 0).val - 2048 * c.val) / 128, by omega⟩, by show 128 * (((j 0).val - 2048 * c.val) / 128) + 2048 * c.val ≤ _; omega,
      by show _ < 128 * (((j 0).val - 2048 * c.val) / 128) + 2048 * c.val + 128; omega⟩

/-! ## Disjoint, and they cover -/

theorem itiles_disjoint (c : Fin 2) : ∀ i ∈ (Finset.univ : Finset (Fin 16)), ∀ i' ∈ (Finset.univ : Finset (Fin 16)), i ≠ i' → Disjoint (iTileSet c i) (iTileSet c i') := by
  intro i _ i' _ h
  rw [Finset.disjoint_left]; intro j h1 h2
  rw [mem_iTileSet] at h1 h2
  exact h (Fin.ext (by omega))
theorem otiles_disjoint (c : Fin 2) : ∀ i ∈ (Finset.univ : Finset (Fin 16)), ∀ i' ∈ (Finset.univ : Finset (Fin 16)), i ≠ i' → Disjoint (oTileSet c i) (oTileSet c i') := by
  intro i _ i' _ h
  rw [Finset.disjoint_left]; intro j h1 h2
  rw [mem_oTileSet] at h1 h2
  exact h (Fin.ext (by omega))
theorem icores_disjoint : ∀ c ∈ (Finset.univ : Finset (Fin 2)), ∀ c' ∈ (Finset.univ : Finset (Fin 2)), c ≠ c' → Disjoint (iCoreSet c) (iCoreSet c') := by
  intro c _ c' _ h
  rw [Finset.disjoint_left]; intro j h1 h2
  rw [mem_iCoreSet] at h1 h2
  exact h (Fin.ext (by omega))
theorem ocores_disjoint : ∀ c ∈ (Finset.univ : Finset (Fin 2)), ∀ c' ∈ (Finset.univ : Finset (Fin 2)), c ≠ c' → Disjoint (oCoreSet c) (oCoreSet c') := by
  intro c _ c' _ h
  rw [Finset.disjoint_left]; intro j h1 h2
  rw [mem_oCoreSet] at h1 h2
  exact h (Fin.ext (by omega))
theorem icores_cover : (Finset.univ : Finset (Fin 2)).biUnion iCoreSet = Finset.univ := by
  ext j
  simp only [Finset.mem_biUnion, Finset.mem_univ, true_and, iff_true, mem_iCoreSet]
  have hj : (j 1).val < 4096 := (j 1).isLt
  exact ⟨⟨(j 1).val / 2048, by omega⟩, by show 2048 * ((j 1).val / 2048) ≤ _; omega, by show _ < 2048 * ((j 1).val / 2048) + 2048; omega⟩
theorem ocores_cover : (Finset.univ : Finset (Fin 2)).biUnion oCoreSet = Finset.univ := by
  ext j
  simp only [Finset.mem_biUnion, Finset.mem_univ, true_and, iff_true, mem_oCoreSet]
  have hj : (j 0).val < 4096 := (j 0).isLt
  exact ⟨⟨(j 0).val / 2048, by omega⟩, by show 2048 * ((j 0).val / 2048) ≤ _; omega, by show _ < 2048 * ((j 0).val / 2048) + 2048; omega⟩

/-! ## The points-tos split and join -/

theorem iPts_cores (d : Dev nD) (f : Buf (Elt F) (iLoc d)) :
    (iLoc d ↦{fullShare} f : sProp 𝕄) = bigSep Finset.univ fun c : Fin 2 => iLoc d ↦[iCoreSet c]{fullShare} f := by
  rw [← pointsTo_biUnion Finset.univ (ℓ := iLoc d) iCoreSet icores_disjoint, icores_cover]; try rfl
theorem oPts_cores (d : Dev nD) (f : Buf (Elt F) (oLoc d)) :
    (oLoc d ↦{fullShare} f : sProp 𝕄) = bigSep Finset.univ fun c : Fin 2 => oLoc d ↦[oCoreSet c]{fullShare} f := by
  rw [← pointsTo_biUnion Finset.univ (ℓ := oLoc d) oCoreSet ocores_disjoint, ocores_cover]; try rfl
theorem xPts_cores (d : Dev nD) (f : Buf (Elt F) (xLoc d)) :
    (xLoc d ↦{fullShare} f : sProp 𝕄) = bigSep Finset.univ fun c : Fin 2 => xLoc d ↦{xqC c} f :=
  pointsTo_leaves Finset.univ f 1 fullShare
theorem iPts_tiles (d : Dev nD) (c : Fin 2) (f : Buf (Elt F) (iLoc d)) :
    (iLoc d ↦[iCoreSet c]{fullShare} f : sProp 𝕄) = bigSep Finset.univ fun i : Fin 16 => iLoc d ↦[iTileSet c i]{fullShare} f :=
  pointsTo_biUnion Finset.univ (ℓ := iLoc d) (iTileSet c) (itiles_disjoint c)
theorem oPts_tiles (d : Dev nD) (c : Fin 2) (f : Buf (Elt F) (oLoc d)) :
    (oLoc d ↦[oCoreSet c]{fullShare} f : sProp 𝕄) = bigSep Finset.univ fun i : Fin 16 => oLoc d ↦[oTileSet c i]{fullShare} f :=
  pointsTo_biUnion Finset.univ (ℓ := oLoc d) (oTileSet c) (otiles_disjoint c)
theorem xPts_tiles (d : Dev nD) (c : Fin 2) (f : Buf (Elt F) (xLoc d)) :
    (xLoc d ↦{xqC c} f : sProp 𝕄) = bigSep Finset.univ fun i : Fin 16 => xLoc d ↦{xq c i} f :=
  pointsTo_leaves Finset.univ f 4 (xqC c)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (fi : (d : Dev nD) → Buf (Elt F) (iLoc d)) (fx : (d : Dev nD) → Buf (Elt F) (xLoc d)) (fo : (d : Dev nD) → Buf (Elt F) (oLoc d))

/-- One SparseCore's operands are its sixteen vector subcores'; their results, the output rows at the gathered rows,
    are the SparseCore's. -/
theorem vecSplit : (K (F := F)).VecSplit' (P fi fx fo) 0 := by
  intro d c
  show iprop(iCorePts fi d (Fin.cast nCore_zero c) ∗ xCorePts fx d (Fin.cast nCore_zero c) ∗ oCorePts d (Fin.cast nCore_zero c) (fo d)) ⊢ |={Set.univ}=> iprop(
      (bigSep Finset.univ fun i : Fin ((K (F := F)).nSub 0) =>
        iprop(iTilePts fi d (Fin.cast nCore_zero c) (Fin.cast nSub_zero i) ∗ xTilePts fx d (Fin.cast nCore_zero c) (Fin.cast nSub_zero i)
          ∗ oTilePts d (Fin.cast nCore_zero c) (Fin.cast nSub_zero i) (fo d)))
      ∗ ((bigSep Finset.univ fun i : Fin ((K (F := F)).nSub 0) =>
          iprop(iTilePts fi d (Fin.cast nCore_zero c) (Fin.cast nSub_zero i) ∗ xTilePts fx d (Fin.cast nCore_zero c) (Fin.cast nSub_zero i)
            ∗ oTilePts d (Fin.cast nCore_zero c) (Fin.cast nSub_zero i) (gath fi fx d)))
          -∗ iprop(iCorePts fi d (Fin.cast nCore_zero c) ∗ xCorePts fx d (Fin.cast nCore_zero c) ∗ oCorePts d (Fin.cast nCore_zero c) (gath fi fx d))))
  generalize Fin.cast nCore_zero c = c'
  rw [bigSep_tasks (F := F) (fun i => iprop(iTilePts fi d c' i ∗ xTilePts fx d c' i ∗ oTilePts d c' i (fo d))),
    bigSep_tasks (F := F) (fun i => iprop(iTilePts fi d c' i ∗ xTilePts fx d c' i ∗ oTilePts d c' i (gath fi fx d))),
    bigSep_sep', bigSep_sep', bigSep_sep', bigSep_sep']
  unfold iCorePts xCorePts oCorePts iTilePts xTilePts oTilePts
  rw [iPts_tiles, xPts_tiles, oPts_tiles, oPts_tiles]
  iintro H; imodintro
  isplitl [H]; · iexact H
  iintro H; iexact H

/-- The two SparseCores' operands are the three arrays whole. -/
theorem st0_eq (d : Dev nD) : (bigSep Finset.univ fun c : Fin ((K (F := F)).nCore 0) => (P fi fx fo).st 0 d c)
    = iprop((iLoc d ↦{fullShare} fi d) ∗ (xLoc d ↦{fullShare} fx d) ∗ oLoc d ↦{fullShare} fo d) := by
  show (bigSep Finset.univ fun c : Fin ((K (F := F)).nCore 0) =>
      iprop(iCorePts fi d (Fin.cast nCore_zero c) ∗ xCorePts fx d (Fin.cast nCore_zero c) ∗ oCorePts d (Fin.cast nCore_zero c) (fo d))) = _
  rw [bigSep_cores (F := F) (fun c => iprop(iCorePts fi d c ∗ xCorePts fx d c ∗ oCorePts d c (fo d))), bigSep_sep', bigSep_sep']
  unfold iCorePts xCorePts oCorePts
  rw [← iPts_cores, ← xPts_cores, ← oPts_cores]

/-- The two SparseCores' results are the index array and the table as they were and the output array at the gathered
    rows. -/
theorem dn0_eq (d : Dev nD) : (bigSep Finset.univ fun c : Fin ((K (F := F)).nCore 0) => (P fi fx fo).dn 0 d c)
    = iprop((iLoc d ↦{fullShare} fi d) ∗ (xLoc d ↦{fullShare} fx d) ∗ oLoc d ↦{fullShare} gath fi fx d) :=
  st0_eq fi fx (gath fi fx) d

theorem dn0_join (d : Dev nD) : (bigSep Finset.univ fun c : Fin ((K (F := F)).nCore 0) => (P fi fx fo).dn 0 d c)
    ⊢ iprop((iLoc d ↦{fullShare} fi d) ∗ (xLoc d ↦{fullShare} fx d) ∗ oLoc d ↦{fullShare} gath fi fx d) :=
  Entails.of_eq (dn0_eq fi fx fo d)

end Cert.Kernel.Hand

end
-- ==== Proof.KB.TcBody.lean ====
/-
  The TensorCore call of @main as a region, second half: the body obligation.

  On whole staging memrefs, the three inputs' at read contents `x0`, `x1`, `x2` and the output's at anything, the
  body runs to the end leaving the inputs' as they were and the output's at `out1_3 x0 x1 x2`: ten times it loads a
  slab of the weights and a column of the biases, computes, and stores a slab of the output block; the ten stores
  cover the block, so what the buffer held before does not matter. At a grid point the inputs' memrefs hold their
  blocks, which gives the obligation the pipeline asks of the body at that point. Generic in the float instance.
-/
import proofs.«218874_g56547539419890_cont_9to1c4b_400_22_alg».proof.Proof.KB.TcDat

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

/-! ## The body's triple -/

set_option maxHeartbeats 4000000 in
/-- The kernel body on whole staging memrefs: the inputs kept, the output's buffer at `out1_3` of the inputs. -/
theorem sound_kernel1 (c : Dev nD) (E : Set ℕ) (i : grid1.Coords) (arg1 : Memref sig .tc .vmem S256x128 .f32) (harg1 : arg1.IsWhole)
    (arg2 : Memref sig .tc .vmem S10x1000x128 .bf16) (harg2 : arg2.IsWhole) (arg3 : Memref sig .tc .vmem S1000x10 .f32) (harg3 : arg3.IsWhole)
    (arg4 : Memref sig .tc .vmem S10x1000x256 .f32) (harg4 : arg4.IsWhole)
    (x0 : Vec F S256x128 .f32) (x1 : Vec F S10x1000x128 .bf16) (x2 : Vec F S1000x10 .f32) (Kc : PUnit → sProp 𝕄) :
    iprop(owns (c.tc : Thread nD τ) arg1 fullShare x0 ∗ owns (c.tc : Thread nD τ) arg2 fullShare x1 ∗ owns (c.tc : Thread nD τ) arg3 fullShare x2
        ∗ (∃ d, owns (c.tc : Thread nD τ) arg4 fullShare d)
        ∗ (iprop(owns (c.tc : Thread nD τ) arg1 fullShare x0 ∗ owns (c.tc : Thread nD τ) arg2 fullShare x1 ∗ owns (c.tc : Thread nD τ) arg3 fullShare x2
            ∗ owns (c.tc : Thread nD τ) arg4 fullShare (out1_3 x0 x1 x2)) -∗ Kc ⟨⟩))
      ⊢ wp frame (wpE (defs₀ (F := F)) Variants.none (c.tc : Thread nD τ) none) E (cc1__tc_body i arg1 harg1 arg2 harg2 arg3 harg3 arg4 harg4) Kc := by
  simp only [cc1__tc_body_eq_skeleton]; unfold cc1__tc_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _ _ _ _ _ _ _ _ _)

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt (none : HIx 1) t.castSucc
    ∗ (∃ d, owns (c.tc : Thread nD τ) (st1_0 t) fullShare ((dat1 V c).before 0 t d))
    ∗ (∃ d, owns (c.tc : Thread nD τ) (st1_1 t) fullShare ((dat1 V c).before 1 t d))
    ∗ (∃ d, owns (c.tc : Thread nD τ) (st1_2 t) fullShare ((dat1 V c).before 2 t d))
    ∗ (∃ d, owns (c.tc : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt (none : HIx 1) t.succ
    ∗ owns (c.tc : Thread nD τ) (st1_0 t) fullShare ((dat1 V c).after 0 t)
    ∗ owns (c.tc : Thread nD τ) (st1_1 t) fullShare ((dat1 V c).after 1 t)
    ∗ owns (c.tc : Thread nD τ) (st1_2 t) fullShare ((dat1 V c).after 2 t)
    ∗ owns (c.tc : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none (c.tc : Thread nD τ) none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt (none : HIx 1) t.succ = (dat1 V c).owesAt (none : HIx 1) t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none (none : HIx 1) Set.univ := fun t => by
  rw [bigSep_W1, bigSep_W1]
  exact sound_body1 V c t

end Cert.Kernel.Hand

end
-- ==== Proof.KB.TcRegion.lean ====
/-
  The TensorCore call of @main as a region, third part: the segment record the launch of @main enters it by.

  The region is entered from every unscoped buffer of the core at contents `V c` beside the core owing nothing, and
  left with the call's four arrays at what the pipeline's write-backs made of them (the three inputs as entered, the
  output at the blocks the body stored), every other unscoped buffer as entered, and the core again owing nothing.
  The kernel has no semaphore of its own and the body owes nothing at the staging cells, so the wait evidence is from
  nothing; nothing enters the invariant but the scoped buffers no window stages. Generic in the float instance.
-/
import proofs.«218874_g56547539419890_cont_9to1c4b_400_22_alg».proof.Proof.KB.TcBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

/-- The body obligation of the pipeline's proof data, on every core. -/
theorem body_obligation (c : Dev nD) : BodyObligation (pdats (F := F) V 0 c) (defs₀ (F := F)) 𝒱₀ (none : HIx 1) Set.univ :=
  body_obligation1 V c

/-- The body owes nothing at any point. -/
theorem owed_zero (c : Dev nD) (t) : (pdats (F := F) V 0 c).owed t = 0 := rfl

/-- The region's segment record. -/
def regionSeg : Pipeline.RegionSeg (pcfgs (F := F)) adm (pdats V) (none : HIx 1) defs₀ 𝒱₀ (K (F := F)).L (K (F := F)).lev (0 : Fin 1) where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs (Ix := HIx 1) (Name := ℕ) (U := UU) (Lvl := ℕ) c (V c) ∗ ∃ W, owes (c.tc : Thread nD τ) (0 : CellTallies nD τ sig (HIx 1)) W)
  post c := iprop((pdats V 0 c).arrays ((pdats V 0 c).arrAt · (Pipeline.pin (pcfgs (F := F)) adm 0).N)
    ∗ Pipeline.unscopedRest (Ix := HIx 1) (Name := ℕ) (U := UU) (Lvl := ℕ) spec1 c (V c)
    ∗ ∃ W, owes (c.tc : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, Hrest⟩
    imodintro
    isplitl [Ha]; · iexact Ha
    isplitl [Hrest]; · iexact Hrest
    unfold Pipeline.Dat.owesAt Pipeline.owesWithin
    icases HO with ⟨%W, -, HO⟩; iexists W; iexact HO

/-- The region's exit state, opened: the output array at what the write-backs made of it after the last of the 16
    points, the arguments and the result buffer as entered, the core owing nothing (the other buffers let go). -/
theorem post_open (d : Dev nD) : (regionSeg V).post d ⊢ (iprop((((d.tc : Thread nD τ).loc main_v6) ↦{fullShare} ((pdats V 0 d).arrAt 3 16 : Buf (Elt F) ((d.tc : Thread nD τ).loc main_v6)))
      ∗ (((d.tc : Thread nD τ).loc main_arg0) ↦{fullShare} V d main_arg0) ∗ (((d.tc : Thread nD τ).loc main_arg1) ↦{fullShare} V d main_arg1)
      ∗ (((d.tc : Thread nD τ).loc main_arg2) ↦{fullShare} V d main_arg2) ∗ (((d.tc : Thread nD τ).loc main_arg3) ↦{fullShare} V d main_arg3)
      ∗ (((d.tc : Thread nD τ).loc main_v7) ↦{fullShare} V d main_v7)
      ∗ ∃ W, owes (d.tc : Thread nD τ) (0 : CellTallies nD τ sig (HIx 1)) W) : sProp 𝕄) := by
  show (iprop((pdats V 0 d).arrays ((pdats V 0 d).arrAt · (Pipeline.pin (pcfgs (F := F)) adm 0).N)
    ∗ Pipeline.unscopedRest (Ix := HIx 1) (Name := ℕ) (U := UU) (Lvl := ℕ) spec1 d (V d)
    ∗ ∃ W, owes (d.tc : Thread nD τ) (0 : CellTallies nD τ sig (HIx 1)) W) : sProp 𝕄) ⊢ _
  rw [Pipeline.arrays_eq (Pipeline.pin (pcfgs (F := F)) adm) (pdats V) 0 d launch1.arr_whole ((pdats V 0 d).share_full fun _ => rfl),
    bigSep_W1, unscopedRest1_eq]
  iintro ⟨⟨-, -, -, H6⟩, ⟨Ha0, Ha1, Ha2, Ha3, -, -, -, Hv7⟩, HO⟩
  isplitl [H6]; · iexact H6
  isplitl [Ha0]; · iexact Ha0
  isplitl [Ha1]; · iexact Ha1
  isplitl [Ha2]; · iexact Ha2
  isplitl [Ha3]; · iexact Ha3
  isplitl [Hv7]; · iexact Hv7
  iexact HO

end Cert.Kernel.Hand

end
-- ==== Proof.KB.TcEnter.lean ====
/-
  The TensorCore call of @main entered from @main itself, which runs under the SparseCore layer of labels.

  @main's line is the call of the pipeline's entry label as a label of the extended signature. A proof about the
  call in the pipeline's own signature is a proof about it lifted to the extended one (every effect but a call has the
  same clause, and a call of a label is a call of the same label injected); in the pipeline's signature the call is
  the region's step: from the region boundary, every unscoped buffer of the core at the entry contents `V d`, the core
  owing nothing, the level facts and the staging cells' ghost state and duty tokens, to the boundary and the region's
  exit state, for whatever follows. Generic in the float instance.
-/
import proofs.«218874_g56547539419890_cont_9to1c4b_400_22_alg».proof.Proof.KB.Ghost
import proofs.«218874_g56547539419890_cont_9to1c4b_400_22_alg».proof.Proof.KB.TcRegion

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c.tc : Thread nD τ).loc b))

set_option maxHeartbeats 400000 in
/-- The region's step in the pipeline's own signature, for any continuation's postcondition `Ψ`: the call, then
    nothing. -/
theorem wp_region_inner (d : Dev nD) (Ψ : PUnit → sProp 𝕄) :
    iprop(levAts (K (F := F)).L (K (F := F)).lev ∗ boundary (SparseCore.T d) ∗ unscopedBufs d (V d)
        ∗ (∃ W, owes (SparseCore.T d) (0 : CellTallies nD τ sig (HIx 1)) W) ∗ GG (F := F) d
        ∗ (iprop(boundary (SparseCore.T d) ∗ (regionSeg V).post d) -∗ Ψ ⟨⟩))
      ⊢ wp frame (wpE (D (F := F)) 𝒱 (SparseCore.T d) none) Set.univ
          (Prog.lift (TpuEff.customCall (Pipeline.entry (0 : Fin 1)) ())) Ψ := by
  have h := Pipeline.RegionSeg.wp (pcfgs (F := F)) adm (pdats V) (none : HIx 1) cellOf_inj (EP (F := F)) defs₀ 𝒱₀
    (K (F := F)).L (K (F := F)).lev (regionSeg V) d none (fun _ hu => by cases hu) (fun _ => .ret ⟨⟩) Ψ
  -- the record's entry state, and the ghost state over the pinned configurations, by unfolding
  have hpre : (iprop(unscopedBufs (Ix := HIx 1) (Name := ℕ) (U := UU) (Lvl := ℕ) d (V d)
      ∗ ∃ W, owes (SparseCore.T d) (0 : CellTallies nD τ sig (HIx 1)) W) : sProp 𝕄) ⊢ (regionSeg V).pre d := .rfl
  have hG : (GG (F := F) d : sProp 𝕄) ⊢ iprop(Pipeline.cellsGhost (Pipeline.pin (pcfgs (F := F)) adm) (EP (F := F)) 0 d
      ∗ Pipeline.toksInit (Pipeline.pin (pcfgs (F := F)) adm) (EP (F := F)) 0 d) := by
    unfold GG; exact .rfl
  iintro ⟨Hlev, Hb, Hub, HO, HG, Hk⟩
  iapply h
  isplitl [Hk]
  · iintro Hpost
    rw [wp_ret]; imodintro
    iapply Hk; iexact Hpost
  isplitl [Hb]; · iexact Hb
  isplitl [Hub HO]
  · iapply hpre
    isplitl [Hub]; · iexact Hub
    iexact HO
  isplitl [Hlev]; · iexact Hlev
  iapply hG; iexact HG

set_option maxHeartbeats 400000 in
/-- The region's step under the SparseCore layer: the same call with its label injected. -/
theorem wp_region (d : Dev nD) (Ψ : PUnit → sProp 𝕄) :
    iprop(levAts (K (F := F)).L (K (F := F)).lev ∗ boundary (SparseCore.T d) ∗ unscopedBufs d (V d)
        ∗ (∃ W, owes (SparseCore.T d) (0 : CellTallies nD τ sig (HIx 1)) W) ∗ GG (F := F) d
        ∗ (iprop(boundary (SparseCore.T d) ∗ (regionSeg V).post d) -∗ Ψ ⟨⟩))
      ⊢ wp frame (wpE ((K (F := F)).defs (D (F := F))) 𝒱 (SparseCore.T d) none) Set.univ
          (Prog.lift (TpuEff.customCall (SparseCore.inner (Pipeline.entry (0 : Fin 1))) ())) Ψ := by
  change _ ⊢ wp _ _ _ (SparseCore.liftProg (Prog.lift (TpuEff.customCall (Pipeline.entry (0 : Fin 1)) ()))) _
  exact (wp_region_inner V d Ψ).trans ((K (F := F)).wp_liftProg (D (F := F)) 𝒱 (SparseCore.T d) Set.univ none _ _)

end Cert.Kernel.Hand

end
-- ==== Proof.KB.Main.lean ====
/-
  @main on a device's TensorCore, and the program's run.

  @main reshapes the index array, makes the SparseCore call (handing the SparseCores the index array, the table and the
  output array, getting them back with the gathered rows in the output array), prepares the weights and the biases by
  four host operations, enters the one pipelined region of the TensorCore call, and transposes its output. The run of
  the whole family of threads follows by the SparseCore launch theorem from the tile obligation, the splits, the launch
  element and this proof; the final memory has the four arguments as launched and the result at the value the host
  side's valuations name.
-/
import proofs.«218874_g56547539419890_cont_9to1c4b_400_22_alg».proof.Proof.KB.Ghost
import proofs.«218874_g56547539419890_cont_9to1c4b_400_22_alg».proof.Proof.KB.HostFacts
import proofs.«218874_g56547539419890_cont_9to1c4b_400_22_alg».proof.Proof.KB.ScSplit
import proofs.«218874_g56547539419890_cont_9to1c4b_400_22_alg».proof.Proof.KB.TcRegion
import proofs.«218874_g56547539419890_cont_9to1c4b_400_22_alg».proof.Proof.KB.TcEnter

noncomputable section

namespace Cert.Kernel.Hand

open Cert.Kernel Cert.Kernel.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-- The SparseCore call's payload at the contents the call finds. -/
abbrev PP : (K (F := F)).Pay (nD := nD) (Val := Elt F) (Name := ℕ) (U := UU) := P (fi m) (fx m) (fo m)

/-- What the TensorCore holds at the end that the claim reads: the four arguments and the result. -/
def FIN (d : Dev nD) : sProp 𝕄 :=
  iprop((((d.tc : Thread nD τ).loc main_arg0) ↦{fullShare} V6 m d main_arg0) ∗ (((d.tc : Thread nD τ).loc main_arg1) ↦{fullShare} V6 m d main_arg1)
    ∗ (((d.tc : Thread nD τ).loc main_arg2) ↦{fullShare} V6 m d main_arg2) ∗ (((d.tc : Thread nD τ).loc main_arg3) ↦{fullShare} V6 m d main_arg3)
    ∗ (((d.tc : Thread nD τ).loc main_v7) ↦{fullShare} res m d))

theorem Otc_one (d : Dev nD) : (K (F := F)).Otc d 1 = 0 := by
  unfold SparseCore.Cfg.Otc
  exact Finset.sum_eq_zero fun q _ => if_neg (by have := q.isLt; omega)

theorem wbelow_any (d : Dev nD) (W : Waits sig (HIx 1)) : (K (F := F)).WBelow (SparseCore.T d) W 8 := by
  intro p _
  rcases hp : p.2 with _ | q
  · rw [SparseCore.Cfg.lev_none]; exact Nat.zero_le _
  · have := (K (F := F)).lev_some_le (SparseCore.T d, p.1) q; have := q.isLt; omega

/-- After the one SparseCore call the TensorCore owes nothing more: what it owes can be lent to the pipelined region and
    taken back, whatever waits the region recorded. -/
theorem tcSt_one_open (d : Dev nD) :
    ((K (F := F)).tcSt (EH (F := F)) d ((0 : Fin 1).val + 1) : sProp 𝕄)
      ⊢ iprop((∃ W, owes (SparseCore.T d) (0 : CellTallies nD τ sig (HIx 1)) W)
          ∗ ((∃ W, owes (SparseCore.T d) (0 : CellTallies nD τ sig (HIx 1)) W) -∗ (K (F := F)).tcSt (EH (F := F)) d 1)) := by
  unfold SparseCore.Cfg.tcSt
  rw [show ((0 : Fin 1).val + 1) = 1 from rfl, Otc_one]
  iintro ⟨⟨%W, %hW, HO⟩, Hrest⟩
  isplitl [HO]; · iexists W; iexact HO
  iintro ⟨%W', HO'⟩
  isplitl [HO']
  · iexists W'; isplitr; · ipureintro; exact wbelow_any d W'
    iexact HO'
  iexact Hrest

theorem held_z_intro' (d : Dev nD) :
    iprop((((d.tc : Thread nD τ).loc main_v6) ↦{fullShare} ((pdats (V6 m) 0 d).arrAt 3 16 : Buf (Elt F) ((d.tc : Thread nD τ).loc main_v6)))
        ∗ (((d.tc : Thread nD τ).loc main_v7) ↦{fullShare} V6 m d main_v7))
      ⊢ (StableHlo.held (SparseCore.T d) zRefs (W7 m d) : sProp 𝕄) := held_z_intro m d

theorem held_z_elim' (d : Dev nD) :
    (StableHlo.held (SparseCore.T d) zRefs ((opZ (F := F)).result (W7 m d)) : sProp 𝕄) ⊢ (((d.tc : Thread nD τ).loc main_v7) ↦{fullShare} res m d) :=
  held_z_elim m d

theorem ub_held (d : Dev nD) : (unscopedBufs d (fun b => m ((SparseCore.T d).loc b)) : sProp 𝕄) = StableHlo.held (SparseCore.T d) (Pipeline.ucRefs τ sig) (W0 m d) :=
  Pipeline.unscopedBufs_held d (W0 m d)

set_option backward.isDefEq.respectTransparency.types false in
set_option maxHeartbeats 800000 in
/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes GG
  rw [ub_held]
  simp only [main, wp_bind, wp_pure]
  iintro ⟨#Hctx, Hst, ⟨Hb, Hbufs, Hsems, Hprng⟩, ⟨Hcg, Htk⟩⟩
  ihave #Hlev := (SparseCore.Cfg.ctx_levAts κ) $$ Hctx
  -- the reshape of the index array
  iapply (StableHlo.wp_hlo_within (op := opA (F := F)) (V := W0 m d) 𝒱 (SparseCore.T d) none Set.univ (Pipeline.sub_ucRefs _ (StableHlo.reshape_bufs_sub _ _ _ _ _ _))) $$ [Hb Hbufs]
  · isplitl [Hb] <;> iassumption
  iintro ⟨Hb, Hbufs⟩
  rw [wp_ret]; imodintro
  -- the SparseCore call: the three arrays out, and back
  ihave Hbufs := (show (StableHlo.held (SparseCore.T d) (Pipeline.ucRefs τ sig) ((opA (F := F)).result (W0 m d)) : sProp 𝕄)
      ⊢ iprop(StableHlo.held (SparseCore.T d) scRefs (W1 m d) ∗ StableHlo.held (SparseCore.T d) (Pipeline.ucRefs τ sig \ scRefs) (W1 m d))
      from Entails.of_eq (StableHlo.held_sub_split (SparseCore.T d) scRefs_sub (W1 m d))) $$ Hbufs
  icases Hbufs with ⟨H3, Hrest⟩
  ihave H3 := (Entails.of_eq (held_scRefs (F := F) d (W1 m d))) $$ H3
  icases H3 with ⟨Hi, Hx, Ho⟩
  iapply ((K (F := F)).wp_run (D (F := F)) 𝒱 (EH := EH) (P := PP m) κ d 0) $$ [Hst Hi Hx Ho Hb Hrest Hsems Hprng Hcg Htk]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn := (dn0_join (fi m) (fx m) (fo m) d) $$ Hdn
  icases Hdn with ⟨Hi, Hx, Ho⟩
  ihave Hbufs := (held_join m d) $$ [Hi Hx Ho Hrest]
  · isplitl [Hi]; · iexact Hi
    isplitl [Hx]; · iexact Hx
    isplitl [Ho]; · iexact Ho
    iexact Hrest
  -- the four host operations between the calls
  iapply (StableHlo.wp_hlo_within (V := W2 m d) 𝒱 (SparseCore.T d) none Set.univ (Pipeline.sub_ucRefs _ (StableHlo.reshape_bufs_sub _ _ _ _ _ _))) $$ [Hb Hbufs]
  · isplitl [Hb] <;> iassumption
  iintro ⟨Hb, Hbufs⟩
  rw [wp_ret]; imodintro
  iapply (StableHlo.wp_hlo_within 𝒱 (SparseCore.T d) none Set.univ (Pipeline.sub_ucRefs _ (StableHlo.unary_bufs_sub _ _ _ _ _))) $$ [Hb Hbufs]
  · isplitl [Hb] <;> iassumption
  iintro ⟨Hb, Hbufs⟩
  rw [wp_ret]; imodintro
  iapply (StableHlo.wp_hlo_within 𝒱 (SparseCore.T d) none Set.univ (Pipeline.sub_ucRefs _ (StableHlo.reshape_bufs_sub _ _ _ _ _ _))) $$ [Hb Hbufs]
  · isplitl [Hb] <;> iassumption
  iintro ⟨Hb, Hbufs⟩
  rw [wp_ret]; imodintro
  iapply (StableHlo.wp_hlo_within 𝒱 (SparseCore.T d) none Set.univ (Pipeline.sub_ucRefs _ (StableHlo.unary_bufs_sub _ _ _ _ _))) $$ [Hb Hbufs]
  · isplitl [Hb] <;> iassumption
  iintro ⟨Hb, Hbufs⟩
  rw [wp_ret]; imodintro
  -- the TensorCore call's region
  ihave Hub := (show (StableHlo.held (SparseCore.T d) (Pipeline.ucRefs τ sig) ((opB4 (F := F)).result ((opB3 (F := F)).result ((opB2 (F := F)).result ((opB1 (F := F)).result (W2 m d))))) : sProp 𝕄) ⊢ (unscopedBufs d (V6 m d) : sProp 𝕄)
      from Entails.of_eq (Pipeline.unscopedBufs_held d (W6 m d)).symm) $$ Hbufs
  ihave Hst := (tcSt_one_open (F := F) d) $$ Hst
  icases Hst with ⟨HO, Hback⟩
  iapply (wp_region (V6 m) d _) $$ [Hb Hub HO Hcg Htk Hback Hsems Hprng]
  isplitr; · iexact Hlev
  isplitl [Hb]; · iexact Hb
  isplitl [Hub]; · iexact Hub
  isplitl [HO]; · iexact HO
  isplitl [Hcg Htk]
  · unfold GG; isplitl [Hcg] <;> iassumption
  iintro ⟨Hb, Hpost⟩
  ihave Hpost := (post_open (V6 m) d) $$ Hpost
  icases Hpost with ⟨Hv6, Ha0, Ha1, Ha2, Ha3, Hv7, HO⟩
  -- the final transposition
  ihave Hz := (held_z_intro' m d) $$ [Hv6 Hv7]
  · isplitl [Hv6] <;> iassumption
  iapply (StableHlo.wp_hlo_within (op := opZ (F := F)) (V := W7 m d) 𝒱 (SparseCore.T d) none Set.univ (opZ_bufs (F := F))) $$ [Hb Hz]
  · isplitl [Hb] <;> iassumption
  iintro ⟨Hb, Hz⟩
  rw [wp_ret]; imodintro; imodintro
  isplitl [HO Hback]
  · iapply Hback; iexact HO
  ihave Hres := (held_z_elim' m d) $$ Hz
  unfold FIN
  isplitl [Ha0]; · iexact Ha0
  isplitl [Ha1]; · iexact Ha1
  isplitl [Ha2]; · iexact Ha2
  isplitl [Ha3]; · iexact Ha3
  iexact Hres

end Cert.Kernel.Hand

end
-- ==== Proof.KB.ScValue.lean ====
/-
  The gather task's buffers as the task addresses them, and the VALUE it leaves: the stream's offsets are the task's
  128 index words (each below 1000 under the precondition), so the rows it gathers, copied out, are the table rows those
  words name — the gathered-rows function on the task's output rows. Index arithmetic only; generic in the float instance.
-/
import proofs.«218874_g56547539419890_cont_9to1c4b_400_22_alg».proof.Proof.KB.ScPay
import Idealize.ShloMosaic.Lib.Writes

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MM F

local notation "iV" => (Memref.whole Cert.Kernel.main_v0_scv : Memref Cert.Kernel.sig Kind.scVector Space.hbm Cert.Kernel.S1x4096 EltTy.i32)
local notation "xV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scoped0 : Memref Cert.Kernel.sig Kind.scVector Space.vmem Cert.Kernel.S2x1x128 EltTy.i32)
local notation "rV" => (Memref.whole Cert.Kernel.cc0_scoped2 : Memref Cert.Kernel.sig Kind.scVector Space.vmem Cert.Kernel.S2x128x128 EltTy.f32)

variable (fi : (d : Dev nD) → Buf (Elt F) (iLoc d)) (fx : (d : Dev nD) → Buf (Elt F) (xLoc d)) (fo : (d : Dev nD) → Buf (Elt F) (oLoc d))

/-! ## The grid point, and the buffers as the task addresses them -/

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

/-- Each task runs exactly one step: nothing to prefetch, nothing of an earlier step to wait for. -/
theorem cond1_false : ∀ L : grid0.Coords, ¬ (k0_cond1 L = 1#1) := by decide +kernel
theorem cond2_true : ∀ L : grid0.Coords, k0_cond2 L = 1#1 := by decide +kernel
theorem cond5_true : ∀ L : grid0.Coords, k0_cond5 L = 1#1 := by decide +kernel
theorem cond7_false : ∀ L : grid0.Coords, ¬ (k0_cond7 L = 1#1) := by decide +kernel

/-- The task's 128 index columns and its 128 output rows, as its copies address them. -/
abbrev iColK (L : grid0.Coords) : Memref sig .scVector .hbm S1x128 .i32 :=
  (iV).slice (Rect.unit (s := S1x4096) (k0_off2 L) S1x128.size (k0_off2_inb L)) (fun _ => rfl)
abbrev oRowK (L : grid0.Coords) : Memref sig .scVector .hbm S128x128 .f32 :=
  (oV).slice (Rect.unit (s := S4096x128) (k0_off12 L) S128x128.size (k0_off12_inb L (cond5_true L))) (fun _ => rfl)

theorem set_iColK : (iColK L).view.set = iTileSet (cL L) (iL L) := by
  show ((View.whole (main_v0_scv : Ref sig .scVector)).slice (Rect.unit (s := S1x4096) (k0_off2 L) S1x128.size (k0_off2_inb L))).set = (icolR (cL L) (iL L)).set
  rw [View.set_slice_whole]
  exact congrArg (fun r : Rect S1x4096 => r.set) (Rect.unit_congr (k0_off2_eq L) _ _)
theorem set_oRowK : (oRowK L).view.set = oTileSet (cL L) (iL L) := by
  show ((View.whole (main_v1_scv : Ref sig .scVector)).slice (Rect.unit (s := S4096x128) (k0_off12 L) S128x128.size (k0_off12_inb L (cond5_true L)))).set = (orowR (cL L) (iL L)).set
  rw [View.set_slice_whole]
  exact congrArg (fun r : Rect S4096x128 => r.set) (Rect.unit_congr (k0_off12_eq L) _ _)

theorem pts_iColK (f : Buf (Elt F) (iLoc d)) :
    ((iColK L).view.loc (V d (cV L) (jV L)) ↦[(iColK L).view.set]{fullShare} f : sProp 𝕄) = iLoc d ↦[iTileSet (cL L) (iL L)]{fullShare} f := by
  rw [set_iColK]
theorem pts_oRowK (f : Buf (Elt F) (oLoc d)) :
    ((oRowK L).view.loc (V d (cV L) (jV L)) ↦[(oRowK L).view.set]{fullShare} f : sProp 𝕄) = oLoc d ↦[oTileSet (cL L) (iL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scoped0)) :
    ((sV).view.loc (V d (cV L) (jV L)) ↦{fullShare} f : sProp 𝕄) = (V d (cV L) (jV L)).loc cc0_scoped0 ↦{fullShare} f := rfl
theorem pts_rV (f : Buf (Elt F) ((V d (cV L) (jV L)).loc cc0_scoped2)) :
    ((rV).view.loc (V d (cV L) (jV L)) ↦{fullShare} f : sProp 𝕄) = (V d (cV L) (jV L)).loc cc0_scoped2 ↦{fullShare} f := rfl

/-- Slot 0 of the index scratch as the index copy fills it, and as the stream reads its 128 words; slot 0 of the row
    scratch as the stream fills it and as the copy-out reads it; the table as the stream addresses it. -/
abbrev iSlotK : Memref sig .scVector .vmem S1x128 .i32 :=
  ((sV).slice (Rect.unit (s := S2x1x128) k0_off1 S1x1x128.size k0_off1_inb) (fun _ => rfl)).squeeze S1x128 squeezes_S1x1x128_S1x128
abbrev offsK : Memref sig .scVector .vmem S128 .i32 :=
  ((iSlotK).slice (Rect.unit (s := S1x128) ![0, 0] S1x128.size inb_S1x128_S1x128_0_0) (fun _ => rfl)).squeeze S128 squeezes_S1x128_S128
abbrev rSlotK : Memref sig .scVector .vmem S128x128 .f32 :=
  ((rV).slice (Rect.unit (s := S2x128x128) k0_off10 S1x128x128.size k0_off10_inb) (fun _ => rfl)).squeeze S128x128 squeezes_S1x128x128_S128x128
abbrev rSlotK' (L : grid0.Coords) : Memref sig .scVector .vmem S128x128 .f32 :=
  ((rV).slice (Rect.unit (s := S2x128x128) k0_off11 S1x128x128.size (k0_off11_inb L (cond5_true L))) (fun _ => rfl)).squeeze S128x128 squeezes_S1x128x128_S128x128
abbrev xAllK : Memref sig .scVector .hbm S1000x128 .f32 :=
  (xV).slice (Rect.unit (s := S1000x128) ![0, 0] S1000x128.size inb_S1000x128_S1000x128_0_0) (fun _ => rfl)

/-- The copy-out reads slot 0 of the row scratch at the elements the stream wrote. -/
theorem rSlot_emb (y : S128x128.Idx) : ((rSlotK' L).view.emb y : S2x128x128.Idx) = (rSlotK).view.emb y := by
  funext a
  apply Fin.ext
  show k0_off11 a + 1 * ((Shape.reshapeEquiv squeezes_S1x128x128_S128x128.numel_eq y) a).val
    = k0_off10 a + 1 * ((Shape.reshapeEquiv squeezes_S1x128x128_S128x128.numel_eq y) a).val
  rw [k0_off11_eq, k0_off10_eq]

theorem rSlot_read (G : Buf (Elt F) ((V d (cV L) (jV L)).loc cc0_scoped2)) (y : S128x128.Idx) :
    (rSlotK' L).view.read (Elt F) G y = (rSlotK).view.read (Elt F) G y :=
  congrArg (fun i : S2x128x128.Idx => G i) (rSlot_emb L y)

/-! ## The index words the stream reads -/

/-- What the index copy lands in slot 0 of the index scratch: the task's 128 index words. -/
abbrev pay0 : S1x128.Idx → Elt F .i32 := (iColK L).view.read (Elt F) (fi d)

theorem pay0_apply (z : S1x128.Idx) : pay0 fi d L z = fi d ((iColK L).view.emb z) := (View.read_apply _ _).trans (cast_eq _ _)

theorem pay0_lt (hpre : PreOK fi) (z : S1x128.Idx) : (pay0 fi d L z).toNat < 1000 := by
  rw [pay0_apply]; exact hpre d _

variable (fs : Buf (Elt F) ((V d (cV L) (jV L)).loc cc0_scoped0)) (fr : Buf (Elt F) ((V d (cV L) (jV L)).loc cc0_scoped2))

/-- Word `x` of the stream's offset list, read off the index scratch once a payload has landed in slot 0, is that
    payload's word at `(0, x)`. -/
theorem offs_read (pay : S1x128.Idx → Elt F .i32) (x : S128.Idx) :
    (offsK).view.read (Elt F) (View.write (Elt F) (iSlotK).view fs pay Finset.univ) x
      = pay ((Rect.unit (s := S1x128) ![0, 0] S1x128.size inb_S1x128_S1x128_0_0).emb (Shape.reshapeEquiv squeezes_S1x128_S128.numel_eq x)) := by
  have e : (offsK).view.read (Elt F) (View.write (Elt F) (iSlotK).view fs pay Finset.univ) x
      = (iSlotK).view.read (Elt F) (View.write (Elt F) (iSlotK).view fs pay Finset.univ)
          ((Rect.unit (s := S1x128) ![0, 0] S1x128.size inb_S1x128_S1x128_0_0).emb (Shape.reshapeEquiv squeezes_S1x128_S128.numel_eq x)) := rfl
  rw [e, View.read_write_of_mem _ _ (Finset.mem_univ _)]

/-- The stream's offsets are in range: every word of the landed payload is below 1000. -/
theorem hin_of (pay : S1x128.Idx → Elt F .i32) (hpay : ∀ y, (pay y).toNat < 1000) :
    ∀ x, ((offsK).view.read (Elt F) (View.write (Elt F) (iSlotK).view fs pay Finset.univ) x).toNat < S1000x128.size gathers_S1000x128_S128x128.axis := by
  intro x
  rw [offs_read]
  exact hpay _

/-- The index of the index array that word `k` of the offset list was copied from: column `128 i + 2048 c + k`. -/
theorem word_idx (k : Fin 128) (hk : 128 = S128.numel) (hb : 128 * (L 1).val + 2048 * (L 0).val + k.val < 4096) :
    (iColK L).view.emb ((Rect.unit (s := S1x128) ![0, 0] S1x128.size inb_S1x128_S1x128_0_0).emb
        (Shape.reshapeEquiv squeezes_S1x128_S128.numel_eq (S128.rowMajor.symm (k.cast hk))))
      = ix2 (0 : Fin 1) (⟨128 * (L 1).val + 2048 * (L 0).val + k.val, hb⟩ : Fin 4096) := by
  have e1 : Shape.reshapeEquiv squeezes_S1x128_S128.numel_eq (S128.rowMajor.symm (k.cast hk)) = ix2 (0 : Fin 1) k :=
    Shape.reshapeEquiv_eq_of_rowMajor _ (by
      rw [Shape.rowMajor_val_two, Equiv.apply_symm_apply]
      show 0 * 128 + k.val = k.val
      omega)
  rw [e1]
  funext a
  apply Fin.ext
  have e2 := k0_off2_eq L
  match a with
  | ⟨0, h0⟩ =>
    show k0_off2 L ⟨0, h0⟩ + 1 * ((![0, 0] : Fin 2 → ℕ) ⟨0, h0⟩ + 1 * 0) = 0
    rw [e2]; rfl
  | ⟨1, h1⟩ =>
    show k0_off2 L ⟨1, h1⟩ + 1 * ((![0, 0] : Fin 2 → ℕ) ⟨1, h1⟩ + 1 * k.val) = 128 * (L 1).val + 2048 * (L 0).val + k.val
    rw [e2]
    show 128 * (L 1).val + 2048 * (L 0).val + 1 * (0 + 1 * k.val) = _
    omega

/-! ## The rows the stream gathers, and what the copy-out leaves -/

/-- The rows the stream lands in slot 0 of the row scratch: row `k` is the table row the `k`-th landed index word names. -/
abbrev payG (hin : ∀ x, ((offsK).view.read (Elt F) (View.write (Elt F) (iSlotK).view fs (pay0 fi d L) Finset.univ) x).toNat < S1000x128.size gathers_S1000x128_S128x128.axis) :
    S128x128.Idx → Elt F .f32 :=
  SparseCore.gatherPayload gathers_S1000x128_S128x128 ((xAllK).view.read (Elt F) (fx d))
    (SparseCore.rows ((offsK).view.read (Elt F) (View.write (Elt F) (iSlotK).view fs (pay0 fi d L) Finset.univ)) (rfl : S128.numel = S128x128.size gathers_S1000x128_S128x128.axis') hin)

/-- Row `k`, column `c` of the gathered rows is the gathered-rows function at the task's row `k`, column `c`. -/
theorem payG_apply (hpre : PreOK fi) (hin) (y : S128x128.Idx) :
    payG fi fx d L fs hin y = gath fi fx d ((oRowK L).view.emb y) := by
  have hL0 : (L 0).val < 2 := (L 0).isLt
  have hL1 : (L 1).val < 16 := (L 1).isLt
  have hy0 : (y 0).val < 128 := (y 0).isLt
  have hb : 128 * (L 1).val + 2048 * (L 0).val + (y 0).val < 4096 := by omega
  -- the row of the output array this element is copied to
  have he0 : (oRowK L).view.emb y 0 = (⟨128 * (L 1).val + 2048 * (L 0).val + (y 0).val, hb⟩ : Fin 4096) := by
    apply Fin.ext
    show k0_off12 L 0 + 1 * (y 0).val = 128 * (L 1).val + 2048 * (L 0).val + (y 0).val
    rw [k0_off12_eq]
    show 128 * (L 1).val + 2048 * (L 0).val + 1 * (y 0).val = _
    omega
  have he1 : (oRowK L).view.emb y 1 = y 1 := by
    apply Fin.ext
    show k0_off12 L 1 + 1 * (y 1).val = (y 1).val
    rw [k0_off12_eq]
    show 0 + 1 * (y 1).val = _
    omega
  -- the index word the stream read for this row
  have hw : (SparseCore.rows ((offsK).view.read (Elt F) (View.write (Elt F) (iSlotK).view fs (pay0 fi d L) Finset.univ))
      (rfl : S128.numel = S128x128.size gathers_S1000x128_S128x128.axis') hin (y gathers_S1000x128_S128x128.axis')).val
      = (gRow fi d ((oRowK L).view.emb y 0)).val := by
    show ((offsK).view.read (Elt F) (View.write (Elt F) (iSlotK).view fs (pay0 fi d L) Finset.univ)
      (S128.rowMajor.symm ((y 0).cast rfl))).toNat = _
    rw [offs_read, pay0_apply]
    refine (congrArg (fun z : S1x4096.Idx => (fi d z).toNat) (word_idx L (y 0) rfl hb)).trans ?_
    rw [he0, gRow_val_of_pre fi hpre]
  show fx d ((xAllK).view.emb (gathers_S1000x128_S128x128.idx _ y)) = fx d (ix2 (gRow fi d ((oRowK L).view.emb y 0)) ((oRowK L).view.emb y 1))
  congr 1
  funext a
  apply Fin.ext
  match a with
  | ⟨0, h0⟩ =>
    show (![0, 0] : Fin 2 → ℕ) ⟨0, h0⟩ + 1 * (gathers_S1000x128_S128x128.idx _ y ⟨0, h0⟩).val = (gRow fi d ((oRowK L).view.emb y 0)).val
    rw [← hw]
    show 0 + 1 * _ = _
    rw [Nat.zero_add, Nat.one_mul]
    exact congrArg Fin.val (Shape.Gathers.idx_axis gathers_S1000x128_S128x128 _ y)
  | ⟨1, h1⟩ =>
    show (![0, 0] : Fin 2 → ℕ) ⟨1, h1⟩ + 1 * (gathers_S1000x128_S128x128.idx _ y ⟨1, h1⟩).val = ((oRowK L).view.emb y 1).val
    rw [he1]
    show 0 + 1 * _ = _
    rw [Nat.zero_add, Nat.one_mul]
    exact Shape.Gathers.idx_of_ne gathers_S1000x128_S128x128 _ y ⟨1, h1⟩ (Nat.succ_ne_zero 0)

/-- What the copy-out writes over the task's output rows: on those rows it is the gathered-rows function. -/
theorem out_value (hpre : PreOK fi) (hin) :
    ∀ i ∈ (oRowK L).view.set,
      (oRowK L).view.writes (Elt F) (fo d) [⟨Rect.whole S128x128,
        (rSlotK' L).view.read (Elt F) (View.write (Elt F) (rSlotK).view fr (payG fi fx d L fs hin) Finset.univ)⟩] i = gath fi fx d i := by
  intro i hi
  obtain ⟨y, -, rfl⟩ := Finset.mem_map.mp hi
  have hr := View.read_writes_cons_emb (oRowK L).view (fo d) (Rect.whole S128x128)
    ((rSlotK' L).view.read (Elt F) (View.write (Elt F) (rSlotK).view fr (payG fi fx d L fs hin) Finset.univ)) [] y
  rw [Rect.emb_whole_apply, View.read_apply] at hr
  have hr' := (cast_eq _ _).symm.trans hr
  rw [hr', rSlot_read d L, View.read_write_univ]
  exact payG_apply fi fx d L fs hpre hin y

end Cert.Kernel.Hand

end
-- ==== Proof.KB.ScTile.lean ====
/-
  One vector subcore's task of the gather kernel, at a symbolic grid point: it copies its 128 index words into its
  index scratch, gathers the table rows they name into its row scratch by the indirect stream, and copies those out
  to its 128 rows of the output array, one transfer at a time on each DMA semaphore. Carried with it: the rows it
  leaves are the gathered-rows function on its rows. Then the task as the launch theorem's obligation. Generic in
  the float instance.
-/
import proofs.«218874_g56547539419890_cont_9to1c4b_400_22_alg».proof.Proof.KB.ScValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

local notation "iV" => (Memref.whole Cert.Kernel.main_v0_scv : Memref Cert.Kernel.sig Kind.scVector Space.hbm Cert.Kernel.S1x4096 EltTy.i32)
local notation "xV" => (Memref.whole Cert.Kernel.main_arg1_scv : Memref Cert.Kernel.sig Kind.scVector Space.hbm Cert.Kernel.S1000x128 EltTy.f32)
local notation "oV" => (Memref.whole Cert.Kernel.main_v1_scv : Memref Cert.Kernel.sig Kind.scVector Space.hbm Cert.Kernel.S4096x128 EltTy.f32)
local notation "sV" => (Memref.whole Cert.Kernel.cc0_scoped0 : Memref Cert.Kernel.sig Kind.scVector Space.vmem Cert.Kernel.S2x1x128 EltTy.i32)
local notation "rV" => (Memref.whole Cert.Kernel.cc0_scoped2 : Memref Cert.Kernel.sig Kind.scVector Space.vmem Cert.Kernel.S2x128x128 EltTy.f32)

variable (fi : (d : Dev nD) → Buf (Elt F) (iLoc d)) (fx : (d : Dev nD) → Buf (Elt F) (xLoc d)) (fo : (d : Dev nD) → Buf (Elt F) (oLoc d))
variable [FloatOps F]

section Tile

variable (d : Dev nD) (L : grid0.Coords)

/-- The three DMA semaphores the task uses: of the index copy, of the gather, of the copy-out. -/
abbrev cAcell (d : Dev nD) (c : Fin τ.nSC) (i : Fin τ.nSub) : GSem nD τ sig := (V d c i, .dma (0 : DmaSem sig))
abbrev cBcell (d : Dev nD) (c : Fin τ.nSC) (i : Fin τ.nSub) : GSem nD τ sig := (V d c i, .dma (4 : DmaSem sig))
abbrev cCcell (d : Dev nD) (c : Fin τ.nSC) (i : Fin τ.nSub) : GSem nD τ sig := (V d c i, .dma (2 : DmaSem sig))

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma (0 : DmaSem sig) : SemLoc sig).isScoped .scVector = true; decide⟩),
    SparseCore.bigSep_erase' (Finset.mem_erase.mpr ⟨by simp [cAcell, cBcell], (mem_ownCells (g := cBcell d (cV L) (jV L))).mpr ⟨rfl, by
      show (SemLoc.dma (4 : DmaSem sig) : SemLoc sig).isScoped .scVector = true; decide⟩⟩),
    SparseCore.bigSep_erase' (Finset.mem_erase.mpr ⟨by simp [cBcell, cCcell], Finset.mem_erase.mpr ⟨by simp [cAcell, cCcell],
      (mem_ownCells (g := cCcell d (cV L) (jV L))).mpr ⟨rfl, by show (SemLoc.dma (2 : DmaSem sig) : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
theorem sem0_inb : ∀ a, (![0] : Fin 1 → ℕ) a + S1.size a ≤ S2.size a := by decide

set_option maxHeartbeats 4000000 in
/-- The task on vector subcore `(L 0, L 1)` of device `d`: the index copy and its wait, the indirect gather and its
    wait (its offsets in range by the precondition), the copy-out and its wait; the rows left are the gathered rows. -/
theorem tile_body (hF : (K (F := F)).Facts) (hpre : PreOK fi) (O : CellTallies nD τ sig (HIx 1)) (W : Waits sig (HIx 1)) (hO : ∀ g, O g none = 0) :
    iprop(levAts (K (F := F)).L (K (F := F)).lev ∗ emp
        ∗ (iTilePts fi d (cL L) (iL L) ∗ xTilePts fx d (cL L) (iL L) ∗ oTilePts d (cL L) (iL L) (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) cc0_scoped1 rV (Memref.isWhole_whole _) cc0_scoped3 cc0_scoped4)
          fun _ => iprop((iTilePts fi d (cL L) (iL L) ∗ xTilePts fx d (cL L) (iL L) ∗ oTilePts d (cL L) (iL L) (gath fi fx d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h1 := cond1_false L
  have h2 := cond2_true L
  have h5 := cond5_true L
  have h7 := cond7_false L
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iColK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  -- the stream's offsets are the index words the first copy lands, each below 1000
  have hin := hin_of (F := F) d L fs (pay0 fi d L) (pay0_lt fi d L hpre)
  sl_exec
  -- the last wait names its semaphore through an offset chain of the grid point: its closed form
  rw [SemArray.slice_unit_congr cc0_scoped3 (k0_off19_eq L) (k0_off19_inb L) sem0_inb]
  sl_exec
  sl_step
  -- the rows written are the gathered rows
  ihave Ho2 := (Entails.of_eq (pointsTo_congr (out_value fi fx fo d L fs fr hpre hin))) $$ Ho'
  isplitl [Hi' Hx' Ho2]
  · isplitl [Hi']; · iapply (Entails.of_eq (pts_iColK (F := F) d L _)); iexact Hi'
    isplitl [Hx']; · iexact Hx'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) cc0_scoped1 rV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of vector subcore `i` of SparseCore `c`, as the launch theorem asks for it. -/
theorem tileObl (hF : (K (F := F)).Facts) (hpre : PreOK fi) : (K (F := F)).TileObl (D (F := F)) 𝒱 (P fi fx fo) v₀ 0 := by
  intro d c i O W hO _ _
  simp only [show (P fi fx fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi fx fo d (coordsV ⟨_, hci.1⟩ ⟨_, hci.2⟩) hF hpre O W hO).trans (wp_mono frame _ _ fun _ => obl_post)

end Tile

end Cert.Kernel.Hand

end
-- ==== Proof.KB.HostVals.lean ====
/-
  What @main's host side holds, stage by stage, as values: the arguments keep their launch contents throughout; the
  index array is reshaped to one row for the gather; the gathered rows stand where the gather left them; the weights
  are reshaped into ten slabs and changed to the matmul's format; the bias is reshaped and transposed into columns;
  the program's result is the dense stage's output transposed. Also: under the precondition every word of the
  reshaped index array names a row of the table. Generic in the float instance.
-/
import proofs.«218874_g56547539419890_cont_9to1c4b_400_22_alg».proof.Proof.KB.Host
import proofs.«218874_g56547539419890_cont_9to1c4b_400_22_alg».proof.Proof.PreFacts

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## The valuations away from what each stretch writes -/

/-- The launch contents, read at a TensorCore reference. -/
theorem W0_apply (d : Dev nD) (b : Ref sig .tc) : W0 m d (Proc.devRef .tc b) = m ((d.tc : Thread nD τ).loc b) := rfl

/-- The first reshape writes the one-row index array only. -/
theorem W1_of_ne (d : Dev nD) {b : Ref sig .tc} (h : b ≠ main_v0) :
    W1 m d (Proc.devRef .tc b) = W0 m d (Proc.devRef .tc b) := by
  unfold W1 opA
  exact StableHlo.reshape_result_ne _ _ _ _ _ _ _ h

/-- The gather writes the gathered rows only. -/
theorem W2_of_ne (d : Dev nD) {b : Ref sig .tc} (h : b ≠ main_v1) :
    W2 m d (Proc.devRef .tc b) = W1 m d (Proc.devRef .tc b) :=
  Function.update_of_ne (StableHlo.devRef_ne_of_ne h) _ _

/-- An argument still holds its launch contents after the gather. -/
theorem W2_arg (d : Dev nD) {b : Ref sig .tc} (h0 : b ≠ main_v0) (h1 : b ≠ main_v1) :
    W2 m d (Proc.devRef .tc b) = m ((d.tc : Thread nD τ).loc b) :=
  (W2_of_ne m d h1).trans ((W1_of_ne m d h0).trans (W0_apply m d b))

/-! ## What the dense stage is entered with -/

theorem V6_arg0 (d : Dev nD) : V6 m d main_arg0 = m ((d.tc : Thread nD τ).loc main_arg0) := by
  dsimp only [V6, W6, opsB]
  after_results
  exact W2_arg m d (by decide) (by decide)

theorem V6_arg1 (d : Dev nD) : V6 m d main_arg1 = m ((d.tc : Thread nD τ).loc main_arg1) := by
  dsimp only [V6, W6, opsB]
  after_results
  exact W2_arg m d (by decide) (by decide)

theorem V6_arg2 (d : Dev nD) : V6 m d main_arg2 = m ((d.tc : Thread nD τ).loc main_arg2) := by
  dsimp only [V6, W6, opsB]
  after_results
  exact W2_arg m d (by decide) (by decide)

theorem V6_arg3 (d : Dev nD) : V6 m d main_arg3 = m ((d.tc : Thread nD τ).loc main_arg3) := by
  dsimp only [V6, W6, opsB]
  after_results
  exact W2_arg m d (by decide) (by decide)

/-- The gathered rows, as the gather left them. -/
theorem V6_v1 (d : Dev nD) : V6 m d main_v1 = gath (fi m) (fx m) d := by
  dsimp only [V6, W6, opsB]
  after_results
  exact Function.update_self _ _ _

/-- The weights: reshaped into ten slabs, then changed to the matmul's format. -/
theorem V6_v3 (d : Dev nD) :
    V6 m d main_v3
      = (truncf .bf16 (shapeCast S10x1000x128 (m ((d.tc : Thread nD τ).loc main_arg2)) shapeCasts_S10000x128_S10x1000x128)
          bitsLt_bf16_f32 : FVec F S10x1000x128 .bf16) := by
  dsimp only [V6, W6, opsB]
  after_results
  rw [W2_arg m d (by decide) (by decide)]
  rfl

/-- The bias: reshaped to [10,1000], then transposed into columns. -/
theorem V6_v5 (d : Dev nD) :
    V6 m d main_v5
      = (transpose S1000x10 [1, 0] (shapeCast S10x1000 (m ((d.tc : Thread nD τ).loc main_arg3)) shapeCasts_S10000_S10x1000)
          transposes_S10x1000_S1000x10_1_0 : FVec F S1000x10 .f32) := by
  dsimp only [V6, W6, opsB]
  after_results
  rw [W2_arg m d (by decide) (by decide)]
  rfl

/-! ## What the gather is entered with, and the program's result -/

/-- The index array as the gather finds it: the argument reshaped to one row. -/
theorem fi_eq (d : Dev nD) :
    fi m d = (shapeCast S1x4096 (m ((d.tc : Thread nD τ).loc main_arg0)) shapeCasts_S4096_S1x4096 : IVec S1x4096 32) := by
  unfold fi W1 opA
  rw [StableHlo.reshape_result]
  rfl

/-- The table as the gather finds it: the argument. -/
theorem fx_eq (d : Dev nD) : fx m d = m ((d.tc : Thread nD τ).loc main_arg1) :=
  (W1_of_ne m d (by decide)).trans (W0_apply m d main_arg1)

/-- The program's result: the dense stage's output array, transposed (2,0,1). -/
theorem res_eq (d : Dev nD) :
    res m d = (transpose S4096x10x1000 [2, 0, 1] (out6 m d) transposes_S10x1000x4096_S4096x10x1000_2_0_1 :
      FVec F S4096x10x1000 .f32) := by
  unfold res W8 opZ
  rw [StableHlo.unary_result]
  unfold W7
  rw [Function.update_self]

/-! ## The precondition, at the gather -/

/-- Under the precondition every word of the one-row index array, read as a natural number, names a row of the
    table. -/
theorem preOK_of_pre
    (h : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) = (fun _ => 1#1)) :
    PreOK (fi m) := by
  intro d j
  rw [fi_eq]
  unfold shapeCast
  exact Cert.Spec.PreFacts.index_lt _ _ _ _ (h d) _

end Cert.Kernel.Hand

end
-- ==== Proof.KB.Run.lean ====
/-
  The program's run, read at the memory: from any launch memory with zero counters of which the gather's
  precondition holds, every weakly fair execution of the whole family of threads terminates, and the final memory
  has the result array at the value the host side's valuations name and the four argument arrays as launched.
  What each TensorCore ends holding is five whole buffers; held beside the state interpretation, each is what the
  physical memory has at its location.
-/
import proofs.«218874_g56547539419890_cont_9to1c4b_400_22_alg».proof.Proof.KB.Main
import proofs.«218874_g56547539419890_cont_9to1c4b_400_22_alg».proof.Proof.KB.ScTile
import proofs.«218874_g56547539419890_cont_9to1c4b_400_22_alg».proof.Proof.KB.HostVals

noncomputable section

namespace Cert.Kernel.Hand

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-- What a final physical state has on device `d`: the result at its value, the four arguments as launched. -/
def fq (d : Dev nD) (s' : Phys nD τ sig (Elt F)) : Prop :=
  s'.mem.mem ((d.tc : Thread nD τ).loc main_v7) = res m d
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)

set_option maxRecDepth 16384 in
/-- The five whole buffers a TensorCore ends holding agree with the physical memory, each at its location; the
    arguments' contents, which no host operation writes, are the launch memory's. -/
theorem hfin (d : Dev nD) (s' : Phys nD τ sig (Elt F)) : iprop(FIN m d ∗ SI s') ⊢ (⌜fq m d s'⌝ : sProp 𝕄) := by
  unfold FIN
  rw [V6_arg0, V6_arg1, V6_arg2, V6_arg3]
  iintro ⟨⟨H0, H1, H2, H3, H7⟩, HSI⟩
  ihave H := (persistent_entails_right (SI_pointsTo_agree (st := s') (ℓ := ((d.tc : Thread nD τ).loc main_arg0)) (I := Finset.univ) (q := fullShare) (f := m ((d.tc : Thread nD τ).loc main_arg0)))) $$ [HSI H0]
  · isplitl [HSI] <;> iassumption
  icases H with ⟨%h0, HSI, -⟩
  ihave H := (persistent_entails_right (SI_pointsTo_agree (st := s') (ℓ := ((d.tc : Thread nD τ).loc main_arg1)) (I := Finset.univ) (q := fullShare) (f := m ((d.tc : Thread nD τ).loc main_arg1)))) $$ [HSI H1]
  · isplitl [HSI] <;> iassumption
  icases H with ⟨%h1, HSI, -⟩
  ihave H := (persistent_entails_right (SI_pointsTo_agree (st := s') (ℓ := ((d.tc : Thread nD τ).loc main_arg2)) (I := Finset.univ) (q := fullShare) (f := m ((d.tc : Thread nD τ).loc main_arg2)))) $$ [HSI H2]
  · isplitl [HSI] <;> iassumption
  icases H with ⟨%h2, HSI, -⟩
  ihave H := (persistent_entails_right (SI_pointsTo_agree (st := s') (ℓ := ((d.tc : Thread nD τ).loc main_arg3)) (I := Finset.univ) (q := fullShare) (f := m ((d.tc : Thread nD τ).loc main_arg3)))) $$ [HSI H3]
  · isplitl [HSI] <;> iassumption
  icases H with ⟨%h3, HSI, -⟩
  ihave H := (SI_pointsTo_agree (st := s') (ℓ := ((d.tc : Thread nD τ).loc main_v7)) (I := Finset.univ) (q := fullShare) (f := res m d)) $$ [HSI H7]
  · isplitl [HSI] <;> iassumption
  icases H with %h7
  ipureintro
  exact ⟨funext fun i => h7 i (Finset.mem_univ i), funext fun i => h0 i (Finset.mem_univ i),
    funext fun i => h1 i (Finset.mem_univ i), funext fun i => h2 i (Finset.mem_univ i),
    funext fun i => h3 i (Finset.mem_univ i)⟩

/-! ## The program's run -/

/-- What the run ends in, on every device: the result at its value, the four arguments as launched. -/
def QC : PUnit × MemSt nD τ sig (Elt F) → Prop := fun r => ∀ c : Dev nD,
  r.2.mem ((c.tc : Thread nD τ).loc main_v7) = res m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- The run of the whole family of threads, by the launch theorem: the tile obligation and the splits of the gather,
    the launch element, @main on each TensorCore, and the reading of what each TensorCore ends holding. -/
theorem run_main [∀ e, Nonempty (Elt F e)] (hpre : PreOK (fi m)) :
    θ_run (defs (F := F)) (threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (fi m) (fx m) (fo m) facts hpre)
    (fun q _ => match q with | 0 => SparseCore.Cfg.VecSplit.of_plain (vecSplit (fi m) (fx m) (fo m)))
    m ρ main (GG (F := F)) (FIN m) (u₀ (F := F)) (sep_elim_left.trans (hu₀ (PP m) (fun _ _ => rfl))) (hmain m ρ) (fq m) (hfin m)
    (QC m) (fun _ h => h)

end Cert.Kernel.Hand

end
-- ==== Proof.RefRun.lean ====
/- The reference's run: @main as the list of its host operations (the gather helper's and the select helper's
   operations listed inline at their call sites, over the call's buffer records), the composed pure term of the
   result, and the statement that every weakly fair execution ends with the result buffer at that term and the
   arguments unchanged. -/
import proofs.«218874_g56547539419890_cont_9to1c4b_400_22_alg».proof.ReferenceIdeal
import proofs.«218874_g56547539419890_cont_9to1c4b_400_22_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's forty-three operations, in order: the row gather helper's twenty-three (the index's sign test, the
    index plus the table height, the select helper's one select between them, the index as a column, the two
    range tests against 0 and 999 and their conjunction reduced along the column, the gather, the mask broadcast
    along the row, the fill value and its broadcast, the select between gathered row and fill), then the
    transpose of the weights, the contraction, the bias broadcast and added, the reshape, and the softmax: the
    maximum along the last axis, the subtraction, the exponential, the sum along the last axis, the quotient. -/
abbrev ops : List (HloOp τ sig (Elt F)) :=
  [ TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 1000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S1000x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select,
    unary main_arg2 main_v1 ((transpose S128x10000 [1, 0] · transposes_S10000x128_S128x10000_1_0) : (⟨S10000x128, .f32⟩ : BufTy).Contents (Elt F) → (⟨S128x10000, .f32⟩ : BufTy).Contents (Elt F)),
    binary main_v0 main_v1 main_v2 ((fun l r => Host.dotGeneral dot_S4096x128_S128x10000_S4096x10000_1_0_0_1_n_n none l r) : (⟨S4096x128, .f32⟩ : BufTy).Contents (Elt F) → (⟨S128x10000, .f32⟩ : BufTy).Contents (Elt F) → (⟨S4096x10000, .f32⟩ : BufTy).Contents (Elt F)),
    unary main_arg3 main_v3 (broadcastInDim S1x10000 ![1] bcast_S10000_S1x10000_1 : (⟨S10000, .f32⟩ : BufTy).Contents (Elt F) → (⟨S1x10000, .f32⟩ : BufTy).Contents (Elt F)),
    unary main_v3 main_v4 (broadcastInDim S4096x10000 ![0, 1] bcast_S1x10000_S4096x10000_0_1 : (⟨S1x10000, .f32⟩ : BufTy).Contents (Elt F) → (⟨S4096x10000, .f32⟩ : BufTy).Contents (Elt F)),
    binary main_v2 main_v4 main_v5 (addf : (⟨S4096x10000, .f32⟩ : BufTy).Contents (Elt F) → (⟨S4096x10000, .f32⟩ : BufTy).Contents (Elt F) → (⟨S4096x10000, .f32⟩ : BufTy).Contents (Elt F)),
    reshape main_v5 main_v6 rfl shapeCasts_S4096x10000_S4096x10x1000,
    nullary main_cst (constant S_ .f32 0xFF800000#32),
    binary main_v6 main_cst main_v7 ((fun x v => Host.reduce FloatOps.maximumf x v reducesTo_S4096x10x1000_S4096x10_d2 h_S_) : (⟨S4096x10x1000, .f32⟩ : BufTy).Contents (Elt F) → (⟨S_, .f32⟩ : BufTy).Contents (Elt F) → (⟨S4096x10, .f32⟩ : BufTy).Contents (Elt F)),
    nullary main_cst_0 (constant S_ .f32 0xFF800000#32),
    unary main_cst_0 main_v8 (broadcastInDim S4096x10 ![] bcast_S_S4096x10 : (⟨S_, .f32⟩ : BufTy).Contents (Elt F) → (⟨S4096x10, .f32⟩ : BufTy).Contents (Elt F)),
    binary main_v8 main_v7 main_v9 (maximumf : (⟨S4096x10, .f32⟩ : BufTy).Contents (Elt F) → (⟨S4096x10, .f32⟩ : BufTy).Contents (Elt F) → (⟨S4096x10, .f32⟩ : BufTy).Contents (Elt F)),
    unary main_v9 main_v10 (broadcastInDim S4096x10x1 ![0, 1] bcast_S4096x10_S4096x10x1_0_1 : (⟨S4096x10, .f32⟩ : BufTy).Contents (Elt F) → (⟨S4096x10x1, .f32⟩ : BufTy).Contents (Elt F)),
    unary main_v10 main_v11 (broadcastInDim S4096x10x1000 ![0, 1, 2] bcast_S4096x10x1_S4096x10x1000_0_1_2 : (⟨S4096x10x1, .f32⟩ : BufTy).Contents (Elt F) → (⟨S4096x10x1000, .f32⟩ : BufTy).Contents (Elt F)),
    binary main_v6 main_v11 main_v12 (subf : (⟨S4096x10x1000, .f32⟩ : BufTy).Contents (Elt F) → (⟨S4096x10x1000, .f32⟩ : BufTy).Contents (Elt F) → (⟨S4096x10x1000, .f32⟩ : BufTy).Contents (Elt F)),
    unary main_v12 main_v13 (Host.exp : (⟨S4096x10x1000, .f32⟩ : BufTy).Contents (Elt F) → (⟨S4096x10x1000, .f32⟩ : BufTy).Contents (Elt F)),
    nullary main_cst_1 (constant S_ .f32 0x00000000#32),
    binary main_v13 main_cst_1 main_v14 ((fun x v => Host.reduceAdd x v reducesTo_S4096x10x1000_S4096x10_d2 h_S_) : (⟨S4096x10x1000, .f32⟩ : BufTy).Contents (Elt F) → (⟨S_, .f32⟩ : BufTy).Contents (Elt F) → (⟨S4096x10, .f32⟩ : BufTy).Contents (Elt F)),
    unary main_v14 main_v15 (broadcastInDim S4096x10x1 ![0, 1] bcast_S4096x10_S4096x10x1_0_1 : (⟨S4096x10, .f32⟩ : BufTy).Contents (Elt F) → (⟨S4096x10x1, .f32⟩ : BufTy).Contents (Elt F)),
    unary main_v15 main_v16 (broadcastInDim S4096x10x1000 ![0, 1, 2] bcast_S4096x10x1_S4096x10x1000_0_1_2 : (⟨S4096x10x1, .f32⟩ : BufTy).Contents (Elt F) → (⟨S4096x10x1000, .f32⟩ : BufTy).Contents (Elt F)),
    binary main_v13 main_v16 main_v17 (Host.divf : (⟨S4096x10x1000, .f32⟩ : BufTy).Contents (Elt F) → (⟨S4096x10x1000, .f32⟩ : BufTy).Contents (Elt F) → (⟨S4096x10x1000, .f32⟩ : BufTy).Contents (Elt F)) ]

-- forty-three binds re-associated: the rewrite under the chain recurses once per statement
set_option maxRecDepth 1024 in
/-- @main is that straight line: the two helpers' definitions unfolded at their calls and the call records at
    their fields, both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., unary_bufs_sub .., unary_bufs_sub .., binary_bufs_sub .., reshape_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

/-! ## The result's term, stage by stage -/

/-- The index array as the gather reads it: each index, replaced by itself plus the table's height 1000 where it
    is negative as a signed word, written as a column. -/
def refIdx (X : IVec S4096 32) : IVec S4096x1 32 :=
  broadcastInDim S4096x1 ![0] bcast_S4096_S4096x1_0
    (select (cmpi .slt X (broadcastInDim S4096 ![] bcast_S_S4096 (constantI S_ 32 0#32)))
      (addi X (broadcastInDim S4096 ![] bcast_S_S4096 (constantI S_ 32 1000#32))) X)

/-- Per row, whether that index lies in the table: at least 0 and at most 999 as signed words, the conjunction
    taken along the column's one entry. -/
def refInRange (X : IVec S4096 32) : IVec S4096 1 :=
  Host.reduce IntOp.andi
    (andi (cmpi .sge (refIdx X) (broadcastInDim S4096x1 ![] bcast_S_S4096x1 (constantI S_ 32 0#32)))
      (cmpi .sle (refIdx X) (broadcastInDim S4096x1 ![0, 1] bcast_S1x1_S4096x1_0_1
        (broadcastInDim S1x1 ![1] bcast_S1_S1x1_1 (constantI S1 32 999#32)))))
    (constantI S_ 1 1#1) reducesTo_S4096x1_S4096_d1 h_S_

/-- The gathered rows: row j is the table's row at index j where that index lies in the table, and the fill
    value (a quiet not-a-number) everywhere on the row where it does not. -/
def refEmb (X : IVec S4096 32) (E : FVec F S1000x128 .f32) : FVec F S4096x128 .f32 :=
  select (broadcastInDim S4096x128 ![0] bcast_S4096_S4096x128_0 (refInRange X))
    (Host.gather gather_S1000x128_S4096x1_S4096x128_1_0_n_n_0_1_1128 E (refIdx X))
    (broadcastInDim S4096x128 ![] bcast_S_S4096x128 (constant S_ .f32 0x7FC00000#32))

/-- The logits: the gathered rows contracted with the transposed weights, the bias added along the rows, read
    at the shape [4096, 10, 1000]. -/
def refLogits (X : IVec S4096 32) (E : FVec F S1000x128 .f32) (W : FVec F S10000x128 .f32) (b : FVec F S10000 .f32) :
    FVec F S4096x10x1000 .f32 :=
  shapeCast _ (addf
      (Host.dotGeneral dot_S4096x128_S128x10000_S4096x10000_1_0_0_1_n_n none (refEmb X E) (transpose S128x10000 [1, 0] W transposes_S10000x128_S128x10000_1_0))
      (broadcastInDim S4096x10000 ![0, 1] bcast_S1x10000_S4096x10000_0_1 (broadcastInDim S1x10000 ![1] bcast_S10000_S1x10000_1 b)))
    shapeCasts_S4096x10000_S4096x10x1000

/-- The maximum along the last axis, folded from minus infinity, and once more joined with minus infinity. -/
def refMax (l : FVec F S4096x10x1000 .f32) : FVec F S4096x10 .f32 :=
  maximumf (broadcastInDim S4096x10 ![] bcast_S_S4096x10 (constant S_ .f32 0xFF800000#32))
    (Host.reduce FloatOps.maximumf l (constant S_ .f32 0xFF800000#32) reducesTo_S4096x10x1000_S4096x10_d2 h_S_)

/-- The exponential of each entry less its row's maximum. -/
def refExp (l : FVec F S4096x10x1000 .f32) : FVec F S4096x10x1000 .f32 :=
  Host.exp (subf l (broadcastInDim S4096x10x1000 ![0, 1, 2] bcast_S4096x10x1_S4096x10x1000_0_1_2
    (broadcastInDim S4096x10x1 ![0, 1] bcast_S4096x10_S4096x10x1_0_1 (refMax l))))

/-- The softmax along the last axis: each exponential over the sum of its row's exponentials. -/
def refSoftmax (l : FVec F S4096x10x1000 .f32) : FVec F S4096x10x1000 .f32 :=
  Host.divf (refExp l) (broadcastInDim S4096x10x1000 ![0, 1, 2] bcast_S4096x10x1_S4096x10x1000_0_1_2
    (broadcastInDim S4096x10x1 ![0, 1] bcast_S4096x10_S4096x10x1_0_1
      (Host.reduceAdd (refExp l) (constant S_ .f32 0x00000000#32) reducesTo_S4096x10x1000_S4096x10_d2 h_S_)))

/-- The operations' composed term of the four arguments: the softmax of the logits. -/
def refTerm (X : IVec S4096 32) (E : FVec F S1000x128 .f32) (W : FVec F S10000x128 .f32) (b : FVec F S10000 .f32) :
    FVec F S4096x10x1000 .f32 :=
  refSoftmax (refLogits X E W b)

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread Cert.ReferenceIdeal.nD Cert.ReferenceIdeal.τ).loc Cert.ReferenceIdeal.main_v17) = refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v17).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.LibTakeRows.lean ====
/-
  Rows taken from an array along its first axis at an array of integer indices, and rows added into an array
  along its first axis at an array of integer indices, each read at one element.

  An array of `N` rows (of `C` entries each, or of single entries) is indexed by a column of `E` integer words.
  TAKING rows (a gather along axis 0) produces `E` rows: row `e` of the result is the row of the operand whose
  number is word `e` read as a signed integer and clamped into `[0, N − 1]`. ADDING rows (an accumulating scatter
  along axis 0) produces `N` rows: row `n` of the result is row `n` of the operand plus the sum of those update
  rows `e` whose word, read as a signed integer and not clamped, is exactly `n`; an update whose word is
  negative or at least `N` is added nowhere. The sum is the exact finite sum in the extended reals.

  The lemmas below state these two readings for the dimension numbers with which the two operations appear when
  the indices have shape `[E, 1]`, for operands of rank 2 (`[N, C]`, whole rows move) and of rank 1 (`[N]`, single
  entries move), generic in `N`, `E`, `C` and in the width of the index words. Last come two facts about words:
  the clamped row of a word whose signed value is a row number is that row, and the usual normalisation of a
  possibly negative index, "add `k` where the word is negative", leaves a non-negative word alone.
-/
import Idealize.ShloMosaic.PureOps.Ideal
import Idealize.ShloMosaic.Lib.ValueIdx

noncomputable section

open scoped BigOperators

namespace Cert.TakeRows

open Idealize.ShloMosaic Idealize.ShloMosaic.ValueIdx

/-! ## The clamped row of an index word -/

/-- The row of an `N`-row array that an index word selects when rows are taken: the word's signed value, with
    negative values raised to `0` and values above `N − 1` lowered to `N − 1`. -/
def clampRow (N : Nat) (hN : 0 < N) {w : Nat} (v : BitVec w) : Fin N := ⟨min v.toInt.toNat (N - 1), by omega⟩

/-- A word whose signed value is the row number `n` selects row `n`: clamping changes nothing inside the array. -/
theorem clampRow_of_toInt_eq {N w : Nat} (hN : 0 < N) (v : BitVec w) (n : Fin N) (h : v.toInt = (n.val : Int)) :
    clampRow N hN v = n := by
  apply Fin.ext
  have := n.isLt
  simp only [clampRow, h, Int.toNat_natCast]
  omega

/-! ## Taking rows: a gather along axis 0 at indices of shape `[E, 1]` -/

section Gather
variable {α : Type}

/-- The dimension numbers of taking whole rows of an `[N, C]` operand at indices `[E, 1]`, result `[E, C]`: the
    result's axis 1 is the offset axis, the operand's axis 0 is collapsed and is the one the index names, the index
    vector lies along the indices' axis 1, and a slice is one row (`1 × C`). Their conditions `wf` are decided on
    literal sizes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- TAKING ROWS, READ AT `(e, q)`: entry `q` of result row `e` is entry `q` of the operand's row selected by index
    word `e`, read signed and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e (0 : Fin 1)))) q) := by
  unfold Host.gather
  congr 1
  funext a
  refine Fin.ext ?_
  match a with
  | ⟨0, _⟩ =>
    -- axis 0: the clamped start, no batching coordinate, no offset (the axis is collapsed)
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: the index does not name it (start 0), no batching coordinate, the offset is the result's coordinate
    show (rowsDims N E C wf).start (ix2 e q) idx 1 + (rowsDims N E C wf).batchCoord (ix2 e q) 1
      + (rowsDims N E C wf).offCoord (ix2 e q) 1 = _
    rw [GatherDims.batchCoord_eq_zero _ _ _ List.not_mem_nil]
    unfold GatherDims.start
    rw [dif_neg (show (1 : Fin 2) ∉ (rowsDims N E C wf).startIndexMap from
      fun h => Nat.one_ne_zero (congrArg Fin.val (List.mem_singleton.mp h)))]
    simp only [Nat.add_zero, Nat.zero_add]
    rfl

/-- The dimension numbers of taking single entries of an `[N]` operand at indices `[E, 1]`, result `[E]`: no
    offset axis, the operand's one axis is collapsed and is the one the index names, the index vector lies along
    the indices' axis 1, and a slice is one entry. Their conditions `wf` are decided on literal sizes. -/
abbrev elemsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- TAKING ENTRIES, READ AT `e`: result entry `e` is the operand's entry selected by index word `e`, read signed
    and clamped into `[0, N − 1]`. -/
theorem gather_elems_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemsDims N E wf) x idx (ix1 e) = x (ix1 (clampRow N hN (idx (ix2 e (0 : Fin 1))))) := by
  unfold Host.gather
  congr 1
  funext a
  obtain rfl : a = 0 := Subsingleton.elim _ _
  refine Fin.ext ?_
  show (elemsDims N E wf).start (ix1 e) idx 0 + (elemsDims N E wf).batchCoord (ix1 e) 0
    + (elemsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N E wf).startIndexMap from List.mem_singleton.mpr rfl)]
  have hsi : (elemsDims N E wf).siIdx (ix1 e) ⟨List.idxOf (0 : Fin 1) (elemsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where an update lands, for any scatter dimension numbers -/

/-- An update index `j` lands on the operand index `i` exactly when, on every operand axis, the signed start plus
    the window coordinate is `i`'s coordinate (in particular it is then inside the operand on every axis). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      cases h
      intro a
      have := hh a
      simp only
      omega
    · cases h
  · intro h
    have hh : ∀ a, 0 ≤ d.start j idx a + (d.window j a : Int) ∧ d.start j idx a + (d.window j a : Int) < s.size a :=
      fun a => by
        rw [h a]
        exact ⟨Int.natCast_nonneg _, by exact_mod_cast (i a).isLt⟩
    rw [dif_pos hh]
    congr 1
    funext a
    apply Fin.ext
    simp only [h a, Int.toNat_natCast]

/-! ## Adding rows: an accumulating scatter along axis 0 at indices of shape `[E, 1]`, operand `[N, C]` -/

/-- The dimension numbers of adding whole rows `[E, C]` into an `[N, C]` operand at indices `[E, 1]`: the updates'
    axis 1 is the window axis, the operand's axis 0 is inserted and is the one the index names, and the index
    vector lies along the indices' axis 1. Their conditions `wf` are decided on literal sizes. -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section AddRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (q' : Fin C)

/-- On the operand's axis 0 the update `(e, q')` starts at index word `e`, read signed. -/
theorem addRows_start0 :
    (addRowsDims N E C wf).start (ix2 e q') idx 0 = (idx (ix2 e (0 : Fin 1))).toInt := by
  unfold ScatterDims.start
  rw [dif_pos (show (0 : Fin 2) ∈ (addRowsDims N E C wf).scatterDimsToOperandDims from List.mem_singleton.mpr rfl)]
  have hsi : (addRowsDims N E C wf).siIdx (ix2 e q') ⟨List.idxOf (0 : Fin 2) (addRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the index does not name, every update starts at `0`. -/
theorem addRows_start1 : (addRowsDims N E C wf).start (ix2 e q') idx 1 = 0 := by
  unfold ScatterDims.start
  rw [dif_neg (show (1 : Fin 2) ∉ (addRowsDims N E C wf).scatterDimsToOperandDims from
    fun h => Nat.one_ne_zero (congrArg Fin.val (List.mem_singleton.mp h)))]

/-- The operand's axis 0 is inserted: the window coordinate on it is `0`. -/
theorem addRows_window0 : (addRowsDims N E C wf).window (ix2 e q') 0 = 0 := rfl

/-- The operand's axis 1 receives the updates' axis 1: the window coordinate on it is `q'`. -/
theorem addRows_window1 : (addRowsDims N E C wf).window (ix2 e q') 1 = q'.val := rfl

/-- The update `(e, q')` lands on `(n, q)` exactly when index word `e`, read signed, is `n` and `q' = q`. -/
theorem addRows_resultIdx?_iff (n : Fin N) (q : Fin C) :
    (addRowsDims N E C wf).resultIdx? (ix2 e q') idx = some (ix2 n q) ↔
      (idx (ix2 e (0 : Fin 1))).toInt = (n.val : Int) ∧ q' = q := by
  rw [resultIdx?_eq_some_iff]
  constructor
  · intro h
    have h0 : (addRowsDims N E C wf).start (ix2 e q') idx 0
        + ((addRowsDims N E C wf).window (ix2 e q') 0 : Int) = (n.val : Int) := h 0
    have h1 : (addRowsDims N E C wf).start (ix2 e q') idx 1
        + ((addRowsDims N E C wf).window (ix2 e q') 1 : Int) = (q.val : Int) := h 1
    rw [addRows_start0, addRows_window0] at h0
    rw [addRows_start1, addRows_window1] at h1
    refine ⟨by simpa using h0, Fin.ext ?_⟩
    have : ((q'.val : Int)) = (q.val : Int) := by simpa using h1
    exact_mod_cast this
  · rintro ⟨h0, rfl⟩ a
    match a with
    | ⟨0, _⟩ =>
      show (addRowsDims N E C wf).start (ix2 e q') idx 0 + ((addRowsDims N E C wf).window (ix2 e q') 0 : Int) = _
      rw [addRows_start0, addRows_window0, h0]; simp
    | ⟨1, _⟩ =>
      show (addRowsDims N E C wf).start (ix2 e q') idx 1 + ((addRowsDims N E C wf).window (ix2 e q') 1 : Int) = _
      rw [addRows_start1, addRows_window1]; simp

end AddRows

/-- ADDING ROWS, READ AT `(n, q)`: entry `q` of result row `n` is the operand's entry plus the sum, over the update
    rows `e` whose index word read signed is exactly `n`, of entry `q` of update row `e`. The sum over the updates
    landing on `(n, q)` is re-indexed by `e ↦ (e, q)`: an update `(e, q')` lands on `(n, q)` exactly when its word is
    `n` and `q' = q`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (addRowsDims N E C wf) x idx upd (ix2 n q) =
      x (ix2 n q) + ∑ e ∈ Finset.univ.filter (fun e : Fin E => (idx (ix2 e (0 : Fin 1))).toInt = (n.val : Int)),
        upd (ix2 e q) := by
  unfold Ideal.hostScatterAdd
  congr 1
  rw [Finset.sum_filter, sum_idx2, Finset.sum_filter]
  refine Finset.sum_congr rfl fun e _ => ?_
  simp only [addRows_resultIdx?_iff]
  by_cases h : (idx (ix2 e (0 : Fin 1))).toInt = (n.val : Int)
  · simp [h]
  · simp [h]

/-! ## Adding entries: the same scatter with operand `[N]` and updates `[E]` -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of adding single entries `[E]` into an `[N]` operand at indices `[E, 1]`: no window
    axis, the operand's one axis is inserted and is the one the index names, and the index vector lies along the
    indices' axis 1. Their conditions `wf` are decided on literal sizes. -/
abbrev addElemsDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section AddElems
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the update `e` starts at index word `e`, read signed. -/
theorem addElems_start0 :
    (addElemsDims N E wf).start (ix1 e) idx 0 = (idx (ix2 e (0 : Fin 1))).toInt := by
  unfold ScatterDims.start
  rw [dif_pos (show (0 : Fin 1) ∈ (addElemsDims N E wf).scatterDimsToOperandDims from List.mem_singleton.mpr rfl)]
  have hsi : (addElemsDims N E wf).siIdx (ix1 e) ⟨List.idxOf (0 : Fin 1) (addElemsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem addElems_window0 : (addElemsDims N E wf).window (ix1 e) 0 = 0 := rfl

/-- The update `e` lands on `n` exactly when index word `e`, read signed, is `n`. -/
theorem addElems_resultIdx?_iff (n : Fin N) :
    (addElemsDims N E wf).resultIdx? (ix1 e) idx = some (ix1 n) ↔
      (idx (ix2 e (0 : Fin 1))).toInt = (n.val : Int) := by
  rw [resultIdx?_eq_some_iff]
  constructor
  · intro h
    have h0 : (addElemsDims N E wf).start (ix1 e) idx 0
        + ((addElemsDims N E wf).window (ix1 e) 0 : Int) = (n.val : Int) := h 0
    rw [addElems_start0, addElems_window0] at h0
    simpa using h0
  · intro h0 a
    obtain rfl : a = 0 := Subsingleton.elim _ _
    show (addElemsDims N E wf).start (ix1 e) idx 0
        + ((addElemsDims N E wf).window (ix1 e) 0 : Int) = (n.val : Int)
    rw [addElems_start0, addElems_window0, h0]
    simp

end AddElems

/-- ADDING ENTRIES, READ AT `n`: result entry `n` is the operand's entry plus the sum of the update entries `e`
    whose index word read signed is exactly `n`. -/
theorem scatterAdd_elems_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (addElemsDims N E wf) x idx upd (ix1 n) =
      x (ix1 n) + ∑ e ∈ Finset.univ.filter (fun e : Fin E => (idx (ix2 e (0 : Fin 1))).toInt = (n.val : Int)),
        upd (ix1 e) := by
  unfold Ideal.hostScatterAdd
  congr 1
  rw [Finset.sum_filter, sum_idx1, Finset.sum_filter]
  refine Finset.sum_congr rfl fun e _ => ?_
  simp only [addElems_resultIdx?_iff]

/-! ## Words: normalising a possibly negative index -/

/-- A signed comparison of integer vectors at an index compares the elements. -/
theorem cmpi_apply {s : Shape} {w : Nat} (p : CmpIPredicate) (x y : IVec s w) (i : s.Idx) :
    cmpi p x y i = IntOp.cmpi p (x i) (y i) := rfl

/-- A sum of integer vectors at an index is the (wrapping) sum of the elements. -/
theorem addi_apply {s : Shape} {w : Nat} (x y : IVec s w) (i : s.Idx) : addi x y i = IntOp.addi (x i) (y i) := rfl

/-- "If the word is negative add `k`, else keep it" keeps a word whose signed value is not negative. -/
theorem wrap_of_nonneg (v k : BitVec 32) (h : 0 ≤ v.toInt) :
    Scalar.select (IntOp.cmpi .slt v 0#32) (IntOp.addi v k) v = v := by
  have hs : v.slt 0#32 = false := by
    simp only [BitVec.slt, BitVec.toInt_zero, decide_eq_false_iff_not, Int.not_lt]
    exact h
  simp only [Scalar.select, IntOp.cmpi, hs]
  rfl

/-- "If the word is negative add `k`, else keep it" adds `k` (wrapping) to a word whose signed value is negative. -/
theorem wrap_of_neg (v k : BitVec 32) (h : v.toInt < 0) :
    Scalar.select (IntOp.cmpi .slt v 0#32) (IntOp.addi v k) v = v + k := by
  have hs : v.slt 0#32 = true := by
    simp only [BitVec.slt, BitVec.toInt_zero, decide_eq_true_eq]
    exact h
  simp only [Scalar.select, IntOp.cmpi, hs]
  rfl

/-- The same on vectors, at one index: where the compared-against vector `z` reads `0` and the word of `x` is not
    negative, the normalised vector reads the word of `x`. -/
theorem wrap_apply_of_nonneg {s : Shape} (x z k : IVec s 32) (i : s.Idx) (hz : z i = 0#32) (h : 0 ≤ (x i).toInt) :
    select (cmpi .slt x z) (addi x k) x i = x i := by
  show Scalar.select (IntOp.cmpi .slt (x i) (z i)) (IntOp.addi (x i) (k i)) (x i) = x i
  rw [hz]
  exact wrap_of_nonneg _ _ h

end Cert.TakeRows

end
-- ==== Proof.Spec.lean ====
/-
  The specification: the value both programs compute, as one function of the four argument arrays, index by index,
  over literal shapes.

  For a batch row j, a prediction p and a vocabulary entry v the LOGIT is
      logit j p v = (Σ_d W[p·1000 + v, d] · E[X[j], d]) + b[p·1000 + v]
  and the result at [j, p, v] is the softmax over v of the logits, written in the form
      exp(logit j p v) · (1 / Σ_v' exp(logit j p v')).
  `Mid` is the same formula over three already re-laid operand arrays (the gathered rows [4096,128], the weight
  slabs [10,1000,128], the bias columns [1000,10]), laid out [p, v, j].
-/
import Idealize.ShloMosaic.PureOps.Ideal
import Idealize.ShloMosaic.Lib.ValueIdx

noncomputable section

open scoped BigOperators

namespace Cert.Spec

open Idealize.ShloMosaic Idealize.ShloMosaic.ValueIdx

/-! ## Literal shapes -/

abbrev SX : Shape := ⟨1, ![4096]⟩
abbrev SE : Shape := ⟨2, ![1000, 128]⟩
abbrev SW : Shape := ⟨2, ![10000, 128]⟩
abbrev Sb : Shape := ⟨1, ![10000]⟩
abbrev SA : Shape := ⟨2, ![4096, 128]⟩
abbrev SWr : Shape := ⟨3, ![10, 1000, 128]⟩
abbrev SBc : Shape := ⟨2, ![1000, 10]⟩
abbrev SMid : Shape := ⟨3, ![10, 1000, 4096]⟩
abbrev SOut : Shape := ⟨3, ![4096, 10, 1000]⟩

/-- The f32 word of 1.0, as the extended real it denotes (the numerator of the kernel's reciprocal). -/
abbrev one32 : EReal := Ideal.ofBits .f32 0x3F800000#32

/-! ## Index arithmetic -/

/-- Row p·1000 + v of the [10000, …] weight and bias arrays: prediction p's slab, vocabulary entry v. -/
def flat (p : Fin 10) (v : Fin 1000) : Fin 10000 := ⟨p.val * 1000 + v.val, by omega⟩

@[simp] theorem flat_val (p : Fin 10) (v : Fin 1000) : (flat p v).val = p.val * 1000 + v.val := rfl

/-- The table row batch element j selects: the word X[j] read as a natural number, reduced mod 1000 (total; equal to
    X[j] itself when 0 ≤ X[j] ≤ 999). -/
def row (X : IVec SX 32) (j : Fin 4096) : Fin 1000 := ⟨(X (ix1 j)).toNat % 1000, Nat.mod_lt _ (by decide)⟩

@[simp] theorem row_val (X : IVec SX 32) (j : Fin 4096) : (row X j).val = (X (ix1 j)).toNat % 1000 := rfl

/-- Under the range hypothesis the selected row is the word itself. -/
theorem row_val_of_lt (X : IVec SX 32) (j : Fin 4096) (h : (X (ix1 j)).toNat < 1000) :
    (row X j).val = (X (ix1 j)).toNat := by
  rw [row_val, Nat.mod_eq_of_lt h]

/-! ## The logits and the result -/

/-- The logit of batch row j, prediction p, vocabulary entry v: the weight row times the selected table row, plus
    the bias. -/
def logit (X : IVec SX 32) (E : FVec Ideal SE .f32) (W : FVec Ideal SW .f32) (b : FVec Ideal Sb .f32)
    (j : Fin 4096) (p : Fin 10) (v : Fin 1000) : EReal :=
  (∑ d : Fin 128, W (ix2 (flat p v) d) * E (ix2 (row X j) d)) + b (ix1 (flat p v))

/-- One softmax entry from a family of logits: exp(l v) · (1 / Σ_v' exp(l v')). -/
def smx (l : Fin 1000 → EReal) (v : Fin 1000) : EReal :=
  Ideal.exp (l v) * Ideal.div one32 (∑ v' : Fin 1000, Ideal.exp (l v'))

/-- The logit the dense stage forms from its three operand arrays at [p, v, j]. -/
def midLogit (A : FVec Ideal SA .f32) (Wr : FVec Ideal SWr .bf16) (Bc : FVec Ideal SBc .f32)
    (p : Fin 10) (j : Fin 4096) (v : Fin 1000) : EReal :=
  (∑ d : Fin 128, Wr (ix3 p v d) * A (ix2 j d)) + Bc (ix2 v p)

/-- The dense stage's whole result as one function of its three operand arrays, at [p, v, j]. -/
def Mid (A : FVec Ideal SA .f32) (Wr : FVec Ideal SWr .bf16) (Bc : FVec Ideal SBc .f32) : FVec Ideal SMid .f32 :=
  fun i => smx (midLogit A Wr Bc (i 0) (i 2)) (i 1)

theorem Mid_apply (A : FVec Ideal SA .f32) (Wr : FVec Ideal SWr .bf16) (Bc : FVec Ideal SBc .f32)
    (p : Fin 10) (v : Fin 1000) (j : Fin 4096) :
    Mid A Wr Bc (ix3 p v j) = smx (midLogit A Wr Bc p j) v := rfl

/-- The result as one function of the four argument arrays, at [j, p, v]: the softmax over v of the logits. -/
def G (X : IVec SX 32) (E : FVec Ideal SE .f32) (W : FVec Ideal SW .f32) (b : FVec Ideal Sb .f32) :
    FVec Ideal SOut .f32 :=
  fun i => smx (logit X E W b (i 0) (i 1)) (i 2)

theorem G_apply (X : IVec SX 32) (E : FVec Ideal SE .f32) (W : FVec Ideal SW .f32) (b : FVec Ideal Sb .f32)
    (j : Fin 4096) (p : Fin 10) (v : Fin 1000) :
    G X E W b (ix3 j p v) = smx (logit X E W b j p) v := rfl

end Cert.Spec

end
-- ==== Proof.Softmax.lean ====
/-
  The one algebraic law between the two programs. For a finite family of REAL logits a v and any real number M,
      exp(a v - M) / Σ_v' exp(a v' - M)  =  exp(a v) · (1 / Σ_v' exp(a v')),
  because exp(x - M) = exp(x) · exp(-M) and the common positive factor exp(-M) cancels between numerator and
  denominator. On the extended reals the law needs the logits and M to be real numbers: with an infinite entry the
  left side meets inf - inf. Both denominators are sums of exponentials of reals, hence positive reals, so neither
  division meets its corner at zero.
  Also: a logit is a real number when every entry of the table, the weights and the bias is.
-/
import proofs.«218874_g56547539419890_cont_9to1c4b_400_22_alg».proof.Proof.Spec
import proofs.«218874_g56547539419890_cont_9to1c4b_400_22_alg».proof.Proof.LibReal
import Mathlib.Analysis.SpecialFunctions.Exp

noncomputable section

open scoped BigOperators

namespace Cert.Spec.Softmax

open Idealize.ShloMosaic Idealize.ShloMosaic.ValueIdx
open Cert.Gcn

/-- The law over the reals, on any finite index type. -/
theorem shift_real {ι : Type*} [Fintype ι] [Nonempty ι] (r : ι → ℝ) (m : ℝ) (v : ι) :
    Real.exp (r v - m) * (1 / ∑ v' : ι, Real.exp (r v' - m))
      = Real.exp (r v) * (1 * (1 / ∑ v' : ι, Real.exp (r v'))) := by
  have hS : 0 < ∑ v' : ι, Real.exp (r v') :=
    Finset.sum_pos (fun i _ => Real.exp_pos _) Finset.univ_nonempty
  have hm : 0 < Real.exp m := Real.exp_pos m
  have hsum : ∑ v' : ι, Real.exp (r v' - m) = (∑ v' : ι, Real.exp (r v')) / Real.exp m := by
    rw [Finset.sum_div]
    exact Finset.sum_congr rfl fun i _ => Real.exp_sub _ _
  rw [hsum, Real.exp_sub]
  field_simp

/-- The exponential of a real, as an extended real, is the real exponential. -/
theorem exp_coe (x : ℝ) : Ideal.exp (x : EReal) = ((Real.exp x : ℝ) : EReal) := rfl

/-- A sum of exponentials of reals is the image of the positive real sum. -/
theorem sum_exp_coe (r : Fin 1000 → ℝ) :
    ∑ v' : Fin 1000, Ideal.exp ((r v' : ℝ) : EReal) = ((∑ v' : Fin 1000, Real.exp (r v') : ℝ) : EReal) := by
  rw [Cert.Gcn.coe_sum]
  rfl

/-- THE LAW, in the shape the reference's stages unfold to on the left and the specification's softmax entry on the
    right: for real logits and a real M, the shifted quotient is exp(a v) times the reciprocal of the sum. -/
theorem shift (a : Fin 1000 → EReal) (ha : ∀ v, IsReal (a v)) (M : EReal) (hM : IsReal M) (v : Fin 1000) :
    Ideal.div (Ideal.exp (a v - M)) (∑ v' : Fin 1000, Ideal.exp (a v' - M)) = Cert.Spec.smx a v := by
  obtain ⟨m, rfl⟩ := hM
  choose r hr using ha
  have ha' : a = fun v => ((r v : ℝ) : EReal) := funext hr
  subst ha'
  unfold Cert.Spec.smx
  have hsub : ∀ w : Fin 1000, (((r w : ℝ) : EReal) - (m : EReal)) = ((r w - m : ℝ) : EReal) :=
    fun w => (EReal.coe_sub (r w) m).symm
  simp only [hsub]
  rw [sum_exp_coe (fun w => r w - m), sum_exp_coe r, exp_coe, exp_coe]
  have hS : (∑ v' : Fin 1000, Real.exp (r v')) ≠ 0 :=
    (Finset.sum_pos (fun i _ => Real.exp_pos _) Finset.univ_nonempty).ne'
  have hS' : (∑ v' : Fin 1000, Real.exp (r v' - m)) ≠ 0 :=
    (Finset.sum_pos (fun i _ => Real.exp_pos _) Finset.univ_nonempty).ne'
  rw [Ideal.div_coe hS', Ideal.div_coe hS, show one32 = ((1 : ℝ) : EReal) from Cert.Gcn.ofBits_one,
    ← EReal.coe_mul, ← EReal.coe_mul, ← EReal.coe_mul]
  exact congrArg _ (shift_real r m v)

/-- The specification's softmax entry of real logits is a real number. -/
theorem smx_isReal (a : Fin 1000 → EReal) (ha : ∀ v, IsReal (a v)) (v : Fin 1000) : IsReal (Cert.Spec.smx a v) := by
  choose r hr using ha
  have ha' : a = fun v => ((r v : ℝ) : EReal) := funext hr
  subst ha'
  unfold Cert.Spec.smx
  rw [sum_exp_coe r, exp_coe]
  have hS : (∑ v' : Fin 1000, Real.exp (r v')) ≠ 0 :=
    (Finset.sum_pos (fun i _ => Real.exp_pos _) Finset.univ_nonempty).ne'
  rw [Ideal.div_coe hS, show one32 = ((1 : ℝ) : EReal) from Cert.Gcn.ofBits_one, ← EReal.coe_mul, ← EReal.coe_mul]
  exact ⟨_, rfl⟩

/-- A finite sum of products of reals, plus a real, is a real. -/
theorem dot_add_isReal {ι : Type*} [Fintype ι] (x y : ι → EReal) (c : EReal) (hx : ∀ i, IsReal (x i))
    (hy : ∀ i, IsReal (y i)) (hc : IsReal c) : IsReal ((∑ i : ι, x i * y i) + c) :=
  (IsReal.sum Finset.univ _ fun i _ => (hx i).mul (hy i)).add hc

/-- The logit is a real number when every entry of the table, the weights and the bias is. -/
theorem logit_isReal (X : IVec SX 32) (E : FVec Ideal SE .f32) (W : FVec Ideal SW .f32) (b : FVec Ideal Sb .f32)
    (hE : ∀ i, IsReal (E i)) (hW : ∀ i, IsReal (W i)) (hb : ∀ i, IsReal (b i))
    (j : Fin 4096) (p : Fin 10) (v : Fin 1000) : IsReal (Cert.Spec.logit X E W b j p v) := by
  unfold Cert.Spec.logit
  exact dot_add_isReal _ _ _ (fun d => hW _) (fun d => hE _) (hb _)

end Cert.Spec.Softmax

end
-- ==== Proof.RefValue.lean ====
/- The reference's result term read index by index: under the input domain (every index word between 0 and
   999, every float entry a real number) the term the reference's operations compose is the specification. -/
import proofs.«218874_g56547539419890_cont_9to1c4b_400_22_alg».proof.Proof.RefRun
import proofs.«218874_g56547539419890_cont_9to1c4b_400_22_alg».proof.Proof.LibTakeRows
import proofs.«218874_g56547539419890_cont_9to1c4b_400_22_alg».proof.Proof.LibReal
import proofs.«218874_g56547539419890_cont_9to1c4b_400_22_alg».proof.Proof.Spec
import proofs.«218874_g56547539419890_cont_9to1c4b_400_22_alg».proof.Proof.Softmax
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.TakeRows Cert.Gcn

/-! ## The index words -/

/-- A word below 1000 as an unsigned number has that number as its signed value. -/
theorem toInt_of_lt {w : BitVec 32} (h : w.toNat < 1000) : w.toInt = (w.toNat : Int) :=
  BitVec.toInt_eq_toNat_of_lt (by omega)

/-- A word below 1000 is at least 0 as a signed word. -/
theorem sge_zero_of_lt {w : BitVec 32} (h : w.toNat < 1000) : IntOp.cmpi .sge w 0#32 = 1#1 := by
  have h0 : (0#32 : BitVec 32).sle w = true := by
    simp only [BitVec.sle, BitVec.toInt_zero, toInt_of_lt h, decide_eq_true_eq]; omega
  simp only [IntOp.cmpi, h0]; rfl

/-- A word below 1000 is at most 999 as a signed word. -/
theorem sle_999_of_lt {w : BitVec 32} (h : w.toNat < 1000) : IntOp.cmpi .sle w 999#32 = 1#1 := by
  have h0 : w.sle 999#32 = true := by
    have e : (999#32 : BitVec 32).toInt = 999 := by decide
    simp only [BitVec.sle, e, toInt_of_lt h, decide_eq_true_eq]; omega
  simp only [IntOp.cmpi, h0]; rfl

variable (X : IVec S4096 32)

/-- The index column at row j is the index word itself when that word is below 1000: it is not negative, so the
    table's height is not added to it. -/
theorem refIdx_apply (j : Fin 4096) (h : (X (ix1 j)).toNat < 1000) : refIdx X (ix2 j (0 : Fin 1)) = X (ix1 j) := by
  unfold refIdx
  rw [broadcastInDim_apply _ _ _ _ (ix1 j) (by intro a; obtain rfl : a = 0 := Subsingleton.elim _ _; rfl)]
  exact wrap_apply_of_nonneg X _ _ (ix1 j) rfl (by rw [toInt_of_lt h]; omega)

/-- A fold over the coordinates of an axis of extent one is the operation applied once, to the one entry and the
    initial value. -/
theorem fold_fin_one {α : Type} (op : α → α → α) [Std.Commutative op] [Std.Associative op] (b : α) (n : Nat)
    (hn : n = 1) (f : Fin n → α) : (Finset.univ : Finset (Fin n)).fold op b f = op (f ⟨0, by omega⟩) b := by
  subst hn
  rw [Finset.univ_unique, Finset.fold_singleton]
  rfl

/-- The reduction of the index column along its one-entry axis, in the form that names the inserted coordinate. -/
theorem red_col : Shape.Reduces S4096x1 [1] S4096 := by decide

/-- Every index word below 1000 lies in the table: both range tests hold, and their conjunction along the
    column's one entry, taken from the bit 1, is the bit 1. -/
theorem refInRange_apply (j : Fin 4096) (h : (X (ix1 j)).toNat < 1000) : refInRange X (ix1 j) = 1#1 := by
  unfold refInRange
  rw [Host.reduce_eq_fold_single IntOp.andi _ _ reducesTo_S4096x1_S4096_d1 red_col h_S_ (ix1 j)]
  rw [fold_fin_one IntOp.andi _ (S4096x1.size 1) rfl, Function.comp_apply]
  have hl : red_col.lift (ix1 j) (⟨0, by decide⟩ : Fin (S4096x1.size 1)) = ix2 j (0 : Fin 1) := by
    funext a; refine Fin.ext ?_; match a with | ⟨0, _⟩ => rfl | ⟨1, _⟩ => rfl
  rw [hl]
  show IntOp.andi (IntOp.andi (IntOp.cmpi .sge (refIdx X (ix2 j (0 : Fin 1))) 0#32)
      (IntOp.cmpi .sle (refIdx X (ix2 j (0 : Fin 1))) 999#32)) 1#1 = 1#1
  rw [refIdx_apply X j h, sge_zero_of_lt h, sle_999_of_lt h]
  rfl

variable {F : FTy → Type} [FloatOps F]

/-- The gathered row j is the table's row numbered by index word j, when that word is below 1000: the mask is set,
    so the select keeps the gathered entry, and the gather's clamping changes nothing inside the table. -/
theorem refEmb_apply (E : FVec F S1000x128 .f32) (j : Fin 4096) (q : Fin 128) (h : (X (ix1 j)).toNat < 1000) :
    refEmb X E (ix2 j q) = E (ix2 (⟨(X (ix1 j)).toNat, h⟩ : Fin 1000) q) := by
  unfold refEmb
  rw [select_apply,
    broadcastInDim_apply _ _ _ _ (ix1 j) (by intro a; obtain rfl : a = 0 := Subsingleton.elim _ _; rfl),
    refInRange_apply X j h, select_one]
  show Host.gather (rowsDims 1000 4096 128 gather_S1000x128_S4096x1_S4096x128_1_0_n_n_0_1_1128_wf) E (refIdx X) (ix2 j q) = _
  rw [gather_rows_apply (by decide), refIdx_apply X j h,
    clampRow_of_toInt_eq (by decide) _ (⟨(X (ix1 j)).toNat, h⟩ : Fin 1000) (toInt_of_lt h)]

/-! ## The logits -/

section AtIdeal

variable (E : FVec Ideal S1000x128 .f32) (W : FVec Ideal S10000x128 .f32) (b : FVec Ideal S10000 .f32)

/-- The contraction index of the gathered rows [4096, 128] times the transposed weights [128, 10000] is its one
    coordinate, below 128. -/
def contrE : dot_S4096x128_S128x10000_S4096x10000_1_0_0_1_n_n.contr.Idx ≃ Fin 128 :=
  contrEquiv1 dot_S4096x128_S128x10000_S4096x10000_1_0_0_1_n_n 128 rfl rfl

/-- The reference's logit at [j, p, v] is the specification's: the reshape reads row j, column p·1000 + v of the
    [4096, 10000] array; there the bias broadcast reads b[p·1000 + v], and the contraction is the sum over the 128
    features of the gathered row's entry times the weight's — the specification's sum with the factors exchanged. -/
theorem refLogits_apply (hX : ∀ j : Fin 4096, (X (ix1 j)).toNat < 1000) (j : Fin 4096) (p : Fin 10) (v : Fin 1000) :
    refLogits X E W b (ix3 j p v) = Cert.Spec.logit X E W b j p v := by
  unfold refLogits
  rw [shapeCast_apply _ _ (ix3 j p v) (ix2 j (Cert.Spec.flat p v)) (by
      rw [Shape.rowMajor_val_two, Shape.rowMajor_val_three]
      show j.val * 10000 + (p.val * 1000 + v.val) = (j.val * 10 + p.val) * 1000 + v.val
      omega)]
  rw [addf_apply,
    broadcastInDim_apply (s := S1x10000) (t := S4096x10000) _ _ _ (ix2 j (Cert.Spec.flat p v))
      (ix2 (0 : Fin 1) (Cert.Spec.flat p v)) (by intro a; match a with | ⟨0, _⟩ => rfl | ⟨1, _⟩ => rfl),
    broadcastInDim_apply (s := S10000) (t := S1x10000) _ _ _ (ix2 (0 : Fin 1) (Cert.Spec.flat p v))
      (ix1 (Cert.Spec.flat p v)) (by intro a; obtain rfl : a = 0 := Subsingleton.elim _ _; rfl)]
  simp only [Host.dotGeneral]
  rw [Ideal.dotGeneral_apply]
  unfold Cert.Spec.logit
  congr 1
  refine ((contrE.symm.sum_comp _).symm.trans ?_)
  refine Finset.sum_congr rfl fun d _ => ?_
  have hl : dot_S4096x128_S128x10000_S4096x10000_1_0_0_1_n_n.lhsIdx (ix2 j (Cert.Spec.flat p v)) (contrE.symm d)
      = ix2 j d := by
    funext a; refine Fin.ext ?_
    match a with
    | ⟨0, _⟩ => rfl
    | ⟨1, _⟩ => exact contrEquiv1_symm_val dot_S4096x128_S128x10000_S4096x10000_1_0_0_1_n_n 128 rfl rfl d
  have hr : dot_S4096x128_S128x10000_S4096x10000_1_0_0_1_n_n.rhsIdx (ix2 j (Cert.Spec.flat p v)) (contrE.symm d)
      = ix2 d (Cert.Spec.flat p v) := by
    funext a; refine Fin.ext ?_
    match a with
    | ⟨0, _⟩ => exact contrEquiv1_symm_val dot_S4096x128_S128x10000_S4096x10000_1_0_0_1_n_n 128 rfl rfl d
    | ⟨1, _⟩ => rfl
  have hrow : (⟨(X (ix1 j)).toNat, hX j⟩ : Fin 1000) = Cert.Spec.row X j :=
    Fin.ext (Cert.Spec.row_val_of_lt X j (hX j)).symm
  rw [hl, hr, refEmb_apply X E j d (hX j), hrow,
    transpose_apply _ _ _ (ix2 d (Cert.Spec.flat p v)) (ix2 (Cert.Spec.flat p v) d)
      (by intro c; match c with | ⟨0, _⟩ => rfl | ⟨1, _⟩ => rfl),
    mul_comm]

/-! ## The softmax -/

/-- The reduction along the last axis, in the form that names the inserted coordinate. -/
theorem red_last : Shape.Reduces S4096x10x1000 [2] S4096x10 := by decide

/-- The index over [j, p] with coordinate k inserted on the last axis is [j, p, k]. -/
theorem lift_last (j : Fin 4096) (p : Fin 10) (k : Fin 1000) : red_last.lift (ix2 j p) k = ix3 j p k := by
  funext a; refine Fin.ext ?_
  match a with
  | ⟨0, _⟩ => rfl
  | ⟨1, _⟩ => rfl
  | ⟨2, _⟩ => rfl

/-- The maximum of a row of real numbers, folded from minus infinity, is a real number: it is below plus infinity
    because every entry and the initial value are, and above minus infinity because it is at least the row's first
    entry. -/
theorem refMax_isReal (l : FVec Ideal S4096x10x1000 .f32) (hl : ∀ i, IsReal (l i)) (j : Fin 4096) (p : Fin 10) :
    IsReal (refMax l (ix2 j p)) := by
  unfold refMax
  rw [maximumf_apply,
    Host.reduce_eq_fold_single FloatOps.maximumf l _ reducesTo_S4096x10x1000_S4096x10_d2 red_last h_S_ (ix2 j p)]
  show IsReal (max (Ideal.ofBits .f32 0xFF800000#32)
    ((Finset.univ : Finset (Fin 1000)).fold max (Ideal.ofBits .f32 0xFF800000#32) (l ∘ red_last.lift (ix2 j p))))
  rw [ofBits_neg_inf, max_eq_right bot_le]
  refine isReal_of_ne ?_ ?_
  · exact ne_of_lt ((Finset.fold_max_lt _).mpr ⟨bot_lt_top, fun k _ => lt_top_iff_ne_top.mpr (hl _).ne_top⟩)
  · intro e
    have h0 : (l ∘ red_last.lift (ix2 j p)) (0 : Fin 1000)
        ≤ (Finset.univ : Finset (Fin 1000)).fold max ⊥ (l ∘ red_last.lift (ix2 j p)) :=
      (Finset.le_fold_max _).mpr (Or.inr ⟨_, Finset.mem_univ _, le_rfl⟩)
    rw [e] at h0
    exact (hl _).ne_bot (le_bot_iff.mp h0)

/-- The exponential stage at [j, p, v]: the exponential of the entry less its row's maximum. -/
theorem refExp_apply (l : FVec Ideal S4096x10x1000 .f32) (j : Fin 4096) (p : Fin 10) (v : Fin 1000) :
    refExp l (ix3 j p v) = Ideal.exp (l (ix3 j p v) - refMax l (ix2 j p)) := by
  unfold refExp
  show Ideal.exp (l (ix3 j p v) - _) = _
  rw [broadcastInDim_apply (s := S4096x10x1) (t := S4096x10x1000) _ _ _ (ix3 j p v) (ix3 j p (0 : Fin 1))
      (by intro a; match a with | ⟨0, _⟩ => rfl | ⟨1, _⟩ => rfl | ⟨2, _⟩ => rfl),
    broadcastInDim_apply (s := S4096x10) (t := S4096x10x1) _ _ _ (ix3 j p (0 : Fin 1)) (ix2 j p)
      (by intro a; match a with | ⟨0, _⟩ => rfl | ⟨1, _⟩ => rfl)]

/-- The softmax stage at [j, p, v], for a row of real numbers: the specification's softmax entry of that row. The
    quotient's denominator is the zero initial value plus the sum along the row of the exponentials; subtracting
    the row's maximum, a real number, from every entry changes neither the quotient nor its value. -/
theorem refSoftmax_apply (l : FVec Ideal S4096x10x1000 .f32) (hl : ∀ i, IsReal (l i)) (j : Fin 4096) (p : Fin 10)
    (v : Fin 1000) : refSoftmax l (ix3 j p v) = Cert.Spec.smx (fun v' => l (ix3 j p v')) v := by
  unfold refSoftmax
  show Ideal.div (refExp l (ix3 j p v)) _ = _
  rw [broadcastInDim_apply (s := S4096x10x1) (t := S4096x10x1000) _ _ _ (ix3 j p v) (ix3 j p (0 : Fin 1))
      (by intro a; match a with | ⟨0, _⟩ => rfl | ⟨1, _⟩ => rfl | ⟨2, _⟩ => rfl),
    broadcastInDim_apply (s := S4096x10) (t := S4096x10x1) _ _ _ (ix3 j p (0 : Fin 1)) (ix2 j p)
      (by intro a; match a with | ⟨0, _⟩ => rfl | ⟨1, _⟩ => rfl)]
  show Ideal.div _ (Ideal.hostReduceAdd reducesTo_S4096x10x1000_S4096x10_d2 (refExp l)
    (Ideal.ofBits .f32 0x00000000#32) (ix2 j p)) = _
  rw [Ideal.hostReduceAdd_single _ red_last, ofBits_zero, zero_add]
  show Ideal.div _ (∑ k : Fin 1000, refExp l (red_last.lift (ix2 j p) k)) = _
  rw [refExp_apply, Finset.sum_congr rfl fun k _ => by rw [lift_last, refExp_apply]]
  exact Cert.Spec.Softmax.shift (fun v' => l (ix3 j p v')) (fun v' => hl _) _ (refMax_isReal l hl j p) v

/-! ## The result -/

/-- Under the input domain the reference's composed term is the specification: index words between 0 and 999 make
    the gather read the table's own rows, and real entries make every logit a real number, which is what the
    softmax's two forms need to agree. -/
theorem refTerm_eq_G (hX : ∀ j : Fin 4096, (X (ix1 j)).toNat < 1000) (hE : ∀ i, IsReal (E i))
    (hW : ∀ i, IsReal (W i)) (hb : ∀ i, IsReal (b i)) :
    refTerm (F := Ideal) X E W b = Cert.Spec.G X E W b := by
  have hlog : ∀ i, IsReal (refLogits X E W b i) := fun i => by
    obtain ⟨j, p, v, rfl⟩ : ∃ (j : Fin 4096) (p : Fin 10) (v : Fin 1000), i = ix3 j p v := ⟨i 0, i 1, i 2, eq_ix3 i⟩
    rw [refLogits_apply X E W b hX]
    exact Cert.Spec.Softmax.logit_isReal X E W b hE hW hb _ _ _
  funext i
  obtain ⟨j, p, v, rfl⟩ : ∃ (j : Fin 4096) (p : Fin 10) (v : Fin 1000), i = ix3 j p v := ⟨i 0, i 1, i 2, eq_ix3 i⟩
  unfold refTerm
  rw [refSoftmax_apply _ hlog, Cert.Spec.G_apply]
  congr 1
  funext v'
  exact refLogits_apply X E W b hX _ _ v'

end AtIdeal

end Cert.ReferenceIdeal.RefValue

end
-- ==== Proof.HostGlue.lean ====
/-
  The kernel's host operations read at an index, at the extended reals, as statements about pure functions.
  The weights [10000,128] reshaped to [10,1000,128] (and changed to the matmul's format, the identity here) read
  W[p·1000 + v, d] at [p, v, d]; the bias [10000] reshaped to [10,1000] and transposed reads b[p·1000 + v] at [v, p];
  the final transpose (2,0,1) of a [10,1000,4096] array reads O[p, v, j] at [j, p, v]. With the gathered rows
  A[r, :] = E[X[r], :] the dense stage's whole result, transposed, is therefore the specification's result.
-/
import proofs.«218874_g56547539419890_cont_9to1c4b_400_22_alg».proof.Proof.Spec
import Idealize.ShloMosaic.Lib.ValueIdx
import Idealize.ShloMosaic.Lib.ValueLayout
import Idealize.ShloMosaic.Lib.Pipeline.Value

noncomputable section

open scoped BigOperators

namespace Cert.Spec.HostGlue

open Idealize.ShloMosaic Idealize.ShloMosaic.ValueIdx

/-- The [10,1000] layout of the bias, before its transpose. -/
abbrev SB2 : Shape := ⟨2, ![10, 1000]⟩

/-- The weights reshaped to [10,1000,128] read, at [p, v, d], row p·1000 + v of the [10000,128] array. -/
theorem reshape_W_apply (W : FVec Ideal SW .f32) (h : SW.ShapeCasts SWr) (p : Fin 10) (v : Fin 1000) (d : Fin 128) :
    shapeCast SWr W h (ix3 p v d) = W (ix2 (flat p v) d) :=
  shapeCast_apply W h _ _ (by
    rw [Shape.rowMajor_val_two, Shape.rowMajor_val_three]
    show (p.val * 1000 + v.val) * 128 + d.val = (p.val * 1000 + v.val) * 128 + d.val
    rfl)

/-- … and so does their change to the matmul's format, the identity at the extended reals. -/
theorem wr_apply (W : FVec Ideal SW .f32) (h : SW.ShapeCasts SWr) (hb : FTy.bits .bf16 < FTy.bits .f32)
    (p : Fin 10) (v : Fin 1000) (d : Fin 128) :
    (truncf .bf16 (shapeCast SWr W h) hb : FVec Ideal SWr .bf16) (ix3 p v d) = W (ix2 (flat p v) d) :=
  (truncf_apply _ hb _).trans (reshape_W_apply W h p v d)

/-- The bias reshaped to [10,1000] reads, at [p, v], entry p·1000 + v. -/
theorem reshape_b_apply (b : FVec Ideal Sb .f32) (h : Sb.ShapeCasts SB2) (p : Fin 10) (v : Fin 1000) :
    shapeCast SB2 b h (ix2 p v) = b (ix1 (flat p v)) :=
  shapeCast_apply b h _ _ (by
    rw [Shape.rowMajor_val_one, Shape.rowMajor_val_two]
    show p.val * 1000 + v.val = p.val * 1000 + v.val
    rfl)

/-- … and transposed to [1000,10] reads it at [v, p]. -/
theorem bc_apply (b : FVec Ideal Sb .f32) (h : Sb.ShapeCasts SB2) (ht : SB2.Transposes [1, 0] SBc)
    (v : Fin 1000) (p : Fin 10) :
    transpose SBc [1, 0] (shapeCast SB2 b h) ht (ix2 v p) = b (ix1 (flat p v)) :=
  (transpose_ix2_apply (shapeCast SB2 b h) ht v p).trans (reshape_b_apply b h p v)

/-- The final transpose (2,0,1) of a [10,1000,4096] array reads, at [j, p, v], the array at [p, v, j]. -/
theorem out_apply {α : Type} (O : SMid.Idx → α) (h : SMid.Transposes [2, 0, 1] SOut)
    (j : Fin 4096) (p : Fin 10) (v : Fin 1000) :
    transpose SOut [2, 0, 1] O h (ix3 j p v) = O (ix3 p v j) :=
  transpose_apply _ O h _ _ fun c => match c with | ⟨0, _⟩ => rfl | ⟨1, _⟩ => rfl | ⟨2, _⟩ => rfl

/-- With the gathered rows, the re-laid weights and the re-laid bias, the dense stage's logit is the specification's. -/
theorem midLogit_eq (X : IVec SX 32) (E : FVec Ideal SE .f32) (W : FVec Ideal SW .f32) (b : FVec Ideal Sb .f32)
    (A : FVec Ideal SA .f32) (hA : ∀ (r : Fin 4096) (d : Fin 128), A (ix2 r d) = E (ix2 (row X r) d))
    (hW : SW.ShapeCasts SWr) (hbits : FTy.bits .bf16 < FTy.bits .f32)
    (hb : Sb.ShapeCasts SB2) (hbt : SB2.Transposes [1, 0] SBc) (p : Fin 10) (j : Fin 4096) :
    midLogit A (truncf .bf16 (shapeCast SWr W hW) hbits) (transpose SBc [1, 0] (shapeCast SB2 b hb) hbt) p j
      = logit X E W b j p := by
  funext v
  unfold midLogit logit
  rw [bc_apply b hb hbt v p]
  refine congrArg (fun t : EReal => t + b (ix1 (flat p v))) ?_
  refine Finset.sum_congr rfl fun d _ => ?_
  rw [wr_apply W hW hbits p v d, hA j d]

/-- THE HOST GLUE: the dense stage's whole result over the gathered rows, the re-laid weights and the re-laid bias,
    transposed (2,0,1), is the specification's result. -/
theorem glue (X : IVec SX 32) (E : FVec Ideal SE .f32) (W : FVec Ideal SW .f32) (b : FVec Ideal Sb .f32)
    (A : FVec Ideal SA .f32) (hA : ∀ (r : Fin 4096) (d : Fin 128), A (ix2 r d) = E (ix2 (row X r) d))
    (hW : SW.ShapeCasts SWr) (hbits : FTy.bits .bf16 < FTy.bits .f32)
    (hb : Sb.ShapeCasts SB2) (hbt : SB2.Transposes [1, 0] SBc) (hout : SMid.Transposes [2, 0, 1] SOut) :
    transpose SOut [2, 0, 1]
        (Mid A (truncf .bf16 (shapeCast SWr W hW) hbits) (transpose SBc [1, 0] (shapeCast SB2 b hb) hbt)) hout
      = G X E W b := by
  funext i
  obtain ⟨j, p, v, rfl⟩ : ∃ (j : Fin 4096) (p : Fin 10) (v : Fin 1000), i = ix3 j p v := ⟨i 0, i 1, i 2, eq_ix3 i⟩
  rw [out_apply _ hout j p v, Mid_apply, G_apply, midLogit_eq X E W b A hA hW hbits hb hbt p j]

end Cert.Spec.HostGlue

end
-- ==== Proof.KernelValue.lean ====
/-
  The idealized kernel's result is the specification. The gathered rows are the table's rows at the index words
  (reduced mod 1000, the specification's own spelling of the selected row); the weights and the bias reach the dense
  stage re-laid; if the dense stage leaves its specified array over those three operands, the program's result, its
  transpose (2,0,1), is the specification's result over the four arguments.
-/
import proofs.«218874_g56547539419890_cont_9to1c4b_400_22_alg».proof.Proof.KI.HostVals
import proofs.«218874_g56547539419890_cont_9to1c4b_400_22_alg».proof.Proof.HostGlue
import Idealize.ShloMosaic.Lib.ValueLayout

noncomputable section

namespace Cert.KernelIdeal.Value2

open Cert.KernelIdeal Cert.KernelIdeal.Gen Cert.KernelIdeal.Hand

open Idealize.ShloMosaic Idealize.ShloMosaic.TcCoe Idealize.ShloMosaic.ValueIdx
open Idealize.SL.Sem

variable (m : (ℓ : Loc nD τ sig) → Buf (Elt Ideal) ℓ)

/-- The row of the table the gather takes for batch element r is the specification's selected row. -/
theorem gRow_eq_row (d : Dev nD) (r : Fin 4096) :
    gRow (fi m) d r = Cert.Spec.row (m ((d.tc : Thread nD τ).loc main_arg0)) r := by
  refine Fin.ext ?_
  rw [gRow_val, Cert.Spec.row_val, fi_eq, shapeCast_a_1a_apply]

/-- The gathered rows: row r is the table's row at the r-th index word. -/
theorem gath_rows (d : Dev nD) (r : Fin 4096) (k : Fin 128) :
    (gath (fi m) (fx m) d : FVec Ideal Cert.Spec.SA .f32) (ix2 r k)
      = (m ((d.tc : Thread nD τ).loc main_arg1) : FVec Ideal Cert.Spec.SE .f32)
          (ix2 (Cert.Spec.row (m ((d.tc : Thread nD τ).loc main_arg0)) r) k) := by
  rw [gath_apply, fx_eq, gRow_eq_row]

/-- THE KERNEL'S VALUE: if the dense stage leaves its specified array over the operands it is entered with, the
    program's result is the specification's over the four arguments. -/
theorem res_eq_G (d : Dev nD)
    (hmid : out6 (F := Ideal) m d = Cert.Spec.Mid (V6 m d main_v1) (V6 m d main_v3) (V6 m d main_v5)) :
    res (F := Ideal) m d
      = Cert.Spec.G (m ((d.tc : Thread nD τ).loc main_arg0)) (m ((d.tc : Thread nD τ).loc main_arg1))
          (m ((d.tc : Thread nD τ).loc main_arg2)) (m ((d.tc : Thread nD τ).loc main_arg3)) := by
  rw [res_eq, hmid, V6_v1, V6_v3, V6_v5]
  exact Cert.Spec.HostGlue.glue _ _ _ _ _ (gath_rows m d) _ _ _ _ _

end Cert.KernelIdeal.Value2

end
-- ==== Proof.PayValue.lean ====
/-
  The dense stage's body read at an index. For each of the ten predictions the body multiplies that prediction's
  weight slab [1000,128] by the transposed block of gathered rows [256,128], adds the bias column, exponentiates,
  sums each column over the 1000 vocabulary entries and scales every entry of the column by the reciprocal of
  that sum. At the extended reals the stored value at (v, c) is therefore
      exp(l v) * (1 / Σ_v' exp(l v'))   with   l v = (Σ_d w[0,v,d] * x[c,d]) + bias[v,0],
  which is the specification's softmax entry `Cert.Spec.smx` of that family of logits.
-/
import proofs.«218874_g56547539419890_cont_9to1c4b_400_22_alg».proof.Proof.Gen.KernelIdeal.Skeleton
import proofs.«218874_g56547539419890_cont_9to1c4b_400_22_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Spec.Pay

open Idealize.ShloMosaic Idealize.ShloMosaic.ValueIdx
open Cert.KernelIdeal Cert.KernelIdeal.Gen

/-! ## Two layout readings and two pointwise readings -/

/-- A column [a,1] broadcast to [a,b] reads, at (p, c), the column's entry p. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector at an index is the exponential of the entry. -/
theorem exp_apply {s : Shape} {φ : FTy} (a : FVec Ideal s φ) (i : s.Idx) : exp a i = Ideal.exp (a i) := rfl

/-! ## The matrix product at an index -/

/-- The body's contraction: slab rows against block rows, both along their second axis. -/
abbrev D : DotDims S1000x128 S256x128 S1000x256 := dot_S1000x128_S256x128_S1000x256_1_1_0_0_n_n

theorem lhs_0 (i : S1000x256.Idx) (q : D.contr.Idx) : (D.lhsIdx i q 0).val = (i 0).val := by
  unfold DotDims.lhsIdx
  rw [dif_neg (show ¬(0 : Fin S1000x128.rank) ∈ D.lhsBatch by decide),
    dif_pos (show (0 : Fin S1000x128.rank) ∈ D.lhsNonContracting by decide)]
  rfl

theorem lhs_1 (i : S1000x256.Idx) (q : D.contr.Idx) : (D.lhsIdx i q 1).val = (q ⟨0, by decide⟩).val :=
  D.lhsIdx_val_of_single rfl i q

theorem rhs_0 (i : S1000x256.Idx) (q : D.contr.Idx) : (D.rhsIdx i q 0).val = (i 1).val := by
  unfold DotDims.rhsIdx
  rw [dif_neg (show ¬(0 : Fin S256x128.rank) ∈ D.rhsBatch by decide),
    dif_pos (show (0 : Fin S256x128.rank) ∈ D.rhsNonContracting by decide)]
  rfl

theorem rhs_1 (i : S1000x256.Idx) (q : D.contr.Idx) : (D.rhsIdx i q 1).val = (q ⟨0, by decide⟩).val :=
  D.rhsIdx_val_of_single rfl i q

/-- The product into the zero accumulator, at (v, c): the sum over the 128 features of slab row v times block row c. -/
theorem matmul_at (lhs : FVec Ideal S1000x128 .bf16) (rhs : FVec Ideal S256x128 .bf16) (v : Fin 1000) (c : Fin 256) :
    matmul D none lhs rhs (constant (F := Ideal) S1000x256 .f32 0x00000000#32) (ix2 v c)
      = ∑ d : Fin 128, lhs (ix2 v d) * rhs (ix2 c d) := by
  refine (Ideal.matmul_constant_zero_apply D none lhs rhs (ix2 v c)).trans ?_
  rw [← Equiv.sum_comp (contrEquiv1 D 128 rfl rfl).symm]
  refine Finset.sum_congr rfl fun k _ => ?_
  have hk := contrEquiv1_symm_val D 128 rfl rfl k
  have el : D.lhsIdx (ix2 v c) ((contrEquiv1 D 128 rfl rfl).symm k) = ix2 v k := funext fun a => Fin.ext (by
    match a with
    | ⟨0, _⟩ => exact lhs_0 _ _
    | ⟨1, _⟩ => exact (lhs_1 _ _).trans hk)
  have er : D.rhsIdx (ix2 v c) ((contrEquiv1 D 128 rfl rfl).symm k) = ix2 c k := funext fun a => Fin.ext (by
    match a with
    | ⟨0, _⟩ => exact rhs_0 _ _
    | ⟨1, _⟩ => exact (rhs_1 _ _).trans hk)
  rw [el, er]

/-! ## The logits of a block -/

/-- The logit of column c (a batch row of the block) and vocabulary entry v, from the body's three loads. -/
def blkLogit (e : FVec Ideal S256x128 .bf16) (wp : FVec Ideal S1x1000x128 .bf16) (bp : FVec Ideal S1000x1 .f32)
    (c : Fin 256) (v : Fin 1000) : EReal :=
  (∑ d : Fin 128, wp (ix3 (0 : Fin 1) v d) * e (ix2 c d)) + bp (ix2 v (0 : Fin 1))

/-- The body's [1000,256] array of logits: slab times block, plus the bias column broadcast along the columns. -/
def lg (e : FVec Ideal S256x128 .bf16) (wp : FVec Ideal S1x1000x128 .bf16) (bp : FVec Ideal S1000x1 .f32) :
    FVec Ideal S1000x256 .f32 :=
  addf (matmul D none (shapeCast S1000x128 wp shapeCasts_S1x1000x128_S1000x128) e
      (constant (F := Ideal) S1000x256 .f32 0x00000000#32))
    (broadcastTo S1000x256 (shapeCast S1000x1 bp shapeCasts_S1000x1_S1000x1) broadcasts_S1000x1_S1000x256)

theorem lg_apply (e : FVec Ideal S256x128 .bf16) (wp : FVec Ideal S1x1000x128 .bf16) (bp : FVec Ideal S1000x1 .f32)
    (v : Fin 1000) (c : Fin 256) : lg e wp bp (ix2 v c) = blkLogit e wp bp c v := by
  unfold lg blkLogit
  refine (addf_apply _ _ _).trans ?_
  refine congrArg₂ (fun a b : EReal => a + b) ?_ ?_
  · refine (matmul_at _ e v c).trans ?_
    refine Finset.sum_congr rfl fun d _ => ?_
    rw [shapeCast_1ab_ab_apply wp shapeCasts_S1x1000x128_S1000x128 v d]
  · rw [shapeCast_self]
    exact broadcastTo_a1_ab_apply bp broadcasts_S1000x1_S1000x256 v c

/-! ## Exponential, column sum, reciprocal, scaling -/

/-- The column sums of a [1000,256] array: at c, the sum over the 1000 rows. -/
theorem colsum_apply (src : FVec Ideal S1000x256 .f32) (hφ : FKind.Formats .f32)
    (hacc : (0x00000000#32 : BitVec 32) = FKind.add.neutral .f32 hφ) (c : Fin 256) :
    multiReduction .add [0] S256 src 0x00000000#32 reduces_S1000x256_S256 hφ hacc (ix1 c)
      = ∑ v : Fin 1000, src (ix2 v c) := by
  refine (Ideal.multiReduction_add_single src 0x00000000#32 reduces_S1000x256_S256 hφ hacc (ix1 c)).trans ?_
  show ∑ k : Fin 1000, src (reduces_S1000x256_S256.lift (ix1 c) k) = _
  refine Finset.sum_congr rfl fun k _ => congrArg src ?_
  funext a
  match a with
  | ⟨0, _⟩ => rfl
  | ⟨1, _⟩ => rfl

/-- What the body does to its array of logits: exponentiate, and scale each column by the reciprocal of its sum. -/
def tail (L : FVec Ideal S1000x256 .f32) : FVec Ideal S1000x256 .f32 :=
  mulf (exp L)
    (broadcastTo S1000x256
      (divf (broadcast S1x256 (FloatOps.ofBits (F := Ideal) .f32 0x3F800000#32))
        (shapeCast S1x256
          (multiReduction .add [0] S256 (exp L) 0x00000000#32 reduces_S1000x256_S256 (.inl rfl) rfl)
          shapeCasts_S256_S1x256))
      broadcasts_S1x256_S1000x256)

theorem tail_apply (L : FVec Ideal S1000x256 .f32) (v : Fin 1000) (c : Fin 256) :
    tail L (ix2 v c)
      = Ideal.exp (L (ix2 v c)) * Ideal.div one32 (∑ v' : Fin 1000, Ideal.exp (L (ix2 v' c))) := by
  unfold tail
  refine (mulf_apply _ _ _).trans ?_
  refine congrArg₂ (fun a b : EReal => a * b) (exp_apply L _) ?_
  refine (broadcastTo_1b_ab_apply _ broadcasts_S1x256_S1000x256 v c).trans ?_
  refine (divf_apply _ _ _).trans ?_
  refine congrArg₂ Ideal.div rfl ?_
  refine (shapeCast_a_1a_apply _ shapeCasts_S256_S1x256 (0 : Fin 1) c).trans ?_
  refine (colsum_apply (exp L) _ _ c).trans ?_
  exact Finset.sum_congr rfl fun v' _ => exp_apply L _

/-! ## The payloads -/

/-- The core payload (slab, bias column and the block already in the matmul's format): a softmax entry of the block's
    logits. -/
theorem pay6_apply (e : FVec Ideal S256x128 .bf16) (wp : Vec Ideal S1x1000x128 .bf16) (bp : Vec Ideal S1000x1 .f32)
    (v : Fin 1000) (c : Fin 256) :
    k1_pay6 (F := Ideal) e wp bp (ix2 v c) = smx (blkLogit e wp bp c) v := by
  have h : k1_pay6 (F := Ideal) e wp bp = tail (lg e wp bp) := rfl
  rw [h, tail_apply]
  unfold smx
  simp only [lg_apply]

/-- The block's format change is the identity at the extended reals. -/
theorem pay1_eq (x0 : Vec Ideal S256x128 .f32) : k1_pay1 (F := Ideal) x0 = x0 := by
  funext i
  show shapeCast S256x128 x0 shapeCasts_S256x128_S256x128 i = x0 i
  rw [shapeCast_self]

/-- A [1000,256] value stored as a [1,1000,256] block reads, at (u, v, c), the value at (v, c). -/
theorem stored_apply (y : FVec Ideal S1000x256 .f32) (u : Fin 1) (v : Fin 1000) (c : Fin 256) :
    shapeCast S1x1000x256 y shapeCasts_S1000x256_S1x1000x256 (ix3 u v c) = y (ix2 v c) :=
  shapeCast_ab_1ab_apply y shapeCasts_S1000x256_S1x1000x256 u v c

/-- Prediction 0's payload, from the raw f32 block. -/
theorem pay2_apply (x0 : Vec Ideal S256x128 .f32) (wp : Vec Ideal S1x1000x128 .bf16) (bp : Vec Ideal S1000x1 .f32)
    (u : Fin 1) (v : Fin 1000) (c : Fin 256) :
    k1_pay2 (F := Ideal) x0 wp bp (ix3 u v c) = smx (blkLogit x0 wp bp c) v := by
  have h : k1_pay2 (F := Ideal) x0 wp bp
      = shapeCast S1x1000x256 (k1_pay6 (F := Ideal) (k1_pay1 (F := Ideal) x0) wp bp) shapeCasts_S1000x256_S1x1000x256 := rfl
  rw [h, stored_apply, pay6_apply, pay1_eq]

/-- Prediction 1's payload (computed in one part of the body, stored in the next), from the raw f32 block. -/
theorem pay4_pay3_apply (x0 : Vec Ideal S256x128 .f32) (wp : Vec Ideal S1x1000x128 .bf16) (bp : Vec Ideal S1000x1 .f32)
    (u : Fin 1) (v : Fin 1000) (c : Fin 256) :
    k1_pay4 (F := Ideal) (k1_pay3 (F := Ideal) x0 wp bp) (ix3 u v c) = smx (blkLogit x0 wp bp c) v := by
  have h : k1_pay4 (F := Ideal) (k1_pay3 (F := Ideal) x0 wp bp)
      = shapeCast S1x1000x256 (k1_pay6 (F := Ideal) (k1_pay1 (F := Ideal) x0) wp bp) shapeCasts_S1000x256_S1x1000x256 := rfl
  rw [h, stored_apply, pay6_apply, pay1_eq]

/-- Prediction 3's payload (computed in one part of the body, stored in the next). -/
theorem pay7_pay6_apply (e : FVec Ideal S256x128 .bf16) (wp : Vec Ideal S1x1000x128 .bf16) (bp : Vec Ideal S1000x1 .f32)
    (u : Fin 1) (v : Fin 1000) (c : Fin 256) :
    k1_pay7 (F := Ideal) (k1_pay6 (F := Ideal) e wp bp) (ix3 u v c) = smx (blkLogit e wp bp c) v := by
  have h : k1_pay7 (F := Ideal) (k1_pay6 (F := Ideal) e wp bp)
      = shapeCast S1x1000x256 (k1_pay6 (F := Ideal) e wp bp) shapeCasts_S1000x256_S1x1000x256 := rfl
  rw [h, stored_apply, pay6_apply]

/-- Prediction 2's payload. -/
theorem pay5_apply (e : FVec Ideal S256x128 .bf16) (wp : Vec Ideal S1x1000x128 .bf16) (bp : Vec Ideal S1000x1 .f32)
    (u : Fin 1) (v : Fin 1000) (c : Fin 256) :
    k1_pay5 (F := Ideal) e wp bp (ix3 u v c) = smx (blkLogit e wp bp c) v := by
  have h : k1_pay5 (F := Ideal) e wp bp
      = shapeCast S1x1000x256 (k1_pay6 (F := Ideal) e wp bp) shapeCasts_S1000x256_S1x1000x256 := rfl
  rw [h, stored_apply, pay6_apply]

/-- Prediction 4's payload. -/
theorem pay8_apply (e : FVec Ideal S256x128 .bf16) (wp : Vec Ideal S1x1000x128 .bf16) (bp : Vec Ideal S1000x1 .f32)
    (u : Fin 1) (v : Fin 1000) (c : Fin 256) :
    k1_pay8 (F := Ideal) e wp bp (ix3 u v c) = smx (blkLogit e wp bp c) v := by
  have h : k1_pay8 (F := Ideal) e wp bp
      = shapeCast S1x1000x256 (k1_pay6 (F := Ideal) e wp bp) shapeCasts_S1000x256_S1x1000x256 := rfl
  rw [h, stored_apply, pay6_apply]

/-- Prediction 5's payload. -/
theorem pay9_apply (e : FVec Ideal S256x128 .bf16) (wp : Vec Ideal S1x1000x128 .bf16) (bp : Vec Ideal S1000x1 .f32)
    (u : Fin 1) (v : Fin 1000) (c : Fin 256) :
    k1_pay9 (F := Ideal) e wp bp (ix3 u v c) = smx (blkLogit e wp bp c) v := by
  have h : k1_pay9 (F := Ideal) e wp bp
      = shapeCast S1x1000x256 (k1_pay6 (F := Ideal) e wp bp) shapeCasts_S1000x256_S1x1000x256 := rfl
  rw [h, stored_apply, pay6_apply]

/-- Prediction 6's payload. -/
theorem pay10_apply (e : FVec Ideal S256x128 .bf16) (wp : Vec Ideal S1x1000x128 .bf16) (bp : Vec Ideal S1000x1 .f32)
    (u : Fin 1) (v : Fin 1000) (c : Fin 256) :
    k1_pay10 (F := Ideal) e wp bp (ix3 u v c) = smx (blkLogit e wp bp c) v := by
  have h : k1_pay10 (F := Ideal) e wp bp
      = shapeCast S1x1000x256 (k1_pay6 (F := Ideal) e wp bp) shapeCasts_S1000x256_S1x1000x256 := rfl
  rw [h, stored_apply, pay6_apply]

/-- Prediction 7's payload. -/
theorem pay11_apply (e : FVec Ideal S256x128 .bf16) (wp : Vec Ideal S1x1000x128 .bf16) (bp : Vec Ideal S1000x1 .f32)
    (u : Fin 1) (v : Fin 1000) (c : Fin 256) :
    k1_pay11 (F := Ideal) e wp bp (ix3 u v c) = smx (blkLogit e wp bp c) v := by
  have h : k1_pay11 (F := Ideal) e wp bp
      = shapeCast S1x1000x256 (k1_pay6 (F := Ideal) e wp bp) shapeCasts_S1000x256_S1x1000x256 := rfl
  rw [h, stored_apply, pay6_apply]

/-- Prediction 8's payload. -/
theorem pay12_apply (e : FVec Ideal S256x128 .bf16) (wp : Vec Ideal S1x1000x128 .bf16) (bp : Vec Ideal S1000x1 .f32)
    (u : Fin 1) (v : Fin 1000) (c : Fin 256) :
    k1_pay12 (F := Ideal) e wp bp (ix3 u v c) = smx (blkLogit e wp bp c) v := by
  have h : k1_pay12 (F := Ideal) e wp bp
      = shapeCast S1x1000x256 (k1_pay6 (F := Ideal) e wp bp) shapeCasts_S1000x256_S1x1000x256 := rfl
  rw [h, stored_apply, pay6_apply]

/-- Prediction 9's payload. -/
theorem pay13_apply (e : FVec Ideal S256x128 .bf16) (wp : Vec Ideal S1x1000x128 .bf16) (bp : Vec Ideal S1000x1 .f32)
    (u : Fin 1) (v : Fin 1000) (c : Fin 256) :
    k1_pay13 (F := Ideal) e wp bp (ix3 u v c) = smx (blkLogit e wp bp c) v := by
  have h : k1_pay13 (F := Ideal) e wp bp
      = shapeCast S1x1000x256 (k1_pay6 (F := Ideal) e wp bp) shapeCasts_S1000x256_S1x1000x256 := rfl
  rw [h, stored_apply, pay6_apply]

end Cert.Spec.Pay

end
-- ==== Proof.TcValue.lean ====
/- The dense stage's result array as one function of its three operand arrays. At each of the 16 grid points the
   body writes one block of 256 columns of the [10, 1000, 4096] result; the block is, entry by entry, the softmax
   over the 1000 vocabulary entries of the logits of that block's 256 gathered rows; the 16 blocks tile the array;
   so the array ends holding the specification's dense-stage function of the three operand arrays. -/
import proofs.«218874_g56547539419890_cont_9to1c4b_400_22_alg».proof.Proof.KI.TcDat
import proofs.«218874_g56547539419890_cont_9to1c4b_400_22_alg».proof.Proof.Spec
import proofs.«218874_g56547539419890_cont_9to1c4b_400_22_alg».proof.Proof.PayValue
import Idealize.ShloMosaic.Lib.Pipeline.Value
import Idealize.ShloMosaic.Lib.ValueIdx

-- membership in a rectangle of these extents recurses once per coordinate of the long axes
set_option maxRecDepth 16384

noncomputable section

open scoped BigOperators

namespace Cert.KernelIdeal.TcValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec Cert.Spec.Pay

/-! ## One block as a function of the three input blocks -/

theorem hz2 : (![0, 0] : Fin 2 → Nat) = fun _ => 0 := funext fun a => by fin_cases a <;> rfl

/-- The block's entry at prediction p, vocabulary entry v, column c: the softmax entry v of column c's logits for
    prediction p, the logits formed from the block of gathered rows, the weights and the biases. -/
def blockAt (x0 : Vec Ideal S256x128 .f32) (x1 : Vec Ideal S10x1000x128 .bf16) (x2 : Vec Ideal S1000x10 .f32)
    (p : Fin 10) (v : Fin 1000) (c : Fin 256) : EReal :=
  smx (fun v' => (∑ d : Fin 128, x1 (ix3 p v' d) * x0 (ix2 c d)) + x2 (ix2 v' p)) v

/-- The block as a function of its index. -/
def blockG (x0 : Vec Ideal S256x128 .f32) (x1 : Vec Ideal S10x1000x128 .bf16) (x2 : Vec Ideal S1000x10 .f32) :
    Vec Ideal S10x1000x256 .f32 :=
  fun y => blockAt x0 x1 x2 (y 0) (y 1) (y 2)

/-- Slab k of the block: the payload computed from the gathered rows, slab k of the weights and column k of the
    biases is, at every index of the slab, the block's function at the slab's place in the block. -/
theorem slab_eq (x0 : Vec Ideal S256x128 .f32) (x1 : Vec Ideal S10x1000x128 .bf16) (x2 : Vec Ideal S1000x10 .f32)
    (k : Nat) (hk : k < 10)
    (inbO : ∀ a, (![k, 0, 0] : Fin 3 → Nat) a + S1x1000x256.size a ≤ S10x1000x256.size a)
    (inbW : ∀ a, (![k, 0, 0] : Fin 3 → Nat) a + S1x1000x128.size a ≤ S10x1000x128.size a)
    (inbB : ∀ a, (![0, k] : Fin 2 → Nat) a + S1000x1.size a ≤ S1000x10.size a)
    (pay : (Rect.unit (s := S10x1000x256) ![k, 0, 0] S1x1000x256.size inbO).shape.Idx → EReal)
    (hpay : ∀ (u : Fin 1) (v : Fin 1000) (c : Fin 256), pay (ix3 u v c)
      = smx (blkLogit x0 (View.ld x1 (Rect.unit (s := S10x1000x128) ![k, 0, 0] S1x1000x128.size inbW))
          (View.ld x2 (Rect.unit (s := S1000x10) ![0, k] S1000x1.size inbB)) c) v)
    (x : (Rect.unit (s := S10x1000x256) ![k, 0, 0] S1x1000x256.size inbO).shape.Idx) :
    pay x = blockG x0 x1 x2 ((Rect.unit (s := S10x1000x256) ![k, 0, 0] S1x1000x256.size inbO).emb x) := by
  obtain ⟨u, v, c, rfl⟩ : ∃ (u : Fin 1) (v : Fin 1000) (c : Fin 256), x = ix3 u v c := ⟨x 0, x 1, x 2, eq_ix3 x⟩
  rw [hpay]
  have hu : u.val = 0 := by have := u.isLt; omega
  have he : (Rect.unit (s := S10x1000x256) ![k, 0, 0] S1x1000x256.size inbO).emb (ix3 u v c)
      = ix3 (⟨k, hk⟩ : Fin 10) v c := by
    funext a; refine Fin.ext ?_
    match a with
    | ⟨0, _⟩ => show k + 1 * u.val = k; omega
    | ⟨1, _⟩ => show 0 + 1 * v.val = v.val; omega
    | ⟨2, _⟩ => show 0 + 1 * c.val = c.val; omega
  rw [he]
  show _ = blockAt x0 x1 x2 (⟨k, hk⟩ : Fin 10) v c
  unfold blockAt blkLogit
  congr 1
  funext v'
  have hw : ∀ d : Fin 128, (Rect.unit (s := S10x1000x128) ![k, 0, 0] S1x1000x128.size inbW).idx (ix3 (0 : Fin 1) v' d)
      = ix3 (⟨k, hk⟩ : Fin 10) v' d := fun d => by
    funext a; refine Fin.ext ?_
    match a with
    | ⟨0, _⟩ => show k + 1 * 0 = k; omega
    | ⟨1, _⟩ => show 0 + 1 * v'.val = v'.val; omega
    | ⟨2, _⟩ => show 0 + 1 * d.val = d.val; omega
  have hb : (Rect.unit (s := S1000x10) ![0, k] S1000x1.size inbB).idx (ix2 v' (0 : Fin 1))
      = ix2 v' (⟨k, hk⟩ : Fin 10) := by
    funext a; refine Fin.ext ?_
    match a with
    | ⟨0, _⟩ => show 0 + 1 * v'.val = v'.val; omega
    | ⟨1, _⟩ => show k + 1 * 0 = k; omega
  show (∑ d : Fin 128, x1 ((Rect.unit (s := S10x1000x128) ![k, 0, 0] S1x1000x128.size inbW).idx (ix3 (0 : Fin 1) v' d)) * x0 (ix2 c d))
      + x2 ((Rect.unit (s := S1000x10) ![0, k] S1000x1.size inbB).idx (ix2 v' (0 : Fin 1))) = _
  rw [hb]
  simp only [hw]

/-- What the body leaves in the output window's buffer, as one function of the block index: each of the ten stores
    writes the slab of the block's function its rectangle names, and the ten slabs cover the block. -/
theorem out1_3_apply (x0 : Vec Ideal S256x128 .f32) (x1 : Vec Ideal S10x1000x128 .bf16) (x2 : Vec Ideal S1000x10 .f32)
    (y : S10x1000x256.Idx) : out1_3 (F := Ideal) x0 x1 x2 y = blockG x0 x1 x2 y := by
  unfold out1_3
  refine View.canon_apply_of_pieces (Val := Elt Ideal) (blockG x0 x1 x2) _ ?_ y (cover1_3 _ _ _ _ _ _ _ _ _ _ y)
  intro p hp
  simp only [List.mem_cons, List.not_mem_nil, or_false] at hp
  rcases hp with rfl | rfl | rfl | rfl | rfl | rfl | rfl | rfl | rfl | rfl
  · exact slab_eq x0 x1 x2 9 (by decide) Gen.inb_S10x1000x256_S1x1000x256_9_0_0 Gen.inb_S10x1000x128_S1x1000x128_9_0_0
      Gen.inb_S1000x10_S1000x1_0_9 _ (fun u v c => (pay13_apply _ _ _ u v c).trans (by rw [pay1_eq, View.ld_unit_zero (S := S256x128) hz2]))
  · exact slab_eq x0 x1 x2 8 (by decide) Gen.inb_S10x1000x256_S1x1000x256_8_0_0 Gen.inb_S10x1000x128_S1x1000x128_8_0_0
      Gen.inb_S1000x10_S1000x1_0_8 _ (fun u v c => (pay12_apply _ _ _ u v c).trans (by rw [pay1_eq, View.ld_unit_zero (S := S256x128) hz2]))
  · exact slab_eq x0 x1 x2 7 (by decide) Gen.inb_S10x1000x256_S1x1000x256_7_0_0 Gen.inb_S10x1000x128_S1x1000x128_7_0_0
      Gen.inb_S1000x10_S1000x1_0_7 _ (fun u v c => (pay11_apply _ _ _ u v c).trans (by rw [pay1_eq, View.ld_unit_zero (S := S256x128) hz2]))
  · exact slab_eq x0 x1 x2 6 (by decide) Gen.inb_S10x1000x256_S1x1000x256_6_0_0 Gen.inb_S10x1000x128_S1x1000x128_6_0_0
      Gen.inb_S1000x10_S1000x1_0_6 _ (fun u v c => (pay10_apply _ _ _ u v c).trans (by rw [pay1_eq, View.ld_unit_zero (S := S256x128) hz2]))
  · exact slab_eq x0 x1 x2 5 (by decide) Gen.inb_S10x1000x256_S1x1000x256_5_0_0 Gen.inb_S10x1000x128_S1x1000x128_5_0_0
      Gen.inb_S1000x10_S1000x1_0_5 _ (fun u v c => (pay9_apply _ _ _ u v c).trans (by rw [pay1_eq, View.ld_unit_zero (S := S256x128) hz2]))
  · exact slab_eq x0 x1 x2 4 (by decide) Gen.inb_S10x1000x256_S1x1000x256_4_0_0 Gen.inb_S10x1000x128_S1x1000x128_4_0_0
      Gen.inb_S1000x10_S1000x1_0_4 _ (fun u v c => (pay8_apply _ _ _ u v c).trans (by rw [pay1_eq, View.ld_unit_zero (S := S256x128) hz2]))
  · exact slab_eq x0 x1 x2 3 (by decide) Gen.inb_S10x1000x256_S1x1000x256_3_0_0 Gen.inb_S10x1000x128_S1x1000x128_3_0_0
      Gen.inb_S1000x10_S1000x1_0_3 _ (fun u v c => (pay7_pay6_apply _ _ _ u v c).trans (by rw [pay1_eq, View.ld_unit_zero (S := S256x128) hz2]))
  · exact slab_eq x0 x1 x2 2 (by decide) Gen.inb_S10x1000x256_S1x1000x256_2_0_0 Gen.inb_S10x1000x128_S1x1000x128_2_0_0
      Gen.inb_S1000x10_S1000x1_0_2 _ (fun u v c => (pay5_apply _ _ _ u v c).trans (by rw [pay1_eq, View.ld_unit_zero (S := S256x128) hz2]))
  · exact slab_eq x0 x1 x2 1 (by decide) Gen.inb_S10x1000x256_S1x1000x256_1_0_0 Gen.inb_S10x1000x128_S1x1000x128_1_0_0
      Gen.inb_S1000x10_S1000x1_0_1 _ (fun u v c => (pay4_pay3_apply _ _ _ u v c).trans (by rw [View.ld_unit_zero (S := S256x128) hz2]))
  · exact slab_eq x0 x1 x2 0 (by decide) Gen.inb_S10x1000x256_S1x1000x256_0_0_0 Gen.inb_S10x1000x128_S1x1000x128_0_0_0
      Gen.inb_S1000x10_S1000x1_0_0 _ (fun u v c => (pay2_apply _ _ _ u v c).trans (by rw [View.ld_unit_zero (S := S256x128) hz2]))

/-! ## The input blocks, the write-back, the cover -/

variable (V : (c : Dev nD) → (b : Ref sig .tc) → Buf (Elt Ideal) ((c.tc : Thread nD τ).loc b))

/-- The index maps over the grid: the gathered rows' block index is (t, 0), the weights' and the biases' stay at
    the origin, the result's is (0, 0, t). -/
theorem idx_facts : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = t.val :=
  (by decide +kernel : ∀ t : Fin grid1.N, _)

/-- The block of gathered rows at point t is rows 256 t … 256 t + 255 of the array. -/
theorem blk0_apply (c : Dev nD) (t : Fin cfg1.N) (x : S256x128.Idx) (k : S4096x128.Idx)
    (hk0 : (k 0).val = t.val * 256 + (x 0).val) (hk1 : (k 1).val = (x 1).val) :
    (iblk1 V c 0 t : Vec Ideal S256x128 .f32) x = (V c main_v1 : S4096x128.Idx → EReal) k := by
  obtain ⟨e0, e1, -⟩ := idx_facts t
  unfold iblk1
  rw [View.read_apply]
  show (V c main_v1 : S4096x128.Idx → EReal) _ = _
  congr 1
  funext a
  apply Fin.ext
  match a with
  | ⟨0, _⟩ => show win1_0.index t 0 * 256 + 1 * (x 0).val = (k 0).val; rw [e0, hk0]; omega
  | ⟨1, _⟩ => show win1_0.index t 1 * 128 + 1 * (x 1).val = (k 1).val; rw [e1, hk1]; omega

/-- The weights' block at every point is the whole array. -/
theorem blk1_apply (c : Dev nD) (t : Fin cfg1.N) (x : S10x1000x128.Idx) :
    (iblk1 V c 1 t : Vec Ideal S10x1000x128 .bf16) x = (V c main_v3 : S10x1000x128.Idx → EReal) x := by
  obtain ⟨-, -, e0, e1, e2, -⟩ := idx_facts t
  unfold iblk1
  rw [View.read_apply]
  show (V c main_v3 : S10x1000x128.Idx → EReal) _ = _
  congr 1
  funext a
  apply Fin.ext
  match a with
  | ⟨0, _⟩ => show win1_1.index t 0 * 10 + 1 * (x 0).val = (x 0).val; rw [e0]; omega
  | ⟨1, _⟩ => show win1_1.index t 1 * 1000 + 1 * (x 1).val = (x 1).val; rw [e1]; omega
  | ⟨2, _⟩ => show win1_1.index t 2 * 128 + 1 * (x 2).val = (x 2).val; rw [e2]; omega

/-- The biases' block at every point is the whole array. -/
theorem blk2_apply (c : Dev nD) (t : Fin cfg1.N) (x : S1000x10.Idx) :
    (iblk1 V c 2 t : Vec Ideal S1000x10 .f32) x = (V c main_v5 : S1000x10.Idx → EReal) x := by
  obtain ⟨-, -, -, -, -, e0, e1, -⟩ := idx_facts t
  unfold iblk1
  rw [View.read_apply]
  show (V c main_v5 : S1000x10.Idx → EReal) _ = _
  congr 1
  funext a
  apply Fin.ext
  match a with
  | ⟨0, _⟩ => show win1_2.index t 0 * 1000 + 1 * (x 0).val = (x 0).val; rw [e0]; omega
  | ⟨1, _⟩ => show win1_2.index t 1 * 10 + 1 * (x 1).val = (x 1).val; rw [e1]; omega

/-- WHAT POINT t WRITES BACK is block t of the dense stage's function of the three operand arrays as the region
    finds them: the block's function of the input blocks, entry by entry, with column c of the block being column
    256 t + c of the array. -/
theorem flushed_eq (c : Dev nD) (t : Fin cfg1.N) :
    (dat1 V c).flushed 3 t
      = ((cfg1.win 3).blk t).view.read (Elt Ideal) (Mid (V c main_v1) (V c main_v3) (V c main_v5)) := by
  show (cfg1.win 3).cut (grid1.coords t) ((dat1 V c).after 3 t) = _
  rw [after1_3]
  obtain ⟨-, -, -, -, -, -, -, e30, e31, e32⟩ := idx_facts t
  funext j
  show out1_3 (F := Ideal) (iblk1 V c 0 t) (iblk1 V c 1 t) (iblk1 V c 2 t) j
    = Mid (V c main_v1) (V c main_v3) (V c main_v5) (((cfg1.win 3).blk t).view.emb j)
  refine (out1_3_apply _ _ _ j).trans ?_
  obtain ⟨p, v, q, rfl⟩ : ∃ (p : Fin 10) (v : Fin 1000) (q : Fin 256), j = ix3 p v q := ⟨j 0, j 1, j 2, eq_ix3 j⟩
  have hN : cfg1.N = 16 := N_1
  have hcol : t.val * 256 + q.val < 4096 := by have := t.isLt; have := q.isLt; omega
  have hemb : ((cfg1.win 3).blk t).view.emb (ix3 p v q) = ix3 p v (⟨t.val * 256 + q.val, hcol⟩ : Fin 4096) := by
    funext a; apply Fin.ext
    match a with
    | ⟨0, _⟩ => show win1_3.index t 0 * 10 + 1 * p.val = p.val; rw [e30]; omega
    | ⟨1, _⟩ => show win1_3.index t 1 * 1000 + 1 * v.val = v.val; rw [e31]; omega
    | ⟨2, _⟩ => show win1_3.index t 2 * 256 + 1 * q.val = t.val * 256 + q.val; rw [e32]; omega
  rw [hemb, Mid_apply]
  show blockAt (iblk1 V c 0 t) (iblk1 V c 1 t) (iblk1 V c 2 t) p v q = _
  unfold blockAt midLogit
  congr 1
  funext v'
  refine congrArg₂ (fun a b : EReal => a + b) (Finset.sum_congr rfl fun d _ => ?_) (blk2_apply V c t _)
  exact congrArg₂ (fun a b : EReal => a * b) (blk1_apply V c t _) (blk0_apply V c t _ _ rfl rfl)

/-- An index of the array is in point t's block iff each coordinate is in the block's range on its axis. -/
theorem mem_blk (t : Fin cfg1.N) (i : S10x1000x4096.Idx) :
    i ∈ ((cfg1.win 3).blk t).view.set ↔ ∀ a : Fin 3, win1_3.index t a * S10x1000x256.size a ≤ (i a).val
      ∧ (i a).val < win1_3.index t a * S10x1000x256.size a + S10x1000x256.size a := by
  show i ∈ ((View.whole main_v6).slice (win1_3.rect t)).set ↔ _
  rw [View.set_slice_whole, Rect.mem_set_unit]
  exact Iff.rfl

/-- Every index of the array is in some point's block: column j is in the block of point j / 256. -/
theorem covered (i : S10x1000x4096.Idx) :
    ∃ t : Fin cfg1.N, (cfg1.win 3).flush t = true ∧ i ∈ ((cfg1.win 3).blk t).view.set := by
  have h0 : (i 0).val < 10 := (i 0).isLt
  have h1 : (i 1).val < 1000 := (i 1).isLt
  have h2 : (i 2).val < 4096 := (i 2).isLt
  have hN : cfg1.N = 16 := N_1
  have ht : (i 2).val / 256 < cfg1.N := by rw [hN]; omega
  refine ⟨⟨(i 2).val / 256, ht⟩, flush1_3 _, ?_⟩
  rw [mem_blk]
  obtain ⟨-, -, -, -, -, -, -, e0, e1, e2⟩ := idx_facts (⟨(i 2).val / 256, ht⟩ : Fin cfg1.N)
  intro a
  match a with
  | ⟨0, _⟩ =>
    show win1_3.index ⟨(i 2).val / 256, ht⟩ 0 * 10 ≤ (i 0).val ∧ (i 0).val < win1_3.index ⟨(i 2).val / 256, ht⟩ 0 * 10 + 10
    rw [e0]; omega
  | ⟨1, _⟩ =>
    show win1_3.index ⟨(i 2).val / 256, ht⟩ 1 * 1000 ≤ (i 1).val ∧ (i 1).val < win1_3.index ⟨(i 2).val / 256, ht⟩ 1 * 1000 + 1000
    rw [e1]; omega
  | ⟨2, _⟩ =>
    show win1_3.index ⟨(i 2).val / 256, ht⟩ 2 * 256 ≤ (i 2).val ∧ (i 2).val < win1_3.index ⟨(i 2).val / 256, ht⟩ 2 * 256 + 256
    rw [e2]
    show (i 2).val / 256 * 256 ≤ (i 2).val ∧ (i 2).val < (i 2).val / 256 * 256 + 256
    omega

/-! ## The array after the run of the region -/

/-- The result array after the sixteen points: the dense stage's function of the three operand arrays as the region
    finds them. -/
theorem arrAt_dat1 (c : Dev nD) :
    (dat1 V c).arrAt 3 cfg1.N = Mid (V c main_v1) (V c main_v3) (V c main_v5) :=
  (dat1 V c).arrAt_eq_of_cover 3 (Mid (V c main_v1) (V c main_v3) (V c main_v5)) (fun t _ => flushed_eq V c t)
    (covered)

/-- The same, for the proof data family at its one pipeline, the number of points written out. -/
theorem arrAt_eq_Mid (c : Dev nD) :
    ((pdats (F := Ideal) V 0 c).arrAt 3 16 : S10x1000x4096.Idx → EReal)
      = Mid (V c main_v1) (V c main_v3) (V c main_v5) :=
  arrAt_dat1 V c

end Cert.KernelIdeal.TcValue

end
-- ==== Proof.lean ====
/- The certificate's claim. Both idealized programs compute, at [j, p, v], the softmax over the 1000 vocabulary
   entries v of the logits (Σ_d W[1000 p + v, d] · E[X[j], d]) + b[1000 p + v]: the kernel as
   exp(l) · (1 / Σ exp(l)), block of 256 batch rows by block, on the rows its gather fetched; the reference as
   exp(l − max) / Σ exp(l − max). The two forms agree for real logits, and the input domain (finite entries,
   index words between 0 and 999) makes every logit real and every gathered row the table's own. Each program's
   run also leaves its four argument arrays as launched, which is its frame. -/
import proofs.«218874_g56547539419890_cont_9to1c4b_400_22_alg».proof.Defs
import proofs.«218874_g56547539419890_cont_9to1c4b_400_22_alg».proof.Proof.Gen.Kernel
import proofs.«218874_g56547539419890_cont_9to1c4b_400_22_alg».proof.Proof.Gen.Kernel.Skeleton
import proofs.«218874_g56547539419890_cont_9to1c4b_400_22_alg».proof.Proof.Gen.Kernel.Launch
import proofs.«218874_g56547539419890_cont_9to1c4b_400_22_alg».proof.Proof.Gen.Kernel.Points
import proofs.«218874_g56547539419890_cont_9to1c4b_400_22_alg».proof.Proof.Gen.KernelIdeal
import proofs.«218874_g56547539419890_cont_9to1c4b_400_22_alg».proof.Proof.Gen.KernelIdeal.Skeleton
import proofs.«218874_g56547539419890_cont_9to1c4b_400_22_alg».proof.Proof.Gen.KernelIdeal.Launch
import proofs.«218874_g56547539419890_cont_9to1c4b_400_22_alg».proof.Proof.Gen.KernelIdeal.Points
import proofs.«218874_g56547539419890_cont_9to1c4b_400_22_alg».proof.Proof.Gen.ReferenceIdeal
import proofs.«218874_g56547539419890_cont_9to1c4b_400_22_alg».proof.Proof.Gen.Pre_input_domain
import proofs.«218874_g56547539419890_cont_9to1c4b_400_22_alg».proof.Proof.KI.Run
import proofs.«218874_g56547539419890_cont_9to1c4b_400_22_alg».proof.Proof.KB.Run
import proofs.«218874_g56547539419890_cont_9to1c4b_400_22_alg».proof.Proof.RefValue
import proofs.«218874_g56547539419890_cont_9to1c4b_400_22_alg».proof.Proof.KernelValue
import proofs.«218874_g56547539419890_cont_9to1c4b_400_22_alg».proof.Proof.TcValue
import proofs.«218874_g56547539419890_cont_9to1c4b_400_22_alg».proof.Proof.PreFacts
import Idealize.ShloMosaic.Adequacy
import Idealize.ShloMosaic.Init

noncomputable section

namespace Cert.Proof

open Idealize.ShloMosaic Idealize.ShloMosaic.ValueIdx Idealize.SL.Sem

/-- The word-level kernel runs and leaves its arguments as launched: its run's post with the result dropped. -/
theorem frame_Kernel : Cert.frame_Kernel (hKernel := Cert.Kernel.Gen.facts) (hPre_input_domain := Cert.Pre_input_domain.Gen.facts) :=
  fun m g hpre =>
    (θ_run (Cert.Kernel.defs (F := Bits)) _ _).mono
      (fun _ h c => ⟨(h c).2.1, (h c).2.2.1, (h c).2.2.2.1, (h c).2.2.2.2⟩)
      (Cert.Kernel.Hand.run_main (F := Bits) m g (Cert.Kernel.Hand.preOK_of_pre m hpre))

/-- The idealized kernel runs and leaves its arguments as launched: its run's post with the result dropped. -/
theorem frame_KernelIdeal :
    Cert.frame_KernelIdeal (hKernelIdeal := Cert.KernelIdeal.Gen.facts) (hPre_input_domain := Cert.Pre_input_domain.Gen.facts) :=
  fun m g hpre =>
    (θ_run (Cert.KernelIdeal.defs (F := Ideal)) _ _).mono
      (fun _ h c => ⟨(h c).2.1, (h c).2.2.1, (h c).2.2.2.1, (h c).2.2.2.2⟩)
      (Cert.KernelIdeal.Hand.run_main (F := Ideal) m g (Cert.KernelIdeal.Hand.preOK_of_pre m hpre))

/-- The idealized reference runs and leaves its arguments as launched: its run's post with the result dropped. -/
theorem frame_ReferenceIdeal :
    Cert.frame_ReferenceIdeal (hReferenceIdeal := Cert.ReferenceIdeal.Gen.facts) (hPre_input_domain := Cert.Pre_input_domain.Gen.facts) :=
  fun m g _ =>
    (θ_run (Cert.ReferenceIdeal.defs (F := Ideal)) _ _).mono (fun _ h c => (h c).2)
      (Cert.ReferenceIdeal.RefValue.run (F := Ideal) m g)

/-- From memories agreeing on the arguments both idealized programs end with the specification's value of those
    arguments: the kernel because the dense stage leaves the specification's array over the gathered rows and the
    re-laid weights and biases; the reference because, the index words lying in the table and every entry being a
    real number, its gather reads the table's own rows and its softmax's two forms agree. -/
theorem algebraic :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run (Cert.KernelIdeal.defs (F := Ideal)) _ _).mono (fun _ h c => ⟨(h c).1.trans ?_, (h c).2⟩)
      (Cert.KernelIdeal.Hand.run_main (F := Ideal) m g (Cert.KernelIdeal.Hand.preOK_of_pre m hpre))
    exact Cert.KernelIdeal.Value2.res_eq_G m c
      (Cert.KernelIdeal.TcValue.arrAt_eq_Mid (Cert.KernelIdeal.Hand.V6 m) c)
  · refine (θ_run (Cert.ReferenceIdeal.defs (F := Ideal)) _ _).mono (fun _ h c => ⟨(h c).1.trans ?_, (h c).2⟩)
      (Cert.ReferenceIdeal.RefValue.run (F := Ideal) m' g')
    obtain ⟨a0, a1, a2, a3⟩ := hagree c
    rw [a0, a1, a2, a3]
    obtain ⟨hE, hW, hb⟩ := Cert.Spec.PreFacts.entries_real _ _ _ _ (hpre c)
    exact Cert.ReferenceIdeal.RefValue.refTerm_eq_G _ _ _ _
      (fun j => Cert.Spec.PreFacts.index_lt _ _ _ _ (hpre c) (ix1 j)) hE hW hb

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
